-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) (main_arg1 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S16x3x1024x1024 .f32 := Host.absf main_arg1
  let main_cst_0 : FVec F S_ .f32 := constant S_ .f32 0x7F800000#32
  let main_v5 : FVec F S16x3x1024x1024 .f32 := broadcastInDim S16x3x1024x1024 ![] bcast_S_S16x3x1024x1024 main_cst_0
  let main_v6 : IVec S16x3x1024x1024 1 := cmpf .olt main_v4 main_v5
  let main_c_1 : IVec S_ 1 := constantI S_ 1 1#1
  let main_v7 : IVec S_ 1 := (fun x v => Host.reduce IntOp.andi x v reducesTo_S16x3x1024x1024_S_d0_1_2_3 h_S_) main_v6 main_c_1
  let main_v8 : IVec S_ 1 := andi main_v3 main_v7
  main_v8
-- ==== Kernel.lean ====
abbrev S16x3x1024x1024 : Shape := ⟨4, ![16, 3, 1024, 1024]⟩
abbrev S16x1x128 : Shape := ⟨3, ![16, 1, 128]⟩
abbrev S1x3x512x1024 : Shape := ⟨4, ![1, 3, 512, 1024]⟩
abbrev S1x1x128 : Shape := ⟨3, ![1, 1, 128]⟩
abbrev S1x16 : Shape := ⟨2, ![1, 16]⟩
abbrev S1x1x512x1024 : Shape := ⟨4, ![1, 1, 512, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x10 : Shape := ⟨2, ![1, 10]⟩
abbrev S1x6 : Shape := ⟨2, ![1, 6]⟩
abbrev S1x112 : Shape := ⟨2, ![1, 112]⟩
abbrev S1x128 : Shape := ⟨2, ![1, 128]⟩
abbrev S16x128 : Shape := ⟨2, ![16, 128]⟩
abbrev S16x1 : Shape := ⟨2, ![16, 1]⟩
abbrev S16 : Shape := ⟨1, ![16]⟩
abbrev S16x3 : Shape := ⟨2, ![16, 3]⟩
abbrev S_ : Shape := ⟨0, ![]⟩

abbrev nBuf : Space → Nat
  | .hbm => 85
  | .vmem => 7
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1024x1024, .f32⟩
  | .hbm, ⟨2, _⟩ => ⟨S16x1x128, .f32⟩
  | .hbm, ⟨3, _⟩ => ⟨S16x128, .f32⟩
  | .hbm, ⟨4, _⟩ => ⟨S16x1, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16, .f32⟩
  | .hbm, ⟨10, _⟩ => ⟨S16x1, .f32⟩
  | .hbm, ⟨11, _⟩ => ⟨S16, .f32⟩
  | .hbm, ⟨12, _⟩ => ⟨S16x3, .f32⟩
  | .hbm, ⟨13, _⟩ => ⟨S16x3, .f32⟩
  | .hbm, ⟨14, _⟩ => ⟨S_, .f32⟩
  | .hbm, ⟨15, _⟩ => ⟨S16, .f32⟩
  | .hbm, ⟨16, _⟩ => ⟨S16, .i1⟩
  | .hbm, ⟨17, _⟩ => ⟨S_, .f32⟩
  | .hbm, ⟨18, _⟩ => ⟨S16, .f32⟩
  | .hbm, ⟨19, _⟩ => ⟨S16, .i1⟩
  | .hbm, ⟨20, _⟩ => ⟨S16, .i1⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16x1, .f32⟩
  | .hbm, ⟨36, _⟩ => ⟨S16x3, .f32⟩
  | .hbm, ⟨37, _⟩ => ⟨S16x3, .f32⟩
  | .hbm, ⟨38, _⟩ => ⟨S16x1, .f32⟩
  | .hbm, ⟨39, _⟩ => ⟨S16x3, .f32⟩
  | .hbm, ⟨40, _⟩ => ⟨S16x3, .f32⟩
  | .hbm, ⟨41, _⟩ => ⟨S16x3, .f32⟩
  | .hbm, ⟨42, _⟩ => ⟨S16x3, .f32⟩
  | .hbm, ⟨43, _⟩ => ⟨S_, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .i1⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S1x3x512x1024, .f32⟩
  | .local _ .vmem, ⟨1, _⟩ => ⟨S1x3x512x1024, .f32⟩
  | .local _ .vmem, ⟨2, _⟩ => ⟨S1x3x512x1024, .f32⟩
  | .local _ .vmem, ⟨3, _⟩ => ⟨S1x3x512x1024, .f32⟩
  | .local _ .vmem, ⟨4, _⟩ => ⟨S1x1x128, .f32⟩
  | .local _ .vmem, ⟨5, _⟩ => ⟨S1x1x128, .f32⟩
  | .local _ .vmem, ⟨6, _⟩ => ⟨S1x16, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v45 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_call3_v0 : Ref sig .tc := ⟨.hbm, 78, rfl⟩
abbrev main_call3_v1 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v163 : BitVec 1 := Scalar.cmpi .eq arg1 c1_i32
  let v164 : BitVec 32 := Scalar.extui v163
  let c0_i32_75 : BitVec 32 := 0#32
  let v165 : BitVec 1 := Scalar.cmpi .ne v164 c0_i32_75
  v165

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x3x512x1024_S1x1x512x1024_0_0_0_0 : ∀ a, (![0, 0, 0, 0] : Fin 4 → Nat) a + S1x1x512x1024.size a ≤ S1x3x512x1024.size a
  h_S1x1x512x1024 : 0 < S1x1x512x1024.numel
  shapeCasts_S1x1x512x1024_S512x1024 : S1x1x512x1024.ShapeCasts S512x1024
  inb_S1x3x512x1024_S1x1x512x1024_0_1_0_0 : ∀ a, (![0, 1, 0, 0] : Fin 4 → Nat) a + S1x1x512x1024.size a ≤ S1x3x512x1024.size a
  inb_S1x3x512x1024_S1x1x512x1024_0_2_0_0 : ∀ a, (![0, 2, 0, 0] : Fin 4 → Nat) a + S1x1x512x1024.size a ≤ S1x3x512x1024.size a
  natLt_1_32 : 1 < 32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  concatenates_S1x1_S1x1_S1x1_S1x1_S1x1_S1x1_S1x1_S1x1_S1x1_S1x1_S1x10_d1 : Shape.Concatenates [S1x1, S1x1, S1x1, S1x1, S1x1, S1x1, S1x1, S1x1, S1x1, S1x1] S1x10 1
  concatenates_S1x10_S1x6_S1x16_d1 : Shape.Concatenates [S1x10, S1x6] S1x16 1
  concatenates_S1x16_S1x112_S1x128_d1 : Shape.Concatenates [S1x16, S1x112] S1x128 1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S16x1x128_S16x128 : S16x1x128.ShapeCasts S16x128
  slices_S16x128_S16x1_0_0 : S16x128.Slices ![0, 0] S16x1
  shapeCasts_S16x1_S16 : S16x1.ShapeCasts S16
  slices_S16x128_S16x1_0_1 : S16x128.Slices ![0, 1] S16x1
  slices_S16x128_S16x1_0_2 : S16x128.Slices ![0, 2] S16x1
  slices_S16x128_S16x1_0_3 : S16x128.Slices ![0, 3] S16x1
  slices_S16x128_S16x3_0_4 : S16x128.Slices ![0, 4] S16x3
  slices_S16x128_S16x3_0_7 : S16x128.Slices ![0, 7] S16x3
  bcast_S_S16 : S_.BroadcastsInDim S16 (![] : Fin 0 → Fin S16.rank)
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  reducesTo_S16x3_S16_d1 : S16x3.ReducesTo [1] S16
  h_S_ : 0 < S_.numel
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x1024.size a ≤ S16x3x1024x1024.size a
  hwx0_0 : ∀ i : grid0.Coords, EltTy.bits .f32 = 32 ∨ (Rect.block (s := S16x3x1024x1024) S1x3x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x1024.size a ≤ S16x3x1024x1024.size a
  hwx0_1 : ∀ i : grid0.Coords, EltTy.bits .f32 = 32 ∨ (Rect.block (s := S16x3x1024x1024) S1x3x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_arg0) S1x3x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x1024x1024 : Shape := ⟨4, ![16, 3, 1024, 1024]⟩
abbrev S_ : Shape := ⟨0, ![]⟩
abbrev S16x1024x1024 : Shape := ⟨3, ![16, 1024, 1024]⟩
abbrev S16x1x1024x1024 : Shape := ⟨4, ![16, 1, 1024, 1024]⟩
abbrev S16 : Shape := ⟨1, ![16]⟩
abbrev S16x3 : Shape := ⟨2, ![16, 3]⟩
abbrev S16x1 : Shape := ⟨2, ![16, 1]⟩

abbrev nBuf : Space → Nat
  | .hbm => 138
  | .vmem => 0
  | .smem => 0
  | _ => 0

abbrev hbmTy0_0 (i : Nat) : BufTy := match i % 128 with
  | 0 => ⟨S16x3x1024x1024, .f32⟩
  | 1 => ⟨S16x3x1024x1024, .f32⟩
  | 2 => ⟨S_, .f32⟩
  | 3 => ⟨S16x3x1024x1024, .f32⟩
  | 4 => ⟨S16x3x1024x1024, .i1⟩
  | 5 => ⟨S_, .i1⟩
  | 6 => ⟨S16x1024x1024, .i1⟩
  | 7 => ⟨S_, .f32⟩
  | 8 => ⟨S16x3x1024x1024, .f32⟩
  | 9 => ⟨S16x3x1024x1024, .i1⟩
  | 10 => ⟨S_, .i1⟩
  | 11 => ⟨S16x1024x1024, .i1⟩
  | 12 => ⟨S16x1x1024x1024, .i1⟩
  | 13 => ⟨S16x1x1024x1024, .f32⟩
  | 14 => ⟨S16x1x1024x1024, .i1⟩
  | 15 => ⟨S16x1x1024x1024, .f32⟩
  | 16 => ⟨S16x1024x1024, .i32⟩
  | 17 => ⟨S_, .i32⟩
  | 18 => ⟨S16, .i32⟩
  | 19 => ⟨S16, .f32⟩
  | 20 => ⟨S16x1024x1024, .i32⟩
  | 21 => ⟨S_, .i32⟩
  | 22 => ⟨S16, .i32⟩
  | 23 => ⟨S16, .f32⟩
  | 24 => ⟨S_, .f32⟩
  | 25 => ⟨S16, .f32⟩
  | 26 => ⟨S16, .i1⟩
  | 27 => ⟨S_, .f32⟩
  | 28 => ⟨S16, .f32⟩
  | 29 => ⟨S16, .i1⟩
  | 30 => ⟨S16, .i1⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S16x3x1024x1024, .f32⟩
  | 38 => ⟨S_, .f32⟩
  | 39 => ⟨S16x3x1024x1024, .f32⟩
  | 40 => ⟨S16x3x1024x1024, .i1⟩
  | 41 => ⟨S_, .f32⟩
  | 42 => ⟨S16x3x1024x1024, .f32⟩
  | 43 => ⟨S16x3x1024x1024, .f32⟩
  | 44 => ⟨S16x3x1024x1024, .f32⟩
  | 45 => ⟨S_, .f32⟩
  | 46 => ⟨S16x3x1024x1024, .f32⟩
  | 47 => ⟨S16x3x1024x1024, .f32⟩
  | 48 => ⟨S16x3x1024x1024, .f32⟩
  | 49 => ⟨S16x3x1024x1024, .f32⟩
  | 50 => ⟨S16x3x1024x1024, .f32⟩
  | 51 => ⟨S_, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16x3x1024x1024, .f32⟩
  | 59 => ⟨S16x3x1024x1024, .f32⟩
  | 60 => ⟨S16x3x1024x1024, .f32⟩
  | 61 => ⟨S_, .f32⟩
  | 62 => ⟨S16x3x1024x1024, .f32⟩
  | 63 => ⟨S16x3x1024x1024, .i1⟩
  | 64 => ⟨S_, .f32⟩
  | 65 => ⟨S16x3x1024x1024, .f32⟩
  | 66 => ⟨S16x3x1024x1024, .f32⟩
  | 67 => ⟨S16x3x1024x1024, .f32⟩
  | 68 => ⟨S_, .f32⟩
  | 69 => ⟨S16x3x1024x1024, .f32⟩
  | 70 => ⟨S16x3x1024x1024, .f32⟩
  | 71 => ⟨S16x3x1024x1024, .f32⟩
  | 72 => ⟨S16x3x1024x1024, .f32⟩
  | 73 => ⟨S16x3x1024x1024, .f32⟩
  | 74 => ⟨S_, .f32⟩
  | 75 => ⟨S16, .f32⟩
  | 76 => ⟨S_, .f32⟩
  | 77 => ⟨S16, .f32⟩
  | 78 => ⟨S16, .f32⟩
  | 79 => ⟨S16, .f32⟩
  | 80 => ⟨S16x3x1024x1024, .f32⟩
  | 81 => ⟨S16x3x1024x1024, .f32⟩
  | 82 => ⟨S_, .f32⟩
  | 83 => ⟨S16x3, .f32⟩
  | 84 => ⟨S16x1, .f32⟩
  | 85 => ⟨S16x3, .f32⟩
  | 86 => ⟨S16x3, .f32⟩
  | 87 => ⟨S16x3x1024x1024, .f32⟩
  | 88 => ⟨S16x3x1024x1024, .f32⟩
  | 89 => ⟨S_, .f32⟩
  | 90 => ⟨S16x3, .f32⟩
  | 91 => ⟨S16x1, .f32⟩
  | 92 => ⟨S16x3, .f32⟩
  | 93 => ⟨S16x3, .f32⟩
  | 94 => ⟨S16x3, .f32⟩
  | 95 => ⟨S16x3, .f32⟩
  | 96 => ⟨S_, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16, .f32⟩
  | 105 => ⟨S16, .f32⟩
  | 106 => ⟨S16, .f32⟩
  | 107 => ⟨S16, .f32⟩
  | 108 => ⟨S16, .f32⟩
  | 109 => ⟨S_, .f32⟩
  | 110 => ⟨S_, .f32⟩
  | 111 => ⟨S16, .f32⟩
  | 112 => ⟨S16, .f32⟩
  | 113 => ⟨S_, .f32⟩
  | 114 => ⟨S_, .f32⟩
  | 115 => ⟨S16, .f32⟩
  | 116 => ⟨S16, .f32⟩
  | 117 => ⟨S16, .f32⟩
  | 118 => ⟨S_, .f32⟩
  | 119 => ⟨S_, .f32⟩
  | 120 => ⟨S16, .f32⟩
  | 121 => ⟨S16, .f32⟩
  | 122 => ⟨S16, .f32⟩
  | 123 => ⟨S_, .f32⟩
  | 124 => ⟨S16, .f32⟩
  | 125 => ⟨S16, .i1⟩
  | 126 => ⟨S_, .f32⟩
  | 127 => ⟨S16, .f32⟩
  | _ => ⟨S16x3x1024x1024, .f32⟩

abbrev hbmTy0_1 (i : Nat) : BufTy := match i % 128 with
  | 0 => ⟨S16, .f32⟩
  | 1 => ⟨S16, .f32⟩
  | 2 => ⟨S_, .f32⟩
  | 3 => ⟨S_, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | _ => ⟨S16x3x1024x1024, .f32⟩

abbrev hbmTy (i : Nat) : BufTy := match i / 128 with
  | 0 => hbmTy0_0 i
  | 1 => hbmTy0_1 i
  | _ => ⟨S16x3x1024x1024, .f32⟩

abbrev bufTy : (tb : Table) → Fin (tcTables nBuf tb) → BufTy
  | .hbm, ⟨i, _⟩ => hbmTy i
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_cst_18 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_19 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_20 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_cst_22 : Ref sig .tc := ⟨.hbm, 98, rfl⟩
abbrev main_v72 : Ref sig .tc := ⟨.hbm, 99, rfl⟩
abbrev main_v73 : Ref sig .tc := ⟨.hbm, 100, rfl⟩
abbrev main_cst_23 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_24 : Ref sig .tc := ⟨.hbm, 109, rfl⟩
abbrev main_call2_v0 : Ref sig .tc := ⟨.hbm, 110, rfl⟩
abbrev main_call2_v1 : Ref sig .tc := ⟨.hbm, 111, rfl⟩
abbrev main_v81 : Ref sig .tc := ⟨.hbm, 112, rfl⟩
abbrev main_cst_25 : Ref sig .tc := ⟨.hbm, 113, rfl⟩
abbrev main_call3_v0 : Ref sig .tc := ⟨.hbm, 114, rfl⟩
abbrev main_call3_v1 : Ref sig .tc := ⟨.hbm, 115, rfl⟩
abbrev main_v82 : Ref sig .tc := ⟨.hbm, 116, rfl⟩
abbrev main_v83 : Ref sig .tc := ⟨.hbm, 117, rfl⟩
abbrev main_cst_26 : Ref sig .tc := ⟨.hbm, 118, rfl⟩
abbrev main_call4_v0 : Ref sig .tc := ⟨.hbm, 119, rfl⟩
abbrev main_call4_v1 : Ref sig .tc := ⟨.hbm, 120, rfl⟩
abbrev main_v84 : Ref sig .tc := ⟨.hbm, 121, rfl⟩
abbrev main_v85 : Ref sig .tc := ⟨.hbm, 122, rfl⟩
abbrev main_cst_27 : Ref sig .tc := ⟨.hbm, 123, rfl⟩
abbrev main_v86 : Ref sig .tc := ⟨.hbm, 124, rfl⟩
abbrev main_v87 : Ref sig .tc := ⟨.hbm, 125, rfl⟩
abbrev main_cst_28 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_29 : Ref sig .tc := ⟨.hbm, 130, rfl⟩
abbrev main_call5_v0 : Ref sig .tc := ⟨.hbm, 131, rfl⟩
abbrev main_call5_v1 : Ref sig .tc := ⟨.hbm, 132, rfl⟩
abbrev main_v91 : Ref sig .tc := ⟨.hbm, 133, rfl⟩
abbrev main_cst_30 : Ref sig .tc := ⟨.hbm, 134, rfl⟩
abbrev main_v92 : Ref sig .tc := ⟨.hbm, 135, rfl⟩
abbrev main_cst_31 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  bcast_S_S16x3x1024x1024 : S_.BroadcastsInDim S16x3x1024x1024 (![] : Fin 0 → Fin S16x3x1024x1024.rank)
  reducesTo_S16x3x1024x1024_S16x1024x1024_d1 : S16x3x1024x1024.ReducesTo [1] S16x1024x1024
  h_S_ : 0 < S_.numel
  bcast_S16x1024x1024_S16x1x1024x1024_0_2_3 : S16x1024x1024.BroadcastsInDim S16x1x1024x1024 (![0, 2, 3] : Fin 3 → Fin S16x1x1024x1024.rank)
  natLt_1_32 : 1 < 32
  reducesTo_S16x1024x1024_S16_d1_2 : S16x1024x1024.ReducesTo [1, 2] S16
  bcast_S_S16 : S_.BroadcastsInDim S16 (![] : Fin 0 → Fin S16.rank)
  bcast_S16x1x1024x1024_S16x3x1024x1024_0_1_2_3 : S16x1x1024x1024.BroadcastsInDim S16x3x1024x1024 (![0, 1, 2, 3] : Fin 4 → Fin S16x3x1024x1024.rank)
  reducesTo_S16x3x1024x1024_S16_d1_2_3 : S16x3x1024x1024.ReducesTo [1, 2, 3] S16
  reducesTo_S16x3x1024x1024_S16x3_d2_3 : S16x3x1024x1024.ReducesTo [2, 3] S16x3
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  reducesTo_S16x3_S16_d1 : S16x3.ReducesTo [1] S16
  reducesTo_S16_S_d0 : S16.ReducesTo [0] S_

variable [Facts₀]

class Facts : Prop extends Facts₀ where

variable [Facts]
-- ==== Proof.KB.Around.lean ====
/-
  The program's @main around its one pipelined region, and what the frame proof of the region is stated over.

  @main is: the region (a grid of 32 points = 16 samples × 2 row tiles), then 82 host operations in nine stretches that
  turn the region's one result array (16 × 1 × 128 statistics) into the scalar loss. Nothing precedes the region, so
  the region finds the two argument arrays as launched.  The host operations after the region touch only unscoped
  TensorCore buffers, allocate nothing, and each writes its own result buffer only — never one of the three arrays
  the region's windows stage (the two arguments and the statistics array).

  The kernel body branches on the row-tile coordinate only: at the first row tile of a sample it clears its 1 × 16
  scratch accumulator before adding the tile's statistics; at the last row tile it also copies the accumulator,
  padded with zeros to 128 lanes, into the output block.  With two row tiles per sample the even points are the
  clearing case and the odd points the copying case; the output window is idle (not stored, not written back) at
  the even points.
-/
import proofs.«109099_j47090021433737_2_alg».proof.Proof.Gen.Kernel.Launch
import proofs.«109099_j47090021433737_2_alg».proof.Proof.Gen.Kernel.Skeleton
import proofs.«109099_j47090021433737_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The nine stretches of host operations that follow the region, in order. -/
abbrev tailOps : List (List (HloOp τ sig (Elt F))) :=
  [hostOps1, hostOps1_1, hostOps1_2, hostOps1_3, hostOps1_4, hostOps1_5, hostOps1_6, hostOps1_7, hostOps1_8]

/-- A core's buffer contents when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region continued by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ### No host operation after the region allocates, and none writes an array the windows stage -/

/-- An operation allocates nothing and writes none of the three staged arrays. -/
def Tame (op : HloOp τ sig (Elt F)) : Prop :=
  op.fresh = ∅ ∧ ∀ w, Proc.devRef .tc (Pipeline.arrRef spec0 w) ∉ op.writes

/-- An operation whose one written buffer is none of the three staged arrays, and which allocates nothing, is tame. -/
theorem tame_of {op : HloOp τ sig (Elt F)} {y : Ref sig .tc} (hf : op.fresh = ∅) (hw : op.writes = {Proc.devRef .tc y})
    (h : ∀ w, Pipeline.arrRef spec0 w ≠ y) : Tame op :=
  ⟨hf, fun w hm => StableHlo.devRef_ne_of_ne (h w) (Finset.mem_singleton.mp (hw ▸ hm))⟩

/-- Every operation of a stretch is tame: each is one builder's operation, which allocates nothing and writes its own
    result buffer, a buffer that is none of the two arguments and the statistics array. -/
theorem hostOps1_tame : (hostOps1 : List (HloOp τ sig (Elt F))).Forall Tame := by
  simp only [List.Forall]; repeat' (first | exact tame_of rfl rfl (by decide) | constructor)
theorem hostOps1_1_tame : (hostOps1_1 : List (HloOp τ sig (Elt F))).Forall Tame := by
  simp only [List.Forall]; repeat' (first | exact tame_of rfl rfl (by decide) | constructor)
theorem hostOps1_2_tame : (hostOps1_2 : List (HloOp τ sig (Elt F))).Forall Tame := by
  simp only [List.Forall]; repeat' (first | exact tame_of rfl rfl (by decide) | constructor)
theorem hostOps1_3_tame : (hostOps1_3 : List (HloOp τ sig (Elt F))).Forall Tame := by
  simp only [List.Forall]; repeat' (first | exact tame_of rfl rfl (by decide) | constructor)
theorem hostOps1_4_tame : (hostOps1_4 : List (HloOp τ sig (Elt F))).Forall Tame := by
  simp only [List.Forall]; repeat' (first | exact tame_of rfl rfl (by decide) | constructor)
theorem hostOps1_5_tame : (hostOps1_5 : List (HloOp τ sig (Elt F))).Forall Tame := by
  simp only [List.Forall]; repeat' (first | exact tame_of rfl rfl (by decide) | constructor)
theorem hostOps1_6_tame : (hostOps1_6 : List (HloOp τ sig (Elt F))).Forall Tame := by
  simp only [List.Forall]; repeat' (first | exact tame_of rfl rfl (by decide) | constructor)
theorem hostOps1_7_tame : (hostOps1_7 : List (HloOp τ sig (Elt F))).Forall Tame := by
  simp only [List.Forall]; repeat' (first | exact tame_of rfl rfl (by decide) | constructor)
theorem hostOps1_8_tame : (hostOps1_8 : List (HloOp τ sig (Elt F))).Forall Tame := by
  simp only [List.Forall]; repeat' (first | exact tame_of rfl rfl (by decide) | constructor)

/-- Every operation after the region is tame. -/
theorem tail_tame : ∀ ops ∈ (tailOps : List (List (HloOp τ sig (Elt F)))), ∀ op ∈ ops, Tame op := by
  intro ops hops op hop
  simp only [tailOps, List.mem_cons, List.mem_nil_iff, or_false] at hops
  rcases hops with rfl | rfl | rfl | rfl | rfl | rfl | rfl | rfl | rfl
  · exact (List.forall_iff_forall_mem.mp hostOps1_tame) op hop
  · exact (List.forall_iff_forall_mem.mp hostOps1_1_tame) op hop
  · exact (List.forall_iff_forall_mem.mp hostOps1_2_tame) op hop
  · exact (List.forall_iff_forall_mem.mp hostOps1_3_tame) op hop
  · exact (List.forall_iff_forall_mem.mp hostOps1_4_tame) op hop
  · exact (List.forall_iff_forall_mem.mp hostOps1_5_tame) op hop
  · exact (List.forall_iff_forall_mem.mp hostOps1_6_tame) op hop
  · exact (List.forall_iff_forall_mem.mp hostOps1_7_tame) op hop
  · exact (List.forall_iff_forall_mem.mp hostOps1_8_tame) op hop

/-- The operations after the region touch the pipeline's arrays and the buffers that bypass the region only: each
    touches unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ :=
  fun ops hops op hop => (tail_tame ops hops op hop).1
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop => (tail_tame ops hops op hop).2

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every staged array at what the
    library computes from the proof data leaves the two argument arrays — inputs of the pipeline — as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's two branch conditions -/

/-- "This is the sample's first row tile": the condition of the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the sample's last row tile": the condition of the body's second conditional. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a sample's first row tile the output window is idle: the body stores nothing into it, -/
theorem idleAt0_2_A : ∀ t : Fin cfg0.N, cond0_0 (grid0.coords t) → ¬cond0_1 (grid0.coords t) → cfg0.idle 2 (grid0.coords t) = true := by decide +kernel
/-- and the pipeline does not write its block back. -/
theorem noFlush0_2_A : ∀ t : Fin cfg0.N, cond0_0 (grid0.coords t) → ¬cond0_1 (grid0.coords t) → (cfg0.win 2).flush t = false := by decide +kernel
/-- At a sample's last row tile it is live. -/
theorem liveAt0_2_B : ∀ t : Fin cfg0.N, ¬cond0_0 (grid0.coords t) → cond0_1 (grid0.coords t) → cfg0.idle 2 (grid0.coords t) = false := by decide +kernel

/-! ## The staging and scratch memrefs the body is called with -/

/-- One staging buffer of the output window, through which its contents are stated. -/
abbrev VO0_2 : View sig .tc .vmem S1x1x128 .f32 := (Memref.whole cc0_stg2_0 : Memref sig .tc .vmem S1x1x128 .f32).view
abbrev ms0_0 (t : Fin cfg0.N) : Memref sig .tc .vmem S1x3x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0_0 : Memref sig .tc .vmem S1x16 .f32 := Memref.whole cc0_scratch0
abbrev VS0_0 : View sig .tc .vmem S1x16 .f32 := scM0_0.view

/-- The region's invariant before the first point: the scratch accumulator owned at some contents, and the generator
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KB.RunA.lean ====
/-
  The kernel body at a sample's FIRST row tile (the clearing case), run whole.

  On whole staging memrefs — the two input blocks at their contents, the output block at contents that are handed
  back untouched (the body stores nothing into it in this case), the scratch accumulator at anything — the body runs
  to its end without a fault, leaving the inputs as they were and the scratch with the pieces its stores wrote:
  first the zero vector, then, over it, the zero vector plus the tile's sixteen statistics.  The pieces are found by
  running the body symbolically; they are the witness.
-/
import proofs.«109099_j47090021433737_2_alg».proof.Proof.KB.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the clearing case, as the list of pieces its stores leave in the scratch accumulator, with the proof
    that it runs. -/
noncomputable def kernelRun0_A (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 : Vec F S1x3x512x1024 .f32) (x1 : Vec F S1x3x512x1024 .f32) :
    Σ' (L2 : List (View.Piece (Elt F) S1x1x128 .f32)), { LS0 : List (View.Piece (Elt F) S1x16 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.RunB.lean ====
/-
  The kernel body at a sample's LAST row tile (the copying case), run whole.

  On whole staging memrefs — the two input blocks at their contents, the output block at anything, the scratch
  accumulator at the contents the point before left — the body runs to its end without a fault, leaving the inputs
  as they were, the scratch with the one piece its store wrote (the carried contents plus the tile's sixteen
  statistics) and the output block with the one piece stored into it (that sum padded with zeros to 128 lanes).
-/
import proofs.«109099_j47090021433737_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the copying case, as the lists of pieces its stores leave in the output block and in the scratch
    accumulator, with the proof that it runs. -/
noncomputable def kernelRun0_B (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 : Vec F S1x3x512x1024 .f32) (x1 : Vec F S1x3x512x1024 .f32) (xs0 : Vec F S1x16 .f32) :
    Σ' (L2 : List (View.Piece (Elt F) S1x1x128 .f32)), { LS0 : List (View.Piece (Elt F) S1x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.Frame.lean ====
/-
  The frame of the program: it runs to its end without a fault and leaves its two argument arrays unchanged —
  with, on the way, what the scratch accumulator and the output block hold after each grid point.

  After an even point (a sample's first row tile) the scratch holds the pieces of the clearing case read back; after an
  odd point (the last row tile) it holds the copying case's one piece over what the even point before left, and the
  output block holds the copying case's one piece.  The region's invariant carries the scratch at exactly these
  contents from one point to the next; the output block is written back after the odd points only, and at the even
  points its buffer is handed back untouched.
-/
import proofs.«109099_j47090021433737_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The clearing case stores nothing into the output block: a placeholder that nothing consults. -/
def out0_A_2 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 x1 : Vec F S1x3x512x1024 .f32) : Vec F S1x1x128 .f32 :=
  VO0_2.read (Elt F) (VO0_2.writes (Elt F) VO0_2.junk (kernelRun0_A c i arg2 harg2 arg3 harg3 arg4 harg4 arg5 harg5 hc0 hc1 x0 x1).1)

/-- The clearing case's pieces cover the scratch accumulator (each is the whole 1 × 16 buffer). -/
theorem scover0_A_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 x1 : Vec F S1x3x512x1024 .f32) (y : S1x16.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x16.size (by sl_kernel_rfl) y

/-- What the clearing case leaves in the scratch accumulator: its pieces read back. -/
def sout0_A_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 x1 : Vec F S1x3x512x1024 .f32) : Vec F S1x16 .f32 :=
  VS0_0.read (Elt F) (VS0_0.writes (Elt F) VS0_0.junk (kernelRun0_A c i arg2 harg2 arg3 harg3 arg4 harg4 arg5 harg5 hc0 hc1 x0 x1).2.1)

/-- The copying case's one piece covers the output block. -/
theorem cover0_B_2 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) (y : S1x1x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1x1x128.size (by sl_kernel_rfl) y

/-- What the copying case leaves in the output block. -/
def out0_B_2 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) : Vec F S1x1x128 .f32 :=
  VO0_2.read (Elt F) (VO0_2.writes (Elt F) VO0_2.junk (kernelRun0_B c i arg2 harg2 arg3 harg3 arg4 harg4 arg5 harg5 hc0 hc1 x0 x1 xs0).1)

/-- The copying case's one piece covers the scratch accumulator. -/
theorem scover0_B_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) (y : S1x16.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x16.size (by sl_kernel_rfl) y

/-- What the copying case leaves in the scratch accumulator. -/
def sout0_B_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) : Vec F S1x16 .f32 :=
  VS0_0.read (Elt F) (VS0_0.writes (Elt F) VS0_0.junk (kernelRun0_B c i arg2 harg2 arg3 harg3 arg4 harg4 arg5 harg5 hc0 hc1 x0 x1 xs0).2.1)

/-! ## What the output block and the scratch hold after each point -/

/-- After the body at position `n`: (the output block, the scratch accumulator).  An even position is the clearing case
    at the point's blocks; an odd position the copying case over the scratch the position before left. -/
def outsAt0 (c : Dev nD) : (n : ℕ) → n < cfg0.N → Vec F S1x1x128 .f32 × Vec F S1x16 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 2 = 1 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        False.elim (by omega)

/-- `outsAt0` at an even point: the clearing case's contents. -/
theorem outsAt0_A (c : Dev nD) (t : Fin cfg0.N) (h0 : t.val % 2 = 0) (h1 : ¬t.val % 2 = 1) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at an odd point: the copying case's contents, over what the point before left. -/
theorem outsAt0_B (c : Dev nD) (t : Fin cfg0.N) (h0 : ¬t.val % 2 = 0) (h1 : t.val % 2 = 1) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the scratch
    at what the point before left in it; throughout, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body at point `t` each input's buffer at
    its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the parity of the point says which case it is in;
    the invariant hands the body the scratch (at anything at the very first point, at what the point before left
    afterwards) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · have h1 : ¬t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
  · have h1 : t.val % 2 = 1 := by omega
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1)], after0_2]
    rw [outsAt0_B m c t h0 h1]
    unfold out0_B_2 sout0_B_0; (try dsimp only)
    rw [PhiS_castSucc m c t, PhiS_pos m c _ _ hz]
    iintro ⟨⟨HS0, Hg⟩, Ho, ⟨%d0, H0⟩, ⟨%d1, H1⟩, ⟨%d2, H2⟩⟩
    iapply ((kernelRun0_B c (grid0.coords t) _ _ _ _ _ _ _ _ (fun h => h0 ((hcond0_0 t).mp h)) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has each staged array at what the library
    computes from the proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Around.lean ====
/-
  The program's @main around its one pipelined region, and what the frame proof of the region is stated over.

  @main is: the region (a grid of 32 points = 16 samples × 2 row tiles), then 82 host operations in nine stretches that
  turn the region's one result array (16 × 1 × 128 statistics) into the scalar loss. Nothing precedes the region, so
  the region finds the two argument arrays as launched.  The host operations after the region touch only unscoped
  TensorCore buffers, allocate nothing, and each writes its own result buffer only — never one of the three arrays
  the region's windows stage (the two arguments and the statistics array).

  The kernel body branches on the row-tile coordinate only: at the first row tile of a sample it clears its 1 × 16
  scratch accumulator before adding the tile's statistics; at the last row tile it also copies the accumulator,
  padded with zeros to 128 lanes, into the output block.  With two row tiles per sample the even points are the
  clearing case and the odd points the copying case; the output window is idle (not stored, not written back) at
  the even points.
-/
import proofs.«109099_j47090021433737_2_alg».proof.Proof.Gen.KernelIdeal.Launch
import proofs.«109099_j47090021433737_2_alg».proof.Proof.Gen.KernelIdeal.Skeleton
import proofs.«109099_j47090021433737_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The nine stretches of host operations that follow the region, in order. -/
abbrev tailOps : List (List (HloOp τ sig (Elt F))) :=
  [hostOps1, hostOps1_1, hostOps1_2, hostOps1_3, hostOps1_4, hostOps1_5, hostOps1_6, hostOps1_7, hostOps1_8]

/-- A core's buffer contents when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region continued by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ### No host operation after the region allocates, and none writes an array the windows stage -/

/-- An operation allocates nothing and writes none of the three staged arrays. -/
def Tame (op : HloOp τ sig (Elt F)) : Prop :=
  op.fresh = ∅ ∧ ∀ w, Proc.devRef .tc (Pipeline.arrRef spec0 w) ∉ op.writes

/-- An operation whose one written buffer is none of the three staged arrays, and which allocates nothing, is tame. -/
theorem tame_of {op : HloOp τ sig (Elt F)} {y : Ref sig .tc} (hf : op.fresh = ∅) (hw : op.writes = {Proc.devRef .tc y})
    (h : ∀ w, Pipeline.arrRef spec0 w ≠ y) : Tame op :=
  ⟨hf, fun w hm => StableHlo.devRef_ne_of_ne (h w) (Finset.mem_singleton.mp (hw ▸ hm))⟩

/-- Every operation of a stretch is tame: each is one builder's operation, which allocates nothing and writes its own
    result buffer, a buffer that is none of the two arguments and the statistics array. -/
theorem hostOps1_tame : (hostOps1 : List (HloOp τ sig (Elt F))).Forall Tame := by
  simp only [List.Forall]; repeat' (first | exact tame_of rfl rfl (by decide) | constructor)
theorem hostOps1_1_tame : (hostOps1_1 : List (HloOp τ sig (Elt F))).Forall Tame := by
  simp only [List.Forall]; repeat' (first | exact tame_of rfl rfl (by decide) | constructor)
theorem hostOps1_2_tame : (hostOps1_2 : List (HloOp τ sig (Elt F))).Forall Tame := by
  simp only [List.Forall]; repeat' (first | exact tame_of rfl rfl (by decide) | constructor)
theorem hostOps1_3_tame : (hostOps1_3 : List (HloOp τ sig (Elt F))).Forall Tame := by
  simp only [List.Forall]; repeat' (first | exact tame_of rfl rfl (by decide) | constructor)
theorem hostOps1_4_tame : (hostOps1_4 : List (HloOp τ sig (Elt F))).Forall Tame := by
  simp only [List.Forall]; repeat' (first | exact tame_of rfl rfl (by decide) | constructor)
theorem hostOps1_5_tame : (hostOps1_5 : List (HloOp τ sig (Elt F))).Forall Tame := by
  simp only [List.Forall]; repeat' (first | exact tame_of rfl rfl (by decide) | constructor)
theorem hostOps1_6_tame : (hostOps1_6 : List (HloOp τ sig (Elt F))).Forall Tame := by
  simp only [List.Forall]; repeat' (first | exact tame_of rfl rfl (by decide) | constructor)
theorem hostOps1_7_tame : (hostOps1_7 : List (HloOp τ sig (Elt F))).Forall Tame := by
  simp only [List.Forall]; repeat' (first | exact tame_of rfl rfl (by decide) | constructor)
theorem hostOps1_8_tame : (hostOps1_8 : List (HloOp τ sig (Elt F))).Forall Tame := by
  simp only [List.Forall]; repeat' (first | exact tame_of rfl rfl (by decide) | constructor)

/-- Every operation after the region is tame. -/
theorem tail_tame : ∀ ops ∈ (tailOps : List (List (HloOp τ sig (Elt F)))), ∀ op ∈ ops, Tame op := by
  intro ops hops op hop
  simp only [tailOps, List.mem_cons, List.mem_nil_iff, or_false] at hops
  rcases hops with rfl | rfl | rfl | rfl | rfl | rfl | rfl | rfl | rfl
  · exact (List.forall_iff_forall_mem.mp hostOps1_tame) op hop
  · exact (List.forall_iff_forall_mem.mp hostOps1_1_tame) op hop
  · exact (List.forall_iff_forall_mem.mp hostOps1_2_tame) op hop
  · exact (List.forall_iff_forall_mem.mp hostOps1_3_tame) op hop
  · exact (List.forall_iff_forall_mem.mp hostOps1_4_tame) op hop
  · exact (List.forall_iff_forall_mem.mp hostOps1_5_tame) op hop
  · exact (List.forall_iff_forall_mem.mp hostOps1_6_tame) op hop
  · exact (List.forall_iff_forall_mem.mp hostOps1_7_tame) op hop
  · exact (List.forall_iff_forall_mem.mp hostOps1_8_tame) op hop

/-- The operations after the region touch the pipeline's arrays and the buffers that bypass the region only: each
    touches unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ :=
  fun ops hops op hop => (tail_tame ops hops op hop).1
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop => (tail_tame ops hops op hop).2

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every staged array at what the
    library computes from the proof data leaves the two argument arrays — inputs of the pipeline — as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's two branch conditions -/

/-- "This is the sample's first row tile": the condition of the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the sample's last row tile": the condition of the body's second conditional. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a sample's first row tile the output window is idle: the body stores nothing into it, -/
theorem idleAt0_2_A : ∀ t : Fin cfg0.N, cond0_0 (grid0.coords t) → ¬cond0_1 (grid0.coords t) → cfg0.idle 2 (grid0.coords t) = true := by decide +kernel
/-- and the pipeline does not write its block back. -/
theorem noFlush0_2_A : ∀ t : Fin cfg0.N, cond0_0 (grid0.coords t) → ¬cond0_1 (grid0.coords t) → (cfg0.win 2).flush t = false := by decide +kernel
/-- At a sample's last row tile it is live. -/
theorem liveAt0_2_B : ∀ t : Fin cfg0.N, ¬cond0_0 (grid0.coords t) → cond0_1 (grid0.coords t) → cfg0.idle 2 (grid0.coords t) = false := by decide +kernel

/-! ## The staging and scratch memrefs the body is called with -/

/-- One staging buffer of the output window, through which its contents are stated. -/
abbrev VO0_2 : View sig .tc .vmem S1x1x128 .f32 := (Memref.whole cc0_stg2_0 : Memref sig .tc .vmem S1x1x128 .f32).view
abbrev ms0_0 (t : Fin cfg0.N) : Memref sig .tc .vmem S1x3x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0_0 : Memref sig .tc .vmem S1x16 .f32 := Memref.whole cc0_scratch0
abbrev VS0_0 : View sig .tc .vmem S1x16 .f32 := scM0_0.view

/-- The region's invariant before the first point: the scratch accumulator owned at some contents, and the generator
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body at a sample's FIRST row tile (the clearing case), run whole.

  On whole staging memrefs — the two input blocks at their contents, the output block at contents that are handed
  back untouched (the body stores nothing into it in this case), the scratch accumulator at anything — the body runs
  to its end without a fault, leaving the inputs as they were and the scratch with the pieces its stores wrote:
  first the zero vector, then, over it, the zero vector plus the tile's sixteen statistics.  The pieces are found by
  running the body symbolically; they are the witness.
-/
import proofs.«109099_j47090021433737_2_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the clearing case, as the list of pieces its stores leave in the scratch accumulator, with the proof
    that it runs. -/
noncomputable def kernelRun0_A (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 : Vec F S1x3x512x1024 .f32) (x1 : Vec F S1x3x512x1024 .f32) :
    Σ' (L2 : List (View.Piece (Elt F) S1x1x128 .f32)), { LS0 : List (View.Piece (Elt F) S1x16 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunB.lean ====
/-
  The kernel body at a sample's LAST row tile (the copying case), run whole.

  On whole staging memrefs — the two input blocks at their contents, the output block at anything, the scratch
  accumulator at the contents the point before left — the body runs to its end without a fault, leaving the inputs
  as they were, the scratch with the one piece its store wrote (the carried contents plus the tile's sixteen
  statistics) and the output block with the one piece stored into it (that sum padded with zeros to 128 lanes).
-/
import proofs.«109099_j47090021433737_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the copying case, as the lists of pieces its stores leave in the output block and in the scratch
    accumulator, with the proof that it runs. -/
noncomputable def kernelRun0_B (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 : Vec F S1x3x512x1024 .f32) (x1 : Vec F S1x3x512x1024 .f32) (xs0 : Vec F S1x16 .f32) :
    Σ' (L2 : List (View.Piece (Elt F) S1x1x128 .f32)), { LS0 : List (View.Piece (Elt F) S1x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  The frame of the program: it runs to its end without a fault and leaves its two argument arrays unchanged —
  with, on the way, what the scratch accumulator and the output block hold after each grid point.

  After an even point (a sample's first row tile) the scratch holds the pieces of the clearing case read back; after an
  odd point (the last row tile) it holds the copying case's one piece over what the even point before left, and the
  output block holds the copying case's one piece.  The region's invariant carries the scratch at exactly these
  contents from one point to the next; the output block is written back after the odd points only, and at the even
  points its buffer is handed back untouched.
-/
import proofs.«109099_j47090021433737_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The clearing case stores nothing into the output block: a placeholder that nothing consults. -/
def out0_A_2 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 x1 : Vec F S1x3x512x1024 .f32) : Vec F S1x1x128 .f32 :=
  VO0_2.read (Elt F) (VO0_2.writes (Elt F) VO0_2.junk (kernelRun0_A c i arg2 harg2 arg3 harg3 arg4 harg4 arg5 harg5 hc0 hc1 x0 x1).1)

/-- The clearing case's pieces cover the scratch accumulator (each is the whole 1 × 16 buffer). -/
theorem scover0_A_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 x1 : Vec F S1x3x512x1024 .f32) (y : S1x16.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x16.size (by sl_kernel_rfl) y

/-- What the clearing case leaves in the scratch accumulator: its pieces read back. -/
def sout0_A_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i)
    (x0 x1 : Vec F S1x3x512x1024 .f32) : Vec F S1x16 .f32 :=
  VS0_0.read (Elt F) (VS0_0.writes (Elt F) VS0_0.junk (kernelRun0_A c i arg2 harg2 arg3 harg3 arg4 harg4 arg5 harg5 hc0 hc1 x0 x1).2.1)

/-- The copying case's one piece covers the output block. -/
theorem cover0_B_2 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) (y : S1x1x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1x1x128.size (by sl_kernel_rfl) y

/-- What the copying case leaves in the output block. -/
def out0_B_2 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) : Vec F S1x1x128 .f32 :=
  VO0_2.read (Elt F) (VO0_2.writes (Elt F) VO0_2.junk (kernelRun0_B c i arg2 harg2 arg3 harg3 arg4 harg4 arg5 harg5 hc0 hc1 x0 x1 xs0).1)

/-- The copying case's one piece covers the scratch accumulator. -/
theorem scover0_B_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) (y : S1x16.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x16.size (by sl_kernel_rfl) y

/-- What the copying case leaves in the scratch accumulator. -/
def sout0_B_0 (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i)
    (x0 x1 : Vec F S1x3x512x1024 .f32) (xs0 : Vec F S1x16 .f32) : Vec F S1x16 .f32 :=
  VS0_0.read (Elt F) (VS0_0.writes (Elt F) VS0_0.junk (kernelRun0_B c i arg2 harg2 arg3 harg3 arg4 harg4 arg5 harg5 hc0 hc1 x0 x1 xs0).2.1)

/-! ## What the output block and the scratch hold after each point -/

/-- After the body at position `n`: (the output block, the scratch accumulator).  An even position is the clearing case
    at the point's blocks; an odd position the copying case over the scratch the position before left. -/
def outsAt0 (c : Dev nD) : (n : ℕ) → n < cfg0.N → Vec F S1x1x128 .f32 × Vec F S1x16 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 2 = 1 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        False.elim (by omega)

/-- `outsAt0` at an even point: the clearing case's contents. -/
theorem outsAt0_A (c : Dev nD) (t : Fin cfg0.N) (h0 : t.val % 2 = 0) (h1 : ¬t.val % 2 = 1) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at an odd point: the copying case's contents, over what the point before left. -/
theorem outsAt0_B (c : Dev nD) (t : Fin cfg0.N) (h0 : ¬t.val % 2 = 0) (h1 : t.val % 2 = 1) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the scratch
    at what the point before left in it; throughout, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body at point `t` each input's buffer at
    its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the parity of the point says which case it is in;
    the invariant hands the body the scratch (at anything at the very first point, at what the point before left
    afterwards) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · have h1 : ¬t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
  · have h1 : t.val % 2 = 1 := by omega
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1)], after0_2]
    rw [outsAt0_B m c t h0 h1]
    unfold out0_B_2 sout0_B_0; (try dsimp only)
    rw [PhiS_castSucc m c t, PhiS_pos m c _ _ hz]
    iintro ⟨⟨HS0, Hg⟩, Ho, ⟨%d0, H0⟩, ⟨%d1, H1⟩, ⟨%d2, H2⟩⟩
    iapply ((kernelRun0_B c (grid0.coords t) _ _ _ _ _ _ _ _ (fun h => h0 ((hcond0_0 t).mp h)) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has each staged array at what the library
    computes from the proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What the two cases of the kernel body leave, as VALUES: the pieces the whole-body runs found, read back.

  A staged block is 1 × 3 × 512 × 1024: three channel slabs of one row tile.  The body loads the three target slabs and
  the three prediction slabs, computes from them a 16-lane vector of tile statistics (`tileStats`), and adds it into the
  scratch accumulator.  In the clearing case the accumulator is first set to the zero vector, so it ends at
  zero-vector + statistics; in the copying case it ends at carried + statistics, and the output block receives that sum
  padded with zeros to 128 lanes.
-/
import proofs.«109099_j47090021433737_2_alg».proof.Proof.KI.Frame
import Idealize.ShloMosaic.Lib.Pipeline.Value

set_option maxRecDepth 16384
set_option pp.deepTerms false
set_option pp.maxSteps 3000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Channel 0, 1, 2's slab of a staged block: the block read through the body's load rectangle for that channel. -/
abbrev chan0 (x : Vec F S1x3x512x1024 .f32) : Vec F S1x1x512x1024 .f32 :=
  View.ld x (Rect.unit (s := S1x3x512x1024) ![0, 0, 0, 0] S1x1x512x1024.size inb_S1x3x512x1024_S1x1x512x1024_0_0_0_0)
abbrev chan1 (x : Vec F S1x3x512x1024 .f32) : Vec F S1x1x512x1024 .f32 :=
  View.ld x (Rect.unit (s := S1x3x512x1024) ![0, 1, 0, 0] S1x1x512x1024.size inb_S1x3x512x1024_S1x1x512x1024_0_1_0_0)
abbrev chan2 (x : Vec F S1x3x512x1024 .f32) : Vec F S1x1x512x1024 .f32 :=
  View.ld x (Rect.unit (s := S1x3x512x1024) ![0, 2, 0, 0] S1x1x512x1024.size inb_S1x3x512x1024_S1x1x512x1024_0_2_0_0)

/-- The sixteen tile statistics from the six slabs `p0 p1 p2` (prediction) and `t0 t1 t2` (target), as the body
    composes its arithmetic. -/
def stats6 (p0 p1 p2 t0 t1 t2 : Vec F S1x1x512x1024 .f32) : FVec F S1x16 .f32 :=
  k0_pay25 (k0_pay7 t0 t1 t2) (k0_pay8 t0 t1 t2) (k0_pay9 t0 t1 t2) (k0_pay11 (k0_pay10 t0 t1 t2))
    (k0_pay15 (k0_pay7 t0 t1 t2) p0) (k0_pay16 (k0_pay8 t0 t1 t2) p0)
    (k0_pay18 (k0_pay7 t0 t1 t2) (k0_pay13 (k0_pay7 t0 t1 t2) p0) p1)
    (k0_pay19 (k0_pay8 t0 t1 t2) (k0_pay14 (k0_pay8 t0 t1 t2) p0) p1)
    (k0_pay20 (k0_pay7 t0 t1 t2) p1) (k0_pay21 (k0_pay8 t0 t1 t2) p1)
    (k0_pay22 p2) (k0_pay23 p2) (k0_pay24 p2)

/-- The sixteen tile statistics of a point, from its prediction block `x0` and its target block `x1`. -/
def tileStats (x0 x1 : Vec F S1x3x512x1024 .f32) : FVec F S1x16 .f32 :=
  stats6 (chan0 x0) (chan1 x0) (chan2 x0) (chan0 x1) (chan1 x1) (chan2 x1)

/-- The clearing case leaves the accumulator at zero vector + statistics. -/
theorem sout_A (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : cond0_0 i) (hc1 : ¬cond0_1 i) (x0 x1 : Vec F S1x3x512x1024 .f32) :
    sout0_A_0 c i arg2 harg2 arg3 harg3 arg4 harg4 arg5 harg5 hc0 hc1 x0 x1 = k0_pay1 (tileStats x0 x1) (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x16) hz2, View.readCov_unit_zero (S := S1x16) _ hz2]
  simp only [View.readAt_eq_ld, harg2.read_unread, harg3.read_unread]
  rfl

/-- The copying case leaves the accumulator at carried + statistics, -/
theorem sout_B (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i) (x0 x1 : Vec F S1x3x512x1024 .f32) (xs0 : Vec F S1x16 .f32) :
    sout0_B_0 c i arg2 harg2 arg3 harg3 arg4 harg4 arg5 harg5 hc0 hc1 x0 x1 xs0 = k0_pay1 (tileStats x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x16) hz2]
  simp only [View.readAt_eq_ld, harg2.read_unread, harg3.read_unread, harg5.read_unread, View.ld_unit_zero (S := S1x16) hz2]
  rfl

/-- and the output block at that sum padded with zeros to 128 lanes. -/
theorem out_B (c : Dev nD) (i : grid0.Coords) (arg2 : Memref sig .tc .vmem S1x3x512x1024 .f32) (harg2 : arg2.IsWhole) (arg3 : Memref sig .tc .vmem S1x3x512x1024 .f32) (harg3 : arg3.IsWhole) (arg4 : Memref sig .tc .vmem S1x1x128 .f32) (harg4 : arg4.IsWhole) (arg5 : Memref sig .tc .vmem S1x16 .f32) (harg5 : arg5.IsWhole) (hc0 : ¬cond0_0 i) (hc1 : cond0_1 i) (x0 x1 : Vec F S1x3x512x1024 .f32) (xs0 : Vec F S1x16 .f32) :
    out0_B_2 c i arg2 harg2 arg3 harg3 arg4 harg4 arg5 harg5 hc0 hc1 x0 x1 xs0 = k0_pay2 (k0_pay1 (tileStats x0 x1) xs0) := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero (S := S1x1x128) hz3, View.readCov_unit_zero (S := S1x16) _ hz2]
  simp only [View.readAt_eq_ld, harg2.read_unread, harg3.read_unread, harg5.read_unread, View.ld_unit_zero (S := S1x16) hz2]
  rfl

/-- After an odd point the output block holds the two tiles' statistics added to the zero vector, padded: the even
    point before cleared the accumulator, so nothing older enters. -/
theorem outsAt_odd (c : Dev nD) (t : Fin cfg0.N) (h1 : t.val % 2 = 1) :
    (outsAt0 m c t.val t.isLt).1
      = k0_pay2 (k0_pay1 (tileStats (iblk m c 0 t) (iblk m c 1 t))
          (k0_pay1 (tileStats (iblk m c 0 ⟨t.val - 1, Nat.lt_of_le_of_lt (Nat.sub_le _ _) t.isLt⟩) (iblk m c 1 ⟨t.val - 1, Nat.lt_of_le_of_lt (Nat.sub_le _ _) t.isLt⟩))
            (k0_pay3 (F := F)))) := by
  have h0 : ¬t.val % 2 = 0 := by omega
  rw [outsAt0_B m c t h0 h1, out_B]
  have hp0 : (⟨t.val - 1, Nat.lt_of_le_of_lt (Nat.sub_le _ _) t.isLt⟩ : Fin cfg0.N).val % 2 = 0 := by dsimp only; omega
  have hp1 : ¬(⟨t.val - 1, Nat.lt_of_le_of_lt (Nat.sub_le _ _) t.isLt⟩ : Fin cfg0.N).val % 2 = 1 := by dsimp only; omega
  have e := outsAt0_A m c ⟨t.val - 1, Nat.lt_of_le_of_lt (Nat.sub_le _ _) t.isLt⟩ hp0 hp1
  dsimp only at e ⊢
  rw [e, sout_A]

end Cert.KernelIdeal.Hand

end
-- ==== Proof.KI.OutArray.lean ====
/-
  What the statistics array (16 × 1 × 128) holds when the region ends.

  The output window's block at point `t` is row `t / 2` of the array (one sample's 1 × 128 lanes); it is written back
  after the odd points only, sample `b`'s row after point `2b + 1`.  What is written back there is the copying case's
  output: the accumulator after the sample's two points, padded to 128 lanes.  The sixteen rows tile the array, so
  the array ends at ONE function of the argument arrays: row `b` is the padded accumulator of sample `b`.
-/
import proofs.«109099_j47090021433737_2_alg».proof.Proof.KI.Pieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps, decided once over the grid: point `t` is sample `t / 2`, row tile `t % 2`; the two input
    windows' blocks are (sample, all channels, row tile, all lanes) and the output's is (sample, 0, 0). -/
theorem idx_facts : ∀ t : Fin cfg0.N,
    win0_0.index t (0 : Fin 4) = t.val / 2 ∧ win0_0.index t (1 : Fin 4) = 0 ∧ win0_0.index t (2 : Fin 4) = t.val % 2 ∧ win0_0.index t (3 : Fin 4) = 0
    ∧ win0_1.index t (0 : Fin 4) = t.val / 2 ∧ win0_1.index t (1 : Fin 4) = 0 ∧ win0_1.index t (2 : Fin 4) = t.val % 2 ∧ win0_1.index t (3 : Fin 4) = 0
    ∧ win0_2.index t (0 : Fin 3) = t.val / 2 ∧ win0_2.index t (1 : Fin 3) = 0 ∧ win0_2.index t (2 : Fin 3) = 0 :=
  (by decide +kernel : ∀ t : Fin grid0.N, _)

theorem N32 : cfg0.N = 32 := N_0

/-- Sample `b`'s first and last point. -/
def ptE (b : Fin 16) : Fin cfg0.N := ⟨2 * b.val, lt_of_lt_of_eq (by have := b.isLt; omega : 2 * b.val < 32) N32.symm⟩
def ptO (b : Fin 16) : Fin cfg0.N := ⟨2 * b.val + 1, lt_of_lt_of_eq (by have := b.isLt; omega : 2 * b.val + 1 < 32) N32.symm⟩

/-- The accumulator after sample `b`'s two points: (zero vector + first tile's statistics) + last tile's statistics. -/
def accOf (c : Dev nD) (b : Fin 16) : FVec F S1x16 .f32 :=
  k0_pay1 (tileStats (iblk m c 0 (ptO b)) (iblk m c 1 (ptO b)))
    (k0_pay1 (tileStats (iblk m c 0 (ptE b)) (iblk m c 1 (ptE b))) (k0_pay3 (F := F)))

/-- The statistics array when the region ends: row `b` is sample `b`'s accumulator padded to 128 lanes. -/
def outArr (c : Dev nD) : S16x1x128.Idx → Elt F .f32 :=
  fun i => k0_pay2 (accOf m c (i 0)) (ix3 (0 : Fin 1) (0 : Fin 1) (i 2))

/-- What an odd point writes back is its row of `outArr`. -/
theorem flushed_eq (c : Dev nD) (t : Fin cfg0.N) (hf : (cfg0.win 2).flush t = true) :
    (dats m 0 c).flushed 2 t = ((cfg0.win 2).blk t).view.read (Elt F) (outArr m c) := by
  have h1 : t.val % 2 = 1 := (flush0_2 t).mp hf
  have hN : t.val < 32 := lt_of_lt_of_eq t.isLt N32
  show (cfg0.win 2).cut (grid0.coords t) ((dats m 0 c).after 2 t) = _
  rw [after0_2, outsAt_odd m c t h1]
  obtain ⟨-, -, -, -, -, -, -, -, e0, e1, e2⟩ := idx_facts t
  have hO : ptO (⟨t.val / 2, by omega⟩ : Fin 16) = t := Fin.ext (by show 2 * (t.val / 2) + 1 = t.val; omega)
  have hE : ptE (⟨t.val / 2, by omega⟩ : Fin 16) = ⟨t.val - 1, Nat.lt_of_le_of_lt (Nat.sub_le _ _) t.isLt⟩ :=
    Fin.ext (by show 2 * (t.val / 2) = t.val - 1; omega)
  funext j
  obtain ⟨p, q, l, rfl⟩ : ∃ (p q : Fin 1) (l : Fin 128), j = ix3 p q l := ⟨j 0, j 1, j 2, eq_ix3 j⟩
  have hp : p = 0 := Subsingleton.elim _ _
  have hq : q = 0 := Subsingleton.elim _ _
  subst hp hq
  rw [View.read_apply]
  unfold outArr
  have hi0 : (((cfg0.win 2).blk t).view.emb (ix3 (0 : Fin 1) (0 : Fin 1) l)) 0 = (⟨t.val / 2, by omega⟩ : Fin 16) := by
    apply Fin.ext
    show win0_2.index t (0 : Fin 3) * 1 + 1 * ((0 : Fin 1) : Fin 1).val = t.val / 2
    rw [e0]; simp
  have hi2 : (((cfg0.win 2).blk t).view.emb (ix3 (0 : Fin 1) (0 : Fin 1) l)) 2 = l := by
    apply Fin.ext
    show win0_2.index t (2 : Fin 3) * 128 + 1 * l.val = l.val
    rw [e2]; omega
  rw [hi0, hi2]
  unfold accOf
  rw [hO, hE]
  rfl

/-- An index of the array is in point `t`'s block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- Every index of the array is in the block of its sample's last point. -/
theorem cover (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  refine ⟨ptO ⟨(i 0).val, hi0⟩, (flush0_2 _).mpr (by show (2 * (i 0).val + 1) % 2 = 1; omega), ?_⟩
  obtain ⟨-, -, -, -, -, -, -, -, e0, e1, e2⟩ := idx_facts (ptO ⟨(i 0).val, hi0⟩)
  have e0' : win0_2.index (ptO ⟨(i 0).val, hi0⟩) (0 : Fin 3) = (i 0).val := by
    rw [e0]; show (2 * (i 0).val + 1) / 2 = (i 0).val; omega
  rw [mem_blk]
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 128 ≤ (i 2).val ∧ (i 2).val < win0_2.index _ (2 : Fin 3) * 128 + 128; rw [e2]; omega

/-- So the statistics array ends at `outArr`. -/
theorem final_out (c : Dev nD) : (dats m 0 c).arrAt 2 cfg0.N = outArr m c :=
  (dats m 0 c).arrAt_eq_of_cover 2 (outArr m c) (flushed_eq m c) cover

end Cert.KernelIdeal.Hand

end
-- ==== Proof.KI.Slices.lean ====
/-
  The six statistics the host operations after the region cut out of the statistics array.

  The array (16 × 1 × 128) is viewed as 16 × 128; columns 0, 1, 2, 3 (each 16 × 1, then viewed as 16) are the two Huber
  sums and the two pixel counts, columns 4–6 and 7–9 (each 16 × 3) the per-channel prediction sums under each mask.
-/
import proofs.«109099_j47090021433737_2_alg».proof.Proof.KI.OutArray

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The statistics array viewed as 16 × 128. -/
def flatOf (X : S16x1x128.Idx → Elt F .f32) : S16x128.Idx → Elt F .f32 :=
  fun i => shapeCast S16x128 X shapeCasts_S16x1x128_S16x128 i

/-- One column of it, as a vector of 16. -/
def colOf (off : Fin 2 → Nat) (hs : S16x128.Slices off S16x1) (X : S16x1x128.Idx → Elt F .f32) : S16.Idx → Elt F .f32 :=
  fun i => shapeCast S16 (extractStridedSlice S16x1 off (flatOf X) hs) shapeCasts_S16x1_S16 i

/-- Three adjacent columns of it, 16 × 3. -/
def cols3Of (off : Fin 2 → Nat) (hs : S16x128.Slices off S16x3) (X : S16x1x128.Idx → Elt F .f32) : S16x3.Idx → Elt F .f32 :=
  extractStridedSlice S16x3 off (flatOf X) hs

end Cert.KernelIdeal.Hand

end
-- ==== Proof.Scalars.lean ====
/-
  The scalar functions that the kernel and the reference both apply pixel by pixel, as functions on the
  extended reals. Each is written with the scalar-level operations of the ideal instance, in the order and
  grouping in which the kernel's vector operations apply them at one index, so that a vector payload read
  at an index is one of these functions of the pixel values by unfolding alone.

  * `hub x` is the Huber function: `(1/2 · x) · x` where `|x| < 1`, else `|x| − 1/2`.
  * `c255` is the value of the float word for 255.
  * `bgMask t0 t1 t2` is the 0/1 indicator, as a float, that all three target channels equal 0;
    `fgMask t0 t1 t2` the same against 255. The indicator is a one-bit conjunction, grouped
    `(a ∧ b) ∧ c`, widened to 32 bits without sign and then converted to a float.
-/
import Idealize.ShloMosaic.PureOps.Ideal

noncomputable section

namespace Cert.SegLoss

open Idealize.ShloMosaic

/-- The float word for 255, as an extended real. -/
def c255 : EReal := Ideal.ofBits .f32 0x437F0000#32

/-- The Huber function: `(1/2 · x) · x` where `|x| < 1`, and `|x| − 1/2` elsewhere. The constants are the
    values of the float words for 1 and for 1/2. -/
def hub (x : EReal) : EReal :=
  Scalar.select
    (FloatOps.cmpf (F := Ideal) (φ := .f32) .olt
      (FloatOps.absf (F := Ideal) (φ := .f32) x) (Ideal.ofBits .f32 0x3F800000#32))
    ((Ideal.ofBits .f32 0x3F000000#32 * x) * x)
    (FloatOps.absf (F := Ideal) (φ := .f32) x - Ideal.ofBits .f32 0x3F000000#32)

/-- The one-bit test that all three values equal `c`, grouped `(a ∧ b) ∧ c`. -/
def allEq (c : EReal) (t0 t1 t2 : EReal) : BitVec 1 :=
  IntOp.andi
    (IntOp.andi (FloatOps.cmpf (F := Ideal) (φ := .f32) .oeq t0 c)
                (FloatOps.cmpf (F := Ideal) (φ := .f32) .oeq t1 c))
    (FloatOps.cmpf (F := Ideal) (φ := .f32) .oeq t2 c)

/-- A one-bit word as a float: widened to 32 bits without sign, then converted as a signed integer. -/
def bitF (b : BitVec 1) : EReal := FloatOps.sitofp (F := Ideal) .f32 (b.setWidth 32)

/-- The background indicator of a pixel: 1 if all three target channels are the zero word's value, else 0. -/
def bgMask (t0 t1 t2 : EReal) : EReal := bitF (allEq (Ideal.ofBits .f32 0x00000000#32) t0 t1 t2)

/-- The foreground indicator of a pixel: 1 if all three target channels are 255, else 0. -/
def fgMask (t0 t1 t2 : EReal) : EReal := bitF (allEq c255 t0 t1 t2)

end Cert.SegLoss

end
-- ==== Proof.Spec.lean ====
/-
  The specification of the per-sample masked Huber loss with the mean-separation term.

  The two argument arrays (prediction and target, both 16 × 3 × 1024 × 1024) enter as functions
  `P T : Fin 16 → Fin 3 → Fin 1024 → Fin 1024 → EReal` of sample, channel, row and lane.

  * Per pixel: the background / foreground indicator of a pixel (all three target channels 0, or all 255),
    the Huber terms of the three channels weighted by the indicator and added channel after channel from 0,
    and the prediction weighted by the indicator.
  * Per sample, ten statistics: the two Huber sums, the two pixel counts, and for each channel the two
    weighted prediction sums. Each is written in the TILE form: the rows are cut in two tiles of 512 rows,
    a tile contributes the double sum over its rows and lanes, and the two tiles are added one after the
    other to 0.
  * `tail`: the scalar loss as a function of the six statistic arrays (four of length 16, two 16 × 3):
    masked means, squared distance of the channel means, 300 / (1 + distance), the three terms kept where
    the counts are positive, divided by the number of terms kept, summed over the samples, divided by 16.
  * `loss P T` is `tail` of the tile-form statistics.
-/
import proofs.«109099_j47090021433737_2_alg».proof.Proof.Scalars
import Idealize.ShloMosaic.PureOps.Ideal
import Idealize.ShloMosaic.Lib.ValueIdx

noncomputable section

open scoped BigOperators

namespace Cert.SegLoss

open Idealize.ShloMosaic Idealize.ShloMosaic.ValueIdx

/-! ## The arrays as functions of sample, channel, row, lane -/

/-- An array 16 × 3 × 1024 × 1024 as a function of sample `b`, channel `c`, row `h`, lane `w`. -/
abbrev Img : Type := Fin 16 → Fin 3 → Fin 1024 → Fin 1024 → EReal

/-- The function of (sample, channel, row, lane) that an array is: `ofArr x b c h w` is `x` read at the
    index `ix4 b c h w`. -/
def ofArr (x : FVec Ideal ⟨4, ![16, 3, 1024, 1024]⟩ .f32) : Img := fun b c h w => x (ix4 b c h w)

/-! ## Per pixel -/

/-- The background indicator (0 or 1) of pixel `(h, w)` of sample `b`. -/
def bgAt (T : Img) (b : Fin 16) (h w : Fin 1024) : EReal := bgMask (T b 0 h w) (T b 1 h w) (T b 2 h w)

/-- The foreground indicator (0 or 1) of pixel `(h, w)` of sample `b`. -/
def fgAt (T : Img) (b : Fin 16) (h w : Fin 1024) : EReal := fgMask (T b 0 h w) (T b 1 h w) (T b 2 h w)

/-- The background Huber term of a pixel: the Huber function of each channel's prediction times the background
    indicator, the three channels added one after the other to 0. -/
def hubBgAt (P T : Img) (b : Fin 16) (h w : Fin 1024) : EReal :=
  ((0 + hub (P b 0 h w) * bgAt T b h w) + hub (P b 1 h w) * bgAt T b h w) + hub (P b 2 h w) * bgAt T b h w

/-- The foreground Huber term of a pixel: the Huber function of each channel's prediction less 255 times the
    foreground indicator, the three channels added one after the other to 0. -/
def hubFgAt (P T : Img) (b : Fin 16) (h w : Fin 1024) : EReal :=
  ((0 + hub (P b 0 h w - c255) * fgAt T b h w) + hub (P b 1 h w - c255) * fgAt T b h w)
    + hub (P b 2 h w - c255) * fgAt T b h w

/-- Channel `c`'s prediction at a pixel times the background indicator. -/
def predBgAt (P T : Img) (b : Fin 16) (c : Fin 3) (h w : Fin 1024) : EReal := P b c h w * bgAt T b h w

/-- Channel `c`'s prediction at a pixel times the foreground indicator. -/
def predFgAt (P T : Img) (b : Fin 16) (c : Fin 3) (h w : Fin 1024) : EReal := P b c h w * fgAt T b h w

/-! ## Two tiles of 512 rows -/

/-- Row `r` of tile `j`: row `512 · j + r` of the image. -/
def rowOf (j : Fin 2) (r : Fin 512) : Fin 1024 := ⟨512 * j.val + r.val, by omega⟩

/-- What tile `j` contributes: the sum over its 512 rows and 1024 lanes. -/
def tileSum (f : Fin 1024 → Fin 1024 → EReal) (j : Fin 2) : EReal :=
  ∑ r : Fin 512, ∑ w : Fin 1024, f (rowOf j r) w

/-- The two tiles' contributions added one after the other to 0. -/
def twoTiles (f : Fin 1024 → Fin 1024 → EReal) : EReal := (0 + tileSum f 0) + tileSum f 1

/-! ## The statistics, in the tile form -/

/-- The shape of a per-sample vector, of a per-sample-and-channel array, and of a scalar. -/
abbrev S16 : Shape := ⟨1, ![16]⟩
abbrev S16x3 : Shape := ⟨2, ![16, 3]⟩
abbrev S16x1 : Shape := ⟨2, ![16, 1]⟩
abbrev S_ : Shape := ⟨0, ![]⟩

/-- Per sample, the sum of the background Huber terms. -/
def sumHubBgT (P T : Img) : FVec Ideal S16 .f32 := fun i => twoTiles (hubBgAt P T (i 0))
/-- Per sample, the sum of the foreground Huber terms. -/
def sumHubFgT (P T : Img) : FVec Ideal S16 .f32 := fun i => twoTiles (hubFgAt P T (i 0))
/-- Per sample, the number of background pixels. -/
def countBgT (T : Img) : FVec Ideal S16 .f32 := fun i => twoTiles (bgAt T (i 0))
/-- Per sample, the number of foreground pixels. -/
def countFgT (T : Img) : FVec Ideal S16 .f32 := fun i => twoTiles (fgAt T (i 0))
/-- Per sample and channel, the sum of the predictions over the background pixels. -/
def sumPredBgT (P T : Img) : FVec Ideal S16x3 .f32 := fun i => twoTiles (predBgAt P T (i 0) (i 1))
/-- Per sample and channel, the sum of the predictions over the foreground pixels. -/
def sumPredFgT (P T : Img) : FVec Ideal S16x3 .f32 := fun i => twoTiles (predFgAt P T (i 0) (i 1))

/-! ## From the statistics to the loss -/

theorem bcast_S_S16 : S_.BroadcastsInDim S16 (![] : Fin 0 → Fin S16.rank) := by decide
theorem bcast_S16_S16x1 : S16.BroadcastsInDim S16x1 (![0] : Fin 1 → Fin S16x1.rank) := by decide
theorem bcast_S16x1_S16x3 : S16x1.BroadcastsInDim S16x3 (![0, 1] : Fin 2 → Fin S16x3.rank) := by decide
theorem reducesTo_S16x3_S16 : S16x3.ReducesTo [1] S16 := by decide
theorem reducesTo_S16_S : S16.ReducesTo [0] S_ := by decide
theorem numel_S_pos : 0 < S_.numel := by decide

/-- The float word `b` at every sample. -/
def splat16 (b : BitVec 32) : FVec Ideal S16 .f32 :=
  broadcastInDim S16 ![] bcast_S_S16 (constant (F := Ideal) S_ .f32 b)

/-- Is the count positive? One bit per sample. -/
def isPos (n : FVec Ideal S16 .f32) : IVec S16 1 := cmpf (F := Ideal) .ogt n (splat16 0x00000000#32)

/-- The count, or 1 where it is less. -/
def atLeastOne (n : FVec Ideal S16 .f32) : FVec Ideal S16 .f32 := maximumf (F := Ideal) n (splat16 0x3F800000#32)

/-- The masked mean of the Huber terms: their sum over three times the count. -/
def meanHub (s n : FVec Ideal S16 .f32) : FVec Ideal S16 .f32 :=
  Host.divf (F := Ideal) s (mulf (F := Ideal) (atLeastOne n) (splat16 0x40400000#32))

/-- A per-sample vector repeated along the three channels. -/
def perChannel (v : FVec Ideal S16 .f32) : FVec Ideal S16x3 .f32 :=
  broadcastInDim S16x3 ![0, 1] bcast_S16x1_S16x3 (broadcastInDim S16x1 ![0] bcast_S16_S16x1 v)

/-- The masked mean of each channel's prediction. -/
def meanPred (p : FVec Ideal S16x3 .f32) (n : FVec Ideal S16 .f32) : FVec Ideal S16x3 .f32 :=
  Host.divf (F := Ideal) p (perChannel (atLeastOne n))

/-- The squared distance between the background and foreground channel means. -/
def sqDist (bgp fgp : FVec Ideal S16x3 .f32) (nbg nfg : FVec Ideal S16 .f32) : FVec Ideal S16 .f32 :=
  Host.reduceAdd (F := Ideal)
    (mulf (F := Ideal) (subf (F := Ideal) (meanPred bgp nbg) (meanPred fgp nfg))
      (subf (F := Ideal) (meanPred bgp nbg) (meanPred fgp nfg)))
    (constant (F := Ideal) S_ .f32 0x00000000#32) reducesTo_S16x3_S16 numel_S_pos

/-- The separation term: 300 over one plus the squared distance. -/
def sepTerm (bgp fgp : FVec Ideal S16x3 .f32) (nbg nfg : FVec Ideal S16 .f32) : FVec Ideal S16 .f32 :=
  Host.divf (F := Ideal) (splat16 0x43960000#32)
    (addf (F := Ideal) (splat16 0x3F800000#32) (sqDist bgp fgp nbg nfg))

/-- A per-sample vector where the bit is set, 0 elsewhere. -/
def keepWhere (c : IVec S16 1) (x : FVec Ideal S16 .f32) : FVec Ideal S16 .f32 :=
  select c x (broadcastInDim S16 ![] bcast_S_S16 (id (constant (F := Ideal) S_ .f32 0x00000000#32)))

/-- How many of the three terms a sample keeps. -/
def nTerms (nbg nfg : FVec Ideal S16 .f32) : FVec Ideal S16 .f32 :=
  addf (F := Ideal)
    (addf (F := Ideal) (uitofp (F := Ideal) .f32 (isPos nbg)) (uitofp (F := Ideal) .f32 (isPos nfg)))
    (uitofp (F := Ideal) .f32 (andi (isPos nbg) (isPos nfg)))

/-- The sum of the terms a sample keeps. -/
def sumTerms (sbg sfg nbg nfg : FVec Ideal S16 .f32) (bgp fgp : FVec Ideal S16x3 .f32) : FVec Ideal S16 .f32 :=
  addf (F := Ideal)
    (addf (F := Ideal) (keepWhere (isPos nbg) (meanHub sbg nbg)) (keepWhere (isPos nfg) (meanHub sfg nfg)))
    (keepWhere (andi (isPos nbg) (isPos nfg)) (sepTerm bgp fgp nbg nfg))

/-- A sample's loss: the sum of its terms over their number, 0 if it keeps none. -/
def perSample (sbg sfg nbg nfg : FVec Ideal S16 .f32) (bgp fgp : FVec Ideal S16x3 .f32) : FVec Ideal S16 .f32 :=
  keepWhere (cmpf (F := Ideal) .ogt (nTerms nbg nfg) (splat16 0x00000000#32))
    (Host.divf (F := Ideal) (sumTerms sbg sfg nbg nfg bgp fgp)
      (maximumf (F := Ideal) (nTerms nbg nfg) (splat16 0x3F800000#32)))

/-- THE TAIL: the scalar loss from the six statistic arrays — the samples' losses summed and divided by 16. -/
def tail (sbg sfg nbg nfg : FVec Ideal S16 .f32) (bgp fgp : FVec Ideal S16x3 .f32) : FVec Ideal S_ .f32 :=
  Host.divf (F := Ideal)
    (Host.reduceAdd (F := Ideal) (perSample sbg sfg nbg nfg bgp fgp)
      (constant (F := Ideal) S_ .f32 0x00000000#32) reducesTo_S16_S numel_S_pos)
    (constant (F := Ideal) S_ .f32 0x41800000#32)

/-- THE SPECIFICATION: the loss of a prediction and a target. -/
def loss (P T : Img) : FVec Ideal S_ .f32 :=
  tail (sumHubBgT P T) (sumHubFgT P T) (countBgT T) (countFgT T) (sumPredBgT P T) (sumPredFgT P T)

end Cert.SegLoss

end
-- ==== Proof.KI.Result.lean ====
/-
  The program's result, read off the frame run: the 82 host operations after the region, applied to the statistics
  array as the region leaves it, are the loss's closing formula (`Cert.SegLoss.tail`) of the six statistics cut out of
  the array — the two Huber sums, the two pixel counts and the two triples of per-channel prediction sums.
-/
import proofs.«109099_j47090021433737_2_alg».proof.Proof.KI.Slices
import proofs.«109099_j47090021433737_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

variable (m : (ℓ : Loc nD τ sig) → Buf (Elt Ideal) ℓ) (ρ : Dev nD → PrngReg)

/-- The six statistics of an array of per-sample statistics rows. -/
abbrev stat0 (X : S16x1x128.Idx → Elt Ideal .f32) := colOf (F := Ideal) ![0, 0] slices_S16x128_S16x1_0_0 X
abbrev stat1 (X : S16x1x128.Idx → Elt Ideal .f32) := colOf (F := Ideal) ![0, 1] slices_S16x128_S16x1_0_1 X
abbrev stat2 (X : S16x1x128.Idx → Elt Ideal .f32) := colOf (F := Ideal) ![0, 2] slices_S16x128_S16x1_0_2 X
abbrev stat3 (X : S16x1x128.Idx → Elt Ideal .f32) := colOf (F := Ideal) ![0, 3] slices_S16x128_S16x1_0_3 X
abbrev stat4 (X : S16x1x128.Idx → Elt Ideal .f32) := cols3Of (F := Ideal) ![0, 4] slices_S16x128_S16x3_0_4 X
abbrev stat7 (X : S16x1x128.Idx → Elt Ideal .f32) := cols3Of (F := Ideal) ![0, 7] slices_S16x128_S16x3_0_7 X

set_option maxHeartbeats 2000000 in
/-- The result buffer after the host operations that follow the region. -/
theorem tail_eq (c : Dev nD) :
    Pipeline.afterTail₀ cfgs (dats (F := Ideal) m) 0 (V0 m) tailOps c main_v57
      = Cert.SegLoss.tail (stat0 (outArr m c)) (stat1 (outArr m c)) (stat2 (outArr m c)) (stat3 (outArr m c))
          (stat4 (outArr m c)) (stat7 (outArr m c)) := by
  have hX : Pipeline.withArrays (cfgs 0).spec c (V0 m c) (fun w => (dats m 0 c).arrAt w (cfgs 0).N) (Proc.devRef .tc main_v0) = outArr m c :=
    (Pipeline.withArrays_arr spec0 launch0.win.arr_inj c _ _ 2).trans (final_out m c)
  unfold Pipeline.afterTail₀
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  rw [hX]
  rfl

/-- The program's run, read: the result at the closing formula of the six statistics, the arguments unchanged. -/
theorem run_value : θ_run defs (onTc (τ := τ) (main (F := Ideal))) ⟨m, fun _ => 0, ρ⟩ (fun r => ∀ c : Dev nD,
      r.2.mem ((c.tc : Thread nD τ).loc main_v57)
        = Cert.SegLoss.tail (stat0 (outArr m c)) (stat1 (outArr m c)) (stat2 (outArr m c)) (stat3 (outArr m c))
            (stat4 (outArr m c)) (stat7 (outArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v57 (by decide)).trans (tail_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.KernelIdeal.Hand

end
-- ==== Proof.KI.SliceReads.lean ====
/-
  The six statistics cut out of the statistics array, read at an index.

  The array is 16 × 1 × 128. Column `k` of its 16 × 128 view, taken as a 16 × 1 slice and viewed as a vector of 16,
  reads at sample `b` the array's entry `(b, 0, k)`; three adjacent columns from `k` on, a 16 × 3 slice, read at
  `(b, ch)` the entry `(b, 0, k + ch)`. A view keeps the row-major position, a slice adds its offsets.
-/
import proofs.«109099_j47090021433737_2_alg».proof.Proof.KI.Slices
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- The 16 × 128 view at `(b, k)` is the array at `(b, 0, k)`. -/
theorem flatOf_apply (X : S16x1x128.Idx → Elt F .f32) (b : Fin 16) (k : Fin 128) :
    flatOf X (ix2 b k) = X (ix3 b (0 : Fin 1) k) := by
  unfold flatOf
  refine shapeCast_apply X shapeCasts_S16x1x128_S16x128 (ix2 b k) (ix3 b (0 : Fin 1) k) ?_
  rw [Shape.rowMajor_val_three, Shape.rowMajor_val_two]
  show (b.val * 1 + 0) * 128 + k.val = b.val * 128 + k.val
  omega

/-- Column `k` as a vector of 16, at sample `b`: the array at `(b, 0, k)`. -/
theorem colOf_apply (k : Fin 128) (hs : S16x128.Slices ![0, k.val] S16x1) (X : S16x1x128.Idx → Elt F .f32)
    (b : Fin 16) : colOf ![0, k.val] hs X (ix1 b) = X (ix3 b (0 : Fin 1) k) := by
  unfold colOf
  refine (shapeCast_apply _ shapeCasts_S16x1_S16 (ix1 b) (ix2 b (0 : Fin 1)) ?_).trans ?_
  · rw [Shape.rowMajor_val_two, Shape.rowMajor_val_one]
    show b.val * 1 + 0 = b.val
    omega
  refine (extractStridedSlice_apply _ (flatOf X) hs (ix2 b (0 : Fin 1)) (ix2 b k) fun a => ?_).trans
    (flatOf_apply X b k)
  match a with
  | ⟨0, _⟩ => show b.val = 0 + b.val; omega
  | ⟨1, _⟩ => show k.val = k.val + 0; omega

/-- Columns `k, k + 1, k + 2` as a 16 × 3 array, at `(b, ch)`: the array at `(b, 0, k + ch)`. -/
theorem cols3Of_apply (k : Fin 128) (hk : k.val + 3 ≤ 128) (hs : S16x128.Slices ![0, k.val] S16x3)
    (X : S16x1x128.Idx → Elt F .f32) (b : Fin 16) (ch : Fin 3) :
    cols3Of ![0, k.val] hs X (ix2 b ch) = X (ix3 b (0 : Fin 1) ⟨k.val + ch.val, by omega⟩) := by
  unfold cols3Of
  refine (extractStridedSlice_apply _ (flatOf X) hs (ix2 b ch) (ix2 b ⟨k.val + ch.val, by omega⟩) fun a => ?_).trans
    (flatOf_apply X b _)
  match a with
  | ⟨0, _⟩ => show b.val = 0 + b.val; omega
  | ⟨1, _⟩ => rfl

/-! ## The six slices of the program -/

theorem col0_apply (X : S16x1x128.Idx → Elt F .f32) (b : Fin 16) :
    colOf ![0, 0] slices_S16x128_S16x1_0_0 X (ix1 b) = X (ix3 b (0 : Fin 1) (⟨0, by omega⟩ : Fin 128)) :=
  colOf_apply (⟨0, by omega⟩ : Fin 128) slices_S16x128_S16x1_0_0 X b

theorem col1_apply (X : S16x1x128.Idx → Elt F .f32) (b : Fin 16) :
    colOf ![0, 1] slices_S16x128_S16x1_0_1 X (ix1 b) = X (ix3 b (0 : Fin 1) (⟨1, by omega⟩ : Fin 128)) :=
  colOf_apply (⟨1, by omega⟩ : Fin 128) slices_S16x128_S16x1_0_1 X b

theorem col2_apply (X : S16x1x128.Idx → Elt F .f32) (b : Fin 16) :
    colOf ![0, 2] slices_S16x128_S16x1_0_2 X (ix1 b) = X (ix3 b (0 : Fin 1) (⟨2, by omega⟩ : Fin 128)) :=
  colOf_apply (⟨2, by omega⟩ : Fin 128) slices_S16x128_S16x1_0_2 X b

theorem col3_apply (X : S16x1x128.Idx → Elt F .f32) (b : Fin 16) :
    colOf ![0, 3] slices_S16x128_S16x1_0_3 X (ix1 b) = X (ix3 b (0 : Fin 1) (⟨3, by omega⟩ : Fin 128)) :=
  colOf_apply (⟨3, by omega⟩ : Fin 128) slices_S16x128_S16x1_0_3 X b

theorem cols4_apply (X : S16x1x128.Idx → Elt F .f32) (b : Fin 16) (ch : Fin 3) :
    cols3Of ![0, 4] slices_S16x128_S16x3_0_4 X (ix2 b ch)
      = X (ix3 b (0 : Fin 1) (⟨4 + ch.val, by omega⟩ : Fin 128)) :=
  cols3Of_apply (⟨4, by omega⟩ : Fin 128) (by decide) slices_S16x128_S16x3_0_4 X b ch

theorem cols7_apply (X : S16x1x128.Idx → Elt F .f32) (b : Fin 16) (ch : Fin 3) :
    cols3Of ![0, 7] slices_S16x128_S16x3_0_7 X (ix2 b ch)
      = X (ix3 b (0 : Fin 1) (⟨7 + ch.val, by omega⟩ : Fin 128)) :=
  cols3Of_apply (⟨7, by omega⟩ : Fin 128) (by decide) slices_S16x128_S16x3_0_7 X b ch

end Cert.KernelIdeal.Hand

end
-- ==== Proof.KI.Blocks.lean ====
/-
  A staged block read at an index is the argument array read at an index.

  Point `t` is sample `t / 2`, row tile `t % 2`; an input window's block there is the sample's three channels over the
  tile's 512 rows, so its element (0, ch, r, w) is the array's element (t / 2, ch, 512 · (t % 2) + r, w).  The body
  loads one channel slab at a time, and slab `ch`'s element (0, 0, r, w) is the block's element (0, ch, r, w).
-/
import proofs.«109099_j47090021433737_2_alg».proof.Proof.KI.OutArray

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Channel slab 0, 1, 2 of a block, at an index. -/
theorem chan0_apply (x : Vec F S1x3x512x1024 .f32) (r : Fin 512) (w : Fin 1024) :
    chan0 x (ix4 (0 : Fin 1) (0 : Fin 1) r w) = x (ix4 (0 : Fin 1) (0 : Fin 3) r w) := by
  show x ((Rect.unit (s := S1x3x512x1024) ![0, 0, 0, 0] S1x1x512x1024.size inb_S1x3x512x1024_S1x1x512x1024_0_0_0_0).idx (ix4 (0 : Fin 1) (0 : Fin 1) r w)) = _
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * w.val = w.val; omega
theorem chan1_apply (x : Vec F S1x3x512x1024 .f32) (r : Fin 512) (w : Fin 1024) :
    chan1 x (ix4 (0 : Fin 1) (0 : Fin 1) r w) = x (ix4 (0 : Fin 1) (1 : Fin 3) r w) := by
  show x ((Rect.unit (s := S1x3x512x1024) ![0, 1, 0, 0] S1x1x512x1024.size inb_S1x3x512x1024_S1x1x512x1024_0_1_0_0).idx (ix4 (0 : Fin 1) (0 : Fin 1) r w)) = _
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * w.val = w.val; omega
theorem chan2_apply (x : Vec F S1x3x512x1024 .f32) (r : Fin 512) (w : Fin 1024) :
    chan2 x (ix4 (0 : Fin 1) (0 : Fin 1) r w) = x (ix4 (0 : Fin 1) (2 : Fin 3) r w) := by
  show x ((Rect.unit (s := S1x3x512x1024) ![0, 2, 0, 0] S1x1x512x1024.size inb_S1x3x512x1024_S1x1x512x1024_0_2_0_0).idx (ix4 (0 : Fin 1) (0 : Fin 1) r w)) = _
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * w.val = w.val; omega

/-- The prediction block at point `t`, at an index. -/
theorem iblk0_apply (c : Dev nD) (t : Fin cfg0.N) (ch : Fin 3) (r : Fin 512) (w : Fin 1024) (b : Fin 16) (h : Fin 1024)
    (hb : b.val = t.val / 2) (hh : h.val = 512 * (t.val % 2) + r.val) :
    (iblk m c 0 t : Vec F S1x3x512x1024 .f32) (ix4 (0 : Fin 1) ch r w) = m ((c : Thread nD τ).loc main_arg0) (ix4 b ch h w) := by
  obtain ⟨e0, e1, e2, e3, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 4) * 1 + 1 * (0 : Fin 1).val = b.val; rw [e0, hb]; simp
  | ⟨1, _⟩ => show win0_0.index t (1 : Fin 4) * 3 + 1 * ch.val = ch.val; rw [e1]; omega
  | ⟨2, _⟩ => show win0_0.index t (2 : Fin 4) * 512 + 1 * r.val = h.val; rw [e2, hh]; omega
  | ⟨3, _⟩ => show win0_0.index t (3 : Fin 4) * 1024 + 1 * w.val = w.val; rw [e3]; omega

/-- The target block at point `t`, at an index. -/
theorem iblk1_apply (c : Dev nD) (t : Fin cfg0.N) (ch : Fin 3) (r : Fin 512) (w : Fin 1024) (b : Fin 16) (h : Fin 1024)
    (hb : b.val = t.val / 2) (hh : h.val = 512 * (t.val % 2) + r.val) :
    (iblk m c 1 t : Vec F S1x3x512x1024 .f32) (ix4 (0 : Fin 1) ch r w) = m ((c : Thread nD τ).loc main_arg1) (ix4 b ch h w) := by
  obtain ⟨-, -, -, -, e0, e1, e2, e3, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 4) * 1 + 1 * (0 : Fin 1).val = b.val; rw [e0, hb]; simp
  | ⟨1, _⟩ => show win0_1.index t (1 : Fin 4) * 3 + 1 * ch.val = ch.val; rw [e1]; omega
  | ⟨2, _⟩ => show win0_1.index t (2 : Fin 4) * 512 + 1 * r.val = h.val; rw [e2, hh]; omega
  | ⟨3, _⟩ => show win0_1.index t (3 : Fin 4) * 1024 + 1 * w.val = w.val; rw [e3]; omega

end Cert.KernelIdeal.Hand

end
-- ==== Proof.TileSum.lean ====
/-
  Shape-level facts about one 512 × 1024 tile, over literal shapes and variables.

  * Two shape casts read at an index: a `[1, 1, a, b]` slab viewed `[a, b]` reads `(0, 0, i, j)` at `(i, j)`,
    and a vector `[a]` viewed as a column `[a, 1]` reads `i` at `(i, u)`.
  * The tile sum: summing a `[512, 1024]` tile first along its lanes (axis 1), viewing the row sums as a column,
    summing that along the rows (axis 0) and viewing the result as `[1, 1]`, is the double sum
    `∑ r : Fin 512, ∑ w : Fin 1024` of the tile's entries. Each of the two reductions starts from the neutral
    element of addition, so no extra term appears.
-/
import Idealize.ShloMosaic.Lib.ValueLayout
import Idealize.ShloMosaic.PureOps.Ideal.Laws

noncomputable section

open scoped BigOperators

namespace Cert.SegLoss

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a tile at row `r`: the sum over the 1024 lanes of that row's entries. -/
theorem laneSum_apply (src : FVec Ideal ⟨2, ![512, 1024]⟩ .f32)
    (h : Shape.Reduces ⟨2, ![512, 1024]⟩ [1] ⟨1, ![512]⟩) (hφ : FKind.Formats .f32)
    (hacc : (0x00000000#32 : BitVec 32) = FKind.add.neutral .f32 hφ) (r : Fin 512) :
    multiReduction (F := Ideal) .add [1] ⟨1, ![512]⟩ src 0x00000000#32 h hφ hacc (ix1 r)
      = ∑ w : Fin 1024, src (ix2 r w) := by
  refine (Ideal.multiReduction_add_single src 0x00000000#32 h hφ hacc (ix1 r)).trans ?_
  refine Finset.sum_congr rfl fun w _ => congrArg src ?_
  funext c
  match c with
  | ⟨0, _⟩ => rfl
  | ⟨1, _⟩ => rfl

/-- The row sum of a column `[512, 1]` at its one entry: the sum over the 512 rows. -/
theorem rowSum_apply (src : FVec Ideal ⟨2, ![512, 1]⟩ .f32)
    (h : Shape.Reduces ⟨2, ![512, 1]⟩ [0] ⟨1, ![1]⟩) (hφ : FKind.Formats .f32)
    (hacc : (0x00000000#32 : BitVec 32) = FKind.add.neutral .f32 hφ) (u : Fin 1) :
    multiReduction (F := Ideal) .add [0] ⟨1, ![1]⟩ src 0x00000000#32 h hφ hacc (ix1 u)
      = ∑ r : Fin 512, src (ix2 r u) := by
  refine (Ideal.multiReduction_add_single src 0x00000000#32 h hφ hacc (ix1 u)).trans ?_
  refine Finset.sum_congr rfl fun r _ => congrArg src ?_
  funext c
  match c with
  | ⟨0, _⟩ => rfl
  | ⟨1, _⟩ => rfl

/-- THE TILE SUM: lanes first, then rows, with the two views in between and after, is the double sum of the tile's
    entries over rows and lanes. -/
theorem tileSum_apply (src : FVec Ideal ⟨2, ![512, 1024]⟩ .f32)
    (h1 : Shape.Reduces ⟨2, ![512, 1024]⟩ [1] ⟨1, ![512]⟩) (c1 : (⟨1, ![512]⟩ : Shape).ShapeCasts ⟨2, ![512, 1]⟩)
    (h0 : Shape.Reduces ⟨2, ![512, 1]⟩ [0] ⟨1, ![1]⟩) (c0 : (⟨1, ![1]⟩ : Shape).ShapeCasts ⟨2, ![1, 1]⟩)
    (hφ1 hφ0 : FKind.Formats .f32)
    (ha1 : (0x00000000#32 : BitVec 32) = FKind.add.neutral .f32 hφ1)
    (ha0 : (0x00000000#32 : BitVec 32) = FKind.add.neutral .f32 hφ0) (u v : Fin 1) :
    shapeCast ⟨2, ![1, 1]⟩
        (multiReduction (F := Ideal) .add [0] ⟨1, ![1]⟩
          (shapeCast ⟨2, ![512, 1]⟩
            (multiReduction (F := Ideal) .add [1] ⟨1, ![512]⟩ src 0x00000000#32 h1 hφ1 ha1) c1)
          0x00000000#32 h0 hφ0 ha0) c0 (ix2 u v)
      = ∑ r : Fin 512, ∑ w : Fin 1024, src (ix2 r w) := by
  refine (shapeCast_a_1a_apply _ c0 u v).trans ?_
  refine (rowSum_apply _ h0 hφ0 ha0 v).trans ?_
  refine Finset.sum_congr rfl fun r _ => ?_
  refine (shapeCast_a_a1_apply _ c1 r v).trans ?_
  exact laneSum_apply src h1 hφ1 ha1 r

end Cert.SegLoss

end
-- ==== Proof.Pixels.lean ====
/-
  The kernel body's elementwise payloads read at one pixel `(r, w)` of a 512 × 1024 tile, at the ideal instance,
  as the scalar functions of Scalars.lean applied to the six loaded slabs' values at `(0, 0, r, w)`.

  * A loaded `[1, 1, 512, 1024]` slab viewed as `[512, 1024]` reads the slab at `(0, 0, r, w)`.
  * The two float masks are `bgMask` / `fgMask` of the three target values at the pixel.
  * The running accumulators add, channel by channel, `hub p · mask` (background) and `hub (p − 255) · mask`
    (foreground) to what they held, the first one starting from the zero word's value.
-/
import proofs.«109099_j47090021433737_2_alg».proof.Proof.Gen.KernelIdeal.Skeleton
import proofs.«109099_j47090021433737_2_alg».proof.Proof.Scalars
import proofs.«109099_j47090021433737_2_alg».proof.Proof.TileSum

noncomputable section

namespace Cert.SegLoss

open Idealize.ShloMosaic Idealize.ShloMosaic.ValueIdx Cert.KernelIdeal

/-- One loaded channel slab. -/
abbrev Slab : Type := Vec Ideal S1x1x512x1024 .f32
/-- One tile of values. -/
abbrev Tile : Type := FVec Ideal S512x1024 .f32

/-! ## A slab viewed as a tile -/

theorem pay4_apply (v : Slab) (r : Fin 512) (w : Fin 1024) :
    Gen.k0_pay4 (F := Ideal) v (ix2 r w) = v (ix4 (0 : Fin 1) (0 : Fin 1) r w) :=
  shapeCast_11ab_ab_apply v _ r w
theorem pay5_apply (v : Slab) (r : Fin 512) (w : Fin 1024) :
    Gen.k0_pay5 (F := Ideal) v (ix2 r w) = v (ix4 (0 : Fin 1) (0 : Fin 1) r w) :=
  shapeCast_11ab_ab_apply v _ r w
theorem pay6_apply (v : Slab) (r : Fin 512) (w : Fin 1024) :
    Gen.k0_pay6 (F := Ideal) v (ix2 r w) = v (ix4 (0 : Fin 1) (0 : Fin 1) r w) :=
  shapeCast_11ab_ab_apply v _ r w
theorem pay12_apply (v : Slab) (r : Fin 512) (w : Fin 1024) :
    Gen.k0_pay12 (F := Ideal) v (ix2 r w) = v (ix4 (0 : Fin 1) (0 : Fin 1) r w) :=
  shapeCast_11ab_ab_apply v _ r w
theorem pay17_apply (v : Slab) (r : Fin 512) (w : Fin 1024) :
    Gen.k0_pay17 (F := Ideal) v (ix2 r w) = v (ix4 (0 : Fin 1) (0 : Fin 1) r w) :=
  shapeCast_11ab_ab_apply v _ r w
theorem pay22_apply (v : Slab) (r : Fin 512) (w : Fin 1024) :
    Gen.k0_pay22 (F := Ideal) v (ix2 r w) = v (ix4 (0 : Fin 1) (0 : Fin 1) r w) :=
  shapeCast_11ab_ab_apply v _ r w

/-! ## The masks -/

/-- The background mask at every index: `bgMask` of the three target tiles' values there. -/
theorem pay7_eq (t0 t1 t2 : Slab) :
    Gen.k0_pay7 (F := Ideal) t0 t1 t2
      = fun i => bgMask (Gen.k0_pay4 (F := Ideal) t0 i) (Gen.k0_pay5 (F := Ideal) t1 i) (Gen.k0_pay6 (F := Ideal) t2 i) := rfl
/-- The foreground mask at every index: `fgMask` of the three target tiles' values there. -/
theorem pay8_eq (t0 t1 t2 : Slab) :
    Gen.k0_pay8 (F := Ideal) t0 t1 t2
      = fun i => fgMask (Gen.k0_pay4 (F := Ideal) t0 i) (Gen.k0_pay5 (F := Ideal) t1 i) (Gen.k0_pay6 (F := Ideal) t2 i) := rfl

/-- The background mask at pixel `(r, w)`. -/
theorem pay7_apply (t0 t1 t2 : Slab) (r : Fin 512) (w : Fin 1024) :
    Gen.k0_pay7 (F := Ideal) t0 t1 t2 (ix2 r w)
      = bgMask (t0 (ix4 (0 : Fin 1) (0 : Fin 1) r w)) (t1 (ix4 (0 : Fin 1) (0 : Fin 1) r w)) (t2 (ix4 (0 : Fin 1) (0 : Fin 1) r w)) := by
  rw [pay7_eq]
  show bgMask (Gen.k0_pay4 (F := Ideal) t0 (ix2 r w)) (Gen.k0_pay5 (F := Ideal) t1 (ix2 r w)) (Gen.k0_pay6 (F := Ideal) t2 (ix2 r w)) = _
  rw [pay4_apply, pay5_apply, pay6_apply]
/-- The foreground mask at pixel `(r, w)`. -/
theorem pay8_apply (t0 t1 t2 : Slab) (r : Fin 512) (w : Fin 1024) :
    Gen.k0_pay8 (F := Ideal) t0 t1 t2 (ix2 r w)
      = fgMask (t0 (ix4 (0 : Fin 1) (0 : Fin 1) r w)) (t1 (ix4 (0 : Fin 1) (0 : Fin 1) r w)) (t2 (ix4 (0 : Fin 1) (0 : Fin 1) r w)) := by
  rw [pay8_eq]
  show fgMask (Gen.k0_pay4 (F := Ideal) t0 (ix2 r w)) (Gen.k0_pay5 (F := Ideal) t1 (ix2 r w)) (Gen.k0_pay6 (F := Ideal) t2 (ix2 r w)) = _
  rw [pay4_apply, pay5_apply, pay6_apply]

/-! ## The running accumulators, at every index -/

/-- After channel 0, background: the zero word's value plus `hub p · mask`. -/
theorem pay13_eq (m : Tile) (p : Slab) :
    Gen.k0_pay13 (F := Ideal) m p
      = fun i => Ideal.ofBits .f32 0x00000000#32 + hub (Gen.k0_pay12 (F := Ideal) p i) * m i := rfl
/-- After channel 0, foreground: the zero word's value plus `hub (p − 255) · mask`. -/
theorem pay14_eq (m : Tile) (p : Slab) :
    Gen.k0_pay14 (F := Ideal) m p
      = fun i => Ideal.ofBits .f32 0x00000000#32 + hub (Gen.k0_pay12 (F := Ideal) p i - c255) * m i := rfl
/-- After channel 1, background: what was held plus `hub p · mask`. -/
theorem pay18_eq (m acc : Tile) (p : Slab) :
    Gen.k0_pay18 (F := Ideal) m acc p = fun i => acc i + hub (Gen.k0_pay17 (F := Ideal) p i) * m i := rfl
/-- After channel 1, foreground: what was held plus `hub (p − 255) · mask`. -/
theorem pay19_eq (m acc : Tile) (p : Slab) :
    Gen.k0_pay19 (F := Ideal) m acc p = fun i => acc i + hub (Gen.k0_pay17 (F := Ideal) p i - c255) * m i := rfl

end Cert.SegLoss

end
-- ==== Proof.PixelFns.lean ====
/-
  The two per-pixel Huber accumulations, as functions of the three prediction values `a b c` of a pixel and of its
  mask value `m`, grouped as a running accumulator that starts from zero and adds one channel at a time groups them.
-/
import proofs.«109099_j47090021433737_2_alg».proof.Proof.Scalars

noncomputable section

namespace Cert.SegLoss

open Idealize.ShloMosaic

/-- Background: `((0 + hub a · m) + hub b · m) + hub c · m`. -/
def hubBgPix (a b c m : EReal) : EReal :=
  ((0 + hub a * m) + hub b * m) + hub c * m

/-- Foreground: the same with each prediction value taken less 255. -/
def hubFgPix (a b c m : EReal) : EReal :=
  ((0 + hub (a - c255) * m) + hub (b - c255) * m) + hub (c - c255) * m

end Cert.SegLoss

end
-- ==== Proof.TileVals.lean ====
/-
  What one grid point adds to the 16-lane scratch, as a function `vals16` of the six loaded channel slabs
  (three prediction channels `p0 p1 p2`, three target channels `t0 t1 t2`), and its value lane by lane:
  lanes 0..9 are sums over the tile's 512 rows and 1024 lanes of a function of the pixel's six values, and lanes
  10..15 are the zero word's value.

    lane 0      the Huber terms against the background mask, `hubBgPix`
    lane 1      the Huber terms of (prediction − 255) against the foreground mask, `hubFgPix`
    lane 2, 3   the background mask, the foreground mask
    lane 4..6   prediction channel 0, 1, 2 times the background mask
    lane 7..9   prediction channel 0, 1, 2 times the foreground mask

  Every tile sum is lanes first, then rows, each reduction starting from the neutral element of addition; so a
  lane is exactly `∑ r : Fin 512, ∑ w : Fin 1024` of its pixel function, with nothing added.
-/
import proofs.«109099_j47090021433737_2_alg».proof.Proof.Pixels
import proofs.«109099_j47090021433737_2_alg».proof.Proof.PixelFns

noncomputable section

open scoped BigOperators

namespace Cert.SegLoss

open Idealize.ShloMosaic Idealize.ShloMosaic.ValueIdx Cert.KernelIdeal

/-! ## The statistics of one grid point, as the body composes its payloads -/

/-- The 16-lane vector the body adds into the scratch, from the six slabs it loads. -/
def vals16 (p0 p1 p2 t0 t1 t2 : Slab) : FVec Ideal S1x16 .f32 :=
  Gen.k0_pay25 (F := Ideal)
    (Gen.k0_pay7 (F := Ideal) t0 t1 t2) (Gen.k0_pay8 (F := Ideal) t0 t1 t2)
    (Gen.k0_pay9 (F := Ideal) t0 t1 t2) (Gen.k0_pay11 (F := Ideal) (Gen.k0_pay10 (F := Ideal) t0 t1 t2))
    (Gen.k0_pay15 (F := Ideal) (Gen.k0_pay7 (F := Ideal) t0 t1 t2) p0) (Gen.k0_pay16 (F := Ideal) (Gen.k0_pay8 (F := Ideal) t0 t1 t2) p0)
    (Gen.k0_pay18 (F := Ideal) (Gen.k0_pay7 (F := Ideal) t0 t1 t2) (Gen.k0_pay13 (F := Ideal) (Gen.k0_pay7 (F := Ideal) t0 t1 t2) p0) p1)
    (Gen.k0_pay19 (F := Ideal) (Gen.k0_pay8 (F := Ideal) t0 t1 t2) (Gen.k0_pay14 (F := Ideal) (Gen.k0_pay8 (F := Ideal) t0 t1 t2) p0) p1)
    (Gen.k0_pay20 (F := Ideal) (Gen.k0_pay7 (F := Ideal) t0 t1 t2) p1) (Gen.k0_pay21 (F := Ideal) (Gen.k0_pay8 (F := Ideal) t0 t1 t2) p1)
    (Gen.k0_pay22 (F := Ideal) p2) (Gen.k0_pay23 (F := Ideal) p2) (Gen.k0_pay24 (F := Ideal) p2)

/-! ## The tile sum as the body writes it -/

/-- A tile summed along its lanes, then along its rows, viewed as `[1, 1]`. -/
def tileTot (src : Tile) : FVec Ideal S1x1 .f32 :=
  shapeCast S1x1
    (multiReduction (F := Ideal) .add [0] S1
      (shapeCast S512x1
        (multiReduction (F := Ideal) .add [1] S512 src 0x00000000#32 Gen.reduces_S512x1024_S512 (.inl rfl) rfl)
        Gen.shapeCasts_S512_S512x1)
      0x00000000#32 Gen.reduces_S512x1_S1 (.inl rfl) rfl)
    Gen.shapeCasts_S1_S1x1

/-- Its one entry is the double sum of the tile's entries. -/
theorem tileTot_apply (src : Tile) :
    tileTot src (ix2 (0 : Fin 1) (0 : Fin 1)) = ∑ r : Fin 512, ∑ w : Fin 1024, src (ix2 r w) :=
  tileSum_apply src _ _ _ _ _ _ _ _ (0 : Fin 1) (0 : Fin 1)

/-! ## The two Huber accumulators after the third channel, as tiles -/

/-- Background: zero word, plus channel 0, plus channel 1, plus channel 2, each `hub p · mask`. -/
def hubBgTile (p0 p1 p2 t0 t1 t2 : Slab) : Tile := fun i =>
  ((Ideal.ofBits .f32 0x00000000#32 + hub (Gen.k0_pay12 (F := Ideal) p0 i) * Gen.k0_pay7 (F := Ideal) t0 t1 t2 i) + hub (Gen.k0_pay17 (F := Ideal) p1 i) * Gen.k0_pay7 (F := Ideal) t0 t1 t2 i) + hub (Gen.k0_pay22 (F := Ideal) p2 i) * Gen.k0_pay7 (F := Ideal) t0 t1 t2 i

/-- Foreground: the same with `hub (p − 255)` and the foreground mask. -/
def hubFgTile (p0 p1 p2 t0 t1 t2 : Slab) : Tile := fun i =>
  ((Ideal.ofBits .f32 0x00000000#32 + hub (Gen.k0_pay12 (F := Ideal) p0 i - c255) * Gen.k0_pay8 (F := Ideal) t0 t1 t2 i) + hub (Gen.k0_pay17 (F := Ideal) p1 i - c255) * Gen.k0_pay8 (F := Ideal) t0 t1 t2 i)
    + hub (Gen.k0_pay22 (F := Ideal) p2 i - c255) * Gen.k0_pay8 (F := Ideal) t0 t1 t2 i

theorem hubBgTile_apply (p0 p1 p2 t0 t1 t2 : Slab) (r : Fin 512) (w : Fin 1024) :
    hubBgTile p0 p1 p2 t0 t1 t2 (ix2 r w) = hubBgPix (p0 (ix4 (0 : Fin 1) (0 : Fin 1) r w)) (p1 (ix4 (0 : Fin 1) (0 : Fin 1) r w)) (p2 (ix4 (0 : Fin 1) (0 : Fin 1) r w)) (bgMask (t0 (ix4 (0 : Fin 1) (0 : Fin 1) r w)) (t1 (ix4 (0 : Fin 1) (0 : Fin 1) r w)) (t2 (ix4 (0 : Fin 1) (0 : Fin 1) r w))) := by
  show ((Ideal.ofBits .f32 0x00000000#32 + hub (Gen.k0_pay12 (F := Ideal) p0 (ix2 r w)) * Gen.k0_pay7 (F := Ideal) t0 t1 t2 (ix2 r w)) + hub (Gen.k0_pay17 (F := Ideal) p1 (ix2 r w)) * Gen.k0_pay7 (F := Ideal) t0 t1 t2 (ix2 r w))
      + hub (Gen.k0_pay22 (F := Ideal) p2 (ix2 r w)) * Gen.k0_pay7 (F := Ideal) t0 t1 t2 (ix2 r w) = _
  rw [hubBgPix, pay12_apply, pay17_apply, pay22_apply, pay7_apply, Ideal.ofBits_zero_f32]

theorem hubFgTile_apply (p0 p1 p2 t0 t1 t2 : Slab) (r : Fin 512) (w : Fin 1024) :
    hubFgTile p0 p1 p2 t0 t1 t2 (ix2 r w) = hubFgPix (p0 (ix4 (0 : Fin 1) (0 : Fin 1) r w)) (p1 (ix4 (0 : Fin 1) (0 : Fin 1) r w)) (p2 (ix4 (0 : Fin 1) (0 : Fin 1) r w)) (fgMask (t0 (ix4 (0 : Fin 1) (0 : Fin 1) r w)) (t1 (ix4 (0 : Fin 1) (0 : Fin 1) r w)) (t2 (ix4 (0 : Fin 1) (0 : Fin 1) r w))) := by
  show ((Ideal.ofBits .f32 0x00000000#32 + hub (Gen.k0_pay12 (F := Ideal) p0 (ix2 r w) - c255) * Gen.k0_pay8 (F := Ideal) t0 t1 t2 (ix2 r w)) + hub (Gen.k0_pay17 (F := Ideal) p1 (ix2 r w) - c255) * Gen.k0_pay8 (F := Ideal) t0 t1 t2 (ix2 r w))
      + hub (Gen.k0_pay22 (F := Ideal) p2 (ix2 r w) - c255) * Gen.k0_pay8 (F := Ideal) t0 t1 t2 (ix2 r w) = _
  rw [hubFgPix, pay12_apply, pay17_apply, pay22_apply, pay8_apply, Ideal.ofBits_zero_f32]

/-! ## The ten statistics, in the order the body concatenates them -/

/-- Piece `k` of the 10-lane concatenation. -/
def pieces (p0 p1 p2 t0 t1 t2 : Slab) : Fin 10 → FVec Ideal S1x1 .f32 :=
  ![tileTot (hubBgTile p0 p1 p2 t0 t1 t2), tileTot (hubFgTile p0 p1 p2 t0 t1 t2),
    tileTot (Gen.k0_pay7 (F := Ideal) t0 t1 t2), tileTot (Gen.k0_pay8 (F := Ideal) t0 t1 t2),
    tileTot (fun i => Gen.k0_pay12 (F := Ideal) p0 i * Gen.k0_pay7 (F := Ideal) t0 t1 t2 i), tileTot (fun i => Gen.k0_pay17 (F := Ideal) p1 i * Gen.k0_pay7 (F := Ideal) t0 t1 t2 i), tileTot (fun i => Gen.k0_pay22 (F := Ideal) p2 i * Gen.k0_pay7 (F := Ideal) t0 t1 t2 i),
    tileTot (fun i => Gen.k0_pay12 (F := Ideal) p0 i * Gen.k0_pay8 (F := Ideal) t0 t1 t2 i), tileTot (fun i => Gen.k0_pay17 (F := Ideal) p1 i * Gen.k0_pay8 (F := Ideal) t0 t1 t2 i), tileTot (fun i => Gen.k0_pay22 (F := Ideal) p2 i * Gen.k0_pay8 (F := Ideal) t0 t1 t2 i)]

/-! Each piece by name (the vector of pieces read at a literal position), stated without an index so that nothing is evaluated. -/
theorem pieces_0 (p0 p1 p2 t0 t1 t2 : Slab) : pieces p0 p1 p2 t0 t1 t2 0 = tileTot (hubBgTile p0 p1 p2 t0 t1 t2) := rfl
theorem pieces_1 (p0 p1 p2 t0 t1 t2 : Slab) : pieces p0 p1 p2 t0 t1 t2 1 = tileTot (hubFgTile p0 p1 p2 t0 t1 t2) := rfl
theorem pieces_2 (p0 p1 p2 t0 t1 t2 : Slab) : pieces p0 p1 p2 t0 t1 t2 2 = tileTot (Gen.k0_pay7 (F := Ideal) t0 t1 t2) := rfl
theorem pieces_3 (p0 p1 p2 t0 t1 t2 : Slab) : pieces p0 p1 p2 t0 t1 t2 3 = tileTot (Gen.k0_pay8 (F := Ideal) t0 t1 t2) := rfl
theorem pieces_4 (p0 p1 p2 t0 t1 t2 : Slab) : pieces p0 p1 p2 t0 t1 t2 4 = tileTot (fun i => Gen.k0_pay12 (F := Ideal) p0 i * Gen.k0_pay7 (F := Ideal) t0 t1 t2 i) := rfl
theorem pieces_5 (p0 p1 p2 t0 t1 t2 : Slab) : pieces p0 p1 p2 t0 t1 t2 5 = tileTot (fun i => Gen.k0_pay17 (F := Ideal) p1 i * Gen.k0_pay7 (F := Ideal) t0 t1 t2 i) := rfl
theorem pieces_6 (p0 p1 p2 t0 t1 t2 : Slab) : pieces p0 p1 p2 t0 t1 t2 6 = tileTot (fun i => Gen.k0_pay22 (F := Ideal) p2 i * Gen.k0_pay7 (F := Ideal) t0 t1 t2 i) := rfl
theorem pieces_7 (p0 p1 p2 t0 t1 t2 : Slab) : pieces p0 p1 p2 t0 t1 t2 7 = tileTot (fun i => Gen.k0_pay12 (F := Ideal) p0 i * Gen.k0_pay8 (F := Ideal) t0 t1 t2 i) := rfl
theorem pieces_8 (p0 p1 p2 t0 t1 t2 : Slab) : pieces p0 p1 p2 t0 t1 t2 8 = tileTot (fun i => Gen.k0_pay17 (F := Ideal) p1 i * Gen.k0_pay8 (F := Ideal) t0 t1 t2 i) := rfl
theorem pieces_9 (p0 p1 p2 t0 t1 t2 : Slab) : pieces p0 p1 p2 t0 t1 t2 9 = tileTot (fun i => Gen.k0_pay22 (F := Ideal) p2 i * Gen.k0_pay8 (F := Ideal) t0 t1 t2 i) := rfl

/-- `vals16` is the ten pieces side by side, then six lanes of the zero word's value: by unfolding the payloads. -/
theorem vals16_eq (p0 p1 p2 t0 t1 t2 : Slab) :
    vals16 p0 p1 p2 t0 t1 t2
      = concatenate S1x16 1
          [⟨S1x10, concatenate S1x10 1
              [⟨S1x1, pieces p0 p1 p2 t0 t1 t2 0⟩, ⟨S1x1, pieces p0 p1 p2 t0 t1 t2 1⟩, ⟨S1x1, pieces p0 p1 p2 t0 t1 t2 2⟩, ⟨S1x1, pieces p0 p1 p2 t0 t1 t2 3⟩,
               ⟨S1x1, pieces p0 p1 p2 t0 t1 t2 4⟩, ⟨S1x1, pieces p0 p1 p2 t0 t1 t2 5⟩, ⟨S1x1, pieces p0 p1 p2 t0 t1 t2 6⟩, ⟨S1x1, pieces p0 p1 p2 t0 t1 t2 7⟩,
               ⟨S1x1, pieces p0 p1 p2 t0 t1 t2 8⟩, ⟨S1x1, pieces p0 p1 p2 t0 t1 t2 9⟩]
              Gen.concatenates_S1x1_S1x1_S1x1_S1x1_S1x1_S1x1_S1x1_S1x1_S1x1_S1x1_S1x10_d1⟩,
           ⟨S1x6, broadcast S1x6 (Ideal.ofBits .f32 0x00000000#32)⟩]
          Gen.concatenates_S1x10_S1x6_S1x16_d1 := rfl

/-- Ten `[1, 1]` pieces side by side read, at lane `k`, piece `k`'s one entry. -/
theorem cat10_apply {α : Type} (x : Fin 10 → (S1x1.Idx → α))
    (h : Shape.Concatenates [S1x1, S1x1, S1x1, S1x1, S1x1, S1x1, S1x1, S1x1, S1x1, S1x1] S1x10 1) (k : Fin 10) :
    concatenate S1x10 1
        [⟨S1x1, x 0⟩, ⟨S1x1, x 1⟩, ⟨S1x1, x 2⟩, ⟨S1x1, x 3⟩, ⟨S1x1, x 4⟩, ⟨S1x1, x 5⟩, ⟨S1x1, x 6⟩, ⟨S1x1, x 7⟩,
         ⟨S1x1, x 8⟩, ⟨S1x1, x 9⟩] h (ix2 (0 : Fin 1) k)
      = x k (ix2 (0 : Fin 1) (0 : Fin 1)) :=
  concatenate_apply_piece (t := S1x10) (1 : Fin 2)
    [⟨S1x1, x 0⟩, ⟨S1x1, x 1⟩, ⟨S1x1, x 2⟩, ⟨S1x1, x 3⟩, ⟨S1x1, x 4⟩, ⟨S1x1, x 5⟩, ⟨S1x1, x 6⟩, ⟨S1x1, x 7⟩,
     ⟨S1x1, x 8⟩, ⟨S1x1, x 9⟩] h (ix2 (0 : Fin 1) k) k.val k.isLt S1x1 (x k)
    (by fin_cases k <;> rfl) rfl k.val (by fin_cases k <;> rfl) (ix2 (0 : Fin 1) (0 : Fin 1))
    (fun b hb => by
      match b with
      | ⟨0, _⟩ => rfl
      | ⟨1, _⟩ => exact absurd rfl hb)
    rfl

/-- Lane `k < 10` of `vals16` is piece `k`'s one entry. -/
theorem vals16_lane_lt (p0 p1 p2 t0 t1 t2 : Slab) (k : Fin 10) :
    vals16 p0 p1 p2 t0 t1 t2 (ix2 (0 : Fin 1) (⟨k.val, by omega⟩ : Fin 16)) = pieces p0 p1 p2 t0 t1 t2 k (ix2 (0 : Fin 1) (0 : Fin 1)) := by
  rw [vals16_eq]
  refine (concatenate_pair_apply_left (t := S1x16) (s₁ := S1x10) (s₂ := S1x6) (1 : Fin 2) _ _
    Gen.concatenates_S1x10_S1x6_S1x16_d1 _ rfl (ix2 (0 : Fin 1) k) (fun b => by
      match b with
      | ⟨0, _⟩ => rfl
      | ⟨1, _⟩ => rfl)).trans ?_
  exact cat10_apply (pieces p0 p1 p2 t0 t1 t2) _ k

/-- The same with the lane given as any `k16 : Fin 16` whose value is `k`'s: the form used at a literal lane. -/
theorem vals16_lane_of_eq (p0 p1 p2 t0 t1 t2 : Slab) (k16 : Fin 16) (k : Fin 10) (hk : k16.val = k.val) :
    vals16 p0 p1 p2 t0 t1 t2 (ix2 (0 : Fin 1) k16) = pieces p0 p1 p2 t0 t1 t2 k (ix2 (0 : Fin 1) (0 : Fin 1)) := by
  have e : k16 = (⟨k.val, by omega⟩ : Fin 16) := Fin.ext hk
  rw [e]
  exact vals16_lane_lt p0 p1 p2 t0 t1 t2 k

/-- Lanes 10..15 of `vals16` are the zero word's value. -/
theorem vals16_lane_ge (p0 p1 p2 t0 t1 t2 : Slab) (k : Fin 16) (hk : 10 ≤ k.val) :
    vals16 p0 p1 p2 t0 t1 t2 (ix2 (0 : Fin 1) k) = Ideal.ofBits .f32 0x00000000#32 := by
  rw [vals16_eq]
  exact concatenate_pair_apply_right (t := S1x16) (s₁ := S1x10) (s₂ := S1x6) (1 : Fin 2) _ _
    Gen.concatenates_S1x10_S1x6_S1x16_d1 _ rfl rfl
    (ix2 (0 : Fin 1) (⟨k.val - 10, by have := k.isLt; omega⟩ : Fin 6))
    (fun b hb => by
      match b with
      | ⟨0, _⟩ => rfl
      | ⟨1, _⟩ => exact absurd rfl hb)
    (by show k.val - 10 + 10 = k.val; omega)

end Cert.SegLoss

end
-- ==== Proof.Lanes.lean ====
/-
  The ten statistics of one grid point at their literal lanes: lane `k` of `vals16` is the sum over the tile's 512 rows
  and 1024 lanes of the pixel function of that lane, read off the six loaded slabs at `(0, 0, r, w)`.
-/
import proofs.«109099_j47090021433737_2_alg».proof.Proof.TileVals

noncomputable section

open scoped BigOperators

namespace Cert.SegLoss

open Idealize.ShloMosaic Idealize.ShloMosaic.ValueIdx Cert.KernelIdeal

-- Each step below is a rewrite by a named equation; the tile sum and the statistics vector are never unfolded here.
attribute [local irreducible] tileTot vals16 hubBgTile hubFgTile

/-- Lane 0: the Huber terms of the three prediction channels against the background mask. -/
theorem vals16_lane0 (p0 p1 p2 t0 t1 t2 : Slab) :
    vals16 p0 p1 p2 t0 t1 t2 (ix2 (0 : Fin 1) (0 : Fin 16))
      = ∑ r : Fin 512, ∑ w : Fin 1024, hubBgPix (p0 (ix4 (0 : Fin 1) (0 : Fin 1) r w)) (p1 (ix4 (0 : Fin 1) (0 : Fin 1) r w)) (p2 (ix4 (0 : Fin 1) (0 : Fin 1) r w)) (bgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (0 : Fin 16) (0 : Fin 10) rfl, pieces_0, tileTot_apply]
  exact Finset.sum_congr rfl fun r _ => Finset.sum_congr rfl fun w _ => hubBgTile_apply p0 p1 p2 t0 t1 t2 r w

/-- Lane 1: the Huber terms of the three prediction channels less 255 against the foreground mask. -/
theorem vals16_lane1 (p0 p1 p2 t0 t1 t2 : Slab) :
    vals16 p0 p1 p2 t0 t1 t2 (ix2 (0 : Fin 1) (1 : Fin 16))
      = ∑ r : Fin 512, ∑ w : Fin 1024, hubFgPix (p0 (ix4 (0 : Fin 1) (0 : Fin 1) r w)) (p1 (ix4 (0 : Fin 1) (0 : Fin 1) r w)) (p2 (ix4 (0 : Fin 1) (0 : Fin 1) r w)) (fgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (1 : Fin 16) (1 : Fin 10) rfl, pieces_1, tileTot_apply]
  exact Finset.sum_congr rfl fun r _ => Finset.sum_congr rfl fun w _ => hubFgTile_apply p0 p1 p2 t0 t1 t2 r w

/-- Lane 2: the number of background pixels, as the sum of the background mask. -/
theorem vals16_lane2 (p0 p1 p2 t0 t1 t2 : Slab) :
    vals16 p0 p1 p2 t0 t1 t2 (ix2 (0 : Fin 1) (2 : Fin 16))
      = ∑ r : Fin 512, ∑ w : Fin 1024, bgMask (t0 (ix4 (0 : Fin 1) (0 : Fin 1) r w)) (t1 (ix4 (0 : Fin 1) (0 : Fin 1) r w)) (t2 (ix4 (0 : Fin 1) (0 : Fin 1) r w)) := by
  rw [vals16_lane_of_eq p0 p1 p2 t0 t1 t2 (2 : Fin 16) (2 : Fin 10) rfl, pieces_2, tileTot_apply]
  exact Finset.sum_congr rfl fun r _ => Finset.sum_congr rfl fun w _ => pay7_apply t0 t1 t2 r w

/-- Lane 3: the number of foreground pixels, as the sum of the foreground mask. -/
theorem vals16_lane3 (p0 p1 p2 t0 t1 t2 : Slab) :
    vals16 p0 p1 p2 t0 t1 t2 (ix2 (0 : Fin 1) (3 : Fin 16))
      = ∑ r : Fin 512, ∑ w : Fin 1024, fgMask (t0 (ix4 (0 : Fin 1) (0 : Fin 1) r w)) (t1 (ix4 (0 : Fin 1) (0 : Fin 1) r w)) (t2 (ix4 (0 : Fin 1) (0 : Fin 1) r w)) := by
  rw [vals16_lane_of_eq p0 p1 p2 t0 t1 t2 (3 : Fin 16) (3 : Fin 10) rfl, pieces_3, tileTot_apply]
  exact Finset.sum_congr rfl fun r _ => Finset.sum_congr rfl fun w _ => pay8_apply t0 t1 t2 r w

/-- Lane 4: prediction channel 0 summed over the background. -/
theorem vals16_lane4 (p0 p1 p2 t0 t1 t2 : Slab) :
    vals16 p0 p1 p2 t0 t1 t2 (ix2 (0 : Fin 1) (4 : Fin 16))
      = ∑ r : Fin 512, ∑ w : Fin 1024, p0 (ix4 (0 : Fin 1) (0 : Fin 1) r w) * (bgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (4 : Fin 16) (4 : Fin 10) rfl, pieces_4, tileTot_apply]
  exact Finset.sum_congr rfl fun r _ => Finset.sum_congr rfl fun w _ => by
        show Gen.k0_pay12 (F := Ideal) p0 (ix2 r w) * Gen.k0_pay7 (F := Ideal) t0 t1 t2 (ix2 r w) = _
        rw [pay12_apply, pay7_apply]

/-- Lane 5: prediction channel 1 summed over the background. -/
theorem vals16_lane5 (p0 p1 p2 t0 t1 t2 : Slab) :
    vals16 p0 p1 p2 t0 t1 t2 (ix2 (0 : Fin 1) (5 : Fin 16))
      = ∑ r : Fin 512, ∑ w : Fin 1024, p1 (ix4 (0 : Fin 1) (0 : Fin 1) r w) * (bgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (5 : Fin 16) (5 : Fin 10) rfl, pieces_5, tileTot_apply]
  exact Finset.sum_congr rfl fun r _ => Finset.sum_congr rfl fun w _ => by
        show Gen.k0_pay17 (F := Ideal) p1 (ix2 r w) * Gen.k0_pay7 (F := Ideal) t0 t1 t2 (ix2 r w) = _
        rw [pay17_apply, pay7_apply]

/-- Lane 6: prediction channel 2 summed over the background. -/
theorem vals16_lane6 (p0 p1 p2 t0 t1 t2 : Slab) :
    vals16 p0 p1 p2 t0 t1 t2 (ix2 (0 : Fin 1) (6 : Fin 16))
      = ∑ r : Fin 512, ∑ w : Fin 1024, p2 (ix4 (0 : Fin 1) (0 : Fin 1) r w) * (bgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (6 : Fin 16) (6 : Fin 10) rfl, pieces_6, tileTot_apply]
  exact Finset.sum_congr rfl fun r _ => Finset.sum_congr rfl fun w _ => by
        show Gen.k0_pay22 (F := Ideal) p2 (ix2 r w) * Gen.k0_pay7 (F := Ideal) t0 t1 t2 (ix2 r w) = _
        rw [pay22_apply, pay7_apply]

/-- Lane 7: prediction channel 0 summed over the foreground. -/
theorem vals16_lane7 (p0 p1 p2 t0 t1 t2 : Slab) :
    vals16 p0 p1 p2 t0 t1 t2 (ix2 (0 : Fin 1) (7 : Fin 16))
      = ∑ r : Fin 512, ∑ w : Fin 1024, p0 (ix4 (0 : Fin 1) (0 : Fin 1) r w) * (fgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (7 : Fin 16) (7 : Fin 10) rfl, pieces_7, tileTot_apply]
  exact Finset.sum_congr rfl fun r _ => Finset.sum_congr rfl fun w _ => by
        show Gen.k0_pay12 (F := Ideal) p0 (ix2 r w) * Gen.k0_pay8 (F := Ideal) t0 t1 t2 (ix2 r w) = _
        rw [pay12_apply, pay8_apply]

/-- Lane 8: prediction channel 1 summed over the foreground. -/
theorem vals16_lane8 (p0 p1 p2 t0 t1 t2 : Slab) :
    vals16 p0 p1 p2 t0 t1 t2 (ix2 (0 : Fin 1) (8 : Fin 16))
      = ∑ r : Fin 512, ∑ w : Fin 1024, p1 (ix4 (0 : Fin 1) (0 : Fin 1) r w) * (fgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (8 : Fin 16) (8 : Fin 10) rfl, pieces_8, tileTot_apply]
  exact Finset.sum_congr rfl fun r _ => Finset.sum_congr rfl fun w _ => by
        show Gen.k0_pay17 (F := Ideal) p1 (ix2 r w) * Gen.k0_pay8 (F := Ideal) t0 t1 t2 (ix2 r w) = _
        rw [pay17_apply, pay8_apply]

/-- Lane 9: prediction channel 2 summed over the foreground. -/
theorem vals16_lane9 (p0 p1 p2 t0 t1 t2 : Slab) :
    vals16 p0 p1 p2 t0 t1 t2 (ix2 (0 : Fin 1) (9 : Fin 16))
      = ∑ r : Fin 512, ∑ w : Fin 1024, p2 (ix4 (0 : Fin 1) (0 : Fin 1) r w) * (fgMask (t0 (ix4 (0 : Fin 1) (0 : Fin 1) r w)) (t1 (ix4 (0 : Fin 1) (0 : Fin 1) r w)) (t2 (ix4 (0 : Fin 1) (0 : Fin 1) r w))) := by
  rw [vals16_lane_of_eq p0 p1 p2 t0 t1 t2 (9 : Fin 16) (9 : Fin 10) rfl, pieces_9, tileTot_apply]
  exact Finset.sum_congr rfl fun r _ => Finset.sum_congr rfl fun w _ => by
        show Gen.k0_pay22 (F := Ideal) p2 (ix2 r w) * Gen.k0_pay8 (F := Ideal) t0 t1 t2 (ix2 r w) = _
        rw [pay22_apply, pay8_apply]

end Cert.SegLoss

end
-- ==== Proof.SmallPays.lean ====
/-
  The three small payloads of the kernel body, at the ideal instance.

  * `k0_pay1`: what is written back to the 16-lane scratch is, lane by lane, what it held plus the new statistics
    (the cast to the same shape is the identity).
  * `k0_pay3`: the scratch's reset value is the zero word's value in every lane.
  * `k0_pay2`: the output block `[1, 1, 128]` is the scratch in lanes 0..15 and the zero word's value in lanes 16..127.
-/
import proofs.«109099_j47090021433737_2_alg».proof.Proof.Gen.KernelIdeal.Skeleton
import Idealize.ShloMosaic.Lib.ValueLayout

noncomputable section

namespace Cert.SegLoss

open Idealize.ShloMosaic Idealize.ShloMosaic.ValueIdx Cert.KernelIdeal

/-- The scratch update: held value plus new value, at every lane. -/
theorem pay1_eq (v157 : FVec Ideal S1x16 .f32) (v158 : Vec Ideal S1x16 .f32) :
    Gen.k0_pay1 (F := Ideal) v157 v158 = fun i => v158 i + v157 i :=
  shapeCast_self (addf (F := Ideal) (φ := .f32) v158 v157) Gen.shapeCasts_S1x16_S1x16

/-- The scratch update at one lane. -/
theorem pay1_apply (v157 : FVec Ideal S1x16 .f32) (v158 : Vec Ideal S1x16 .f32) (i : S1x16.Idx) :
    Gen.k0_pay1 (F := Ideal) v157 v158 i = v158 i + v157 i :=
  congrFun (pay1_eq v157 v158) i

/-- The scratch's reset value: the zero word's value at every lane. -/
theorem pay3_apply (i : S1x16.Idx) : Gen.k0_pay3 (F := Ideal) i = Ideal.ofBits .f32 0x00000000#32 :=
  congrFun (shapeCast_self (broadcast S1x16 (Scalar.ofBits (F := Ideal) .f32 0x00000000#32)) Gen.shapeCasts_S1x16_S1x16) i

/-- The output block at a lane below 16: the scratch's lane. -/
theorem pay2_apply_lt (v166 : Vec Ideal S1x16 .f32) (j : Fin 128) (hj : j.val < 16) :
    Gen.k0_pay2 (F := Ideal) v166 (ix3 (0 : Fin 1) (0 : Fin 1) j) = v166 (ix2 (0 : Fin 1) (⟨j.val, hj⟩ : Fin 16)) := by
  unfold Gen.k0_pay2
  refine (shapeCast_ab_1ab_apply _ Gen.shapeCasts_S1x128_S1x1x128 (0 : Fin 1) (0 : Fin 1) j).trans ?_
  exact concatenate_pair_apply_left (t := S1x128) (s₁ := S1x16) (s₂ := S1x112) (1 : Fin 2) _ _
    Gen.concatenates_S1x16_S1x112_S1x128_d1 _ rfl _ (fun b => by
      match b with
      | ⟨0, _⟩ => rfl
      | ⟨1, _⟩ => rfl)

/-- The output block at a lane from 16 on: the zero word's value. -/
theorem pay2_apply_ge (v166 : Vec Ideal S1x16 .f32) (j : Fin 128) (hj : 16 ≤ j.val) :
    Gen.k0_pay2 (F := Ideal) v166 (ix3 (0 : Fin 1) (0 : Fin 1) j) = Ideal.ofBits .f32 0x00000000#32 := by
  unfold Gen.k0_pay2
  refine (shapeCast_ab_1ab_apply _ Gen.shapeCasts_S1x128_S1x1x128 (0 : Fin 1) (0 : Fin 1) j).trans ?_
  exact concatenate_pair_apply_right (t := S1x128) (s₁ := S1x16) (s₂ := S1x112) (1 : Fin 2) _ _
    Gen.concatenates_S1x16_S1x112_S1x128_d1 _ rfl rfl
    (ix2 (0 : Fin 1) (⟨j.val - 16, by have := j.isLt; omega⟩ : Fin 112))
    (fun b hb => by
      match b with
      | ⟨0, _⟩ => rfl
      | ⟨1, _⟩ => exact absurd rfl hb)
    (by show j.val - 16 + 16 = j.val; omega)

end Cert.SegLoss

end
-- ==== Proof.KI.LaneStats.lean ====
/-
  The statistics array, lane by lane, in the two-tile form.

  Row `b` of the statistics array is sample `b`'s accumulator padded to 128 lanes, and the accumulator is
  (zero vector + the statistics of the sample's first row tile) + the statistics of its second row tile. Lane `k < 10`
  of a tile's statistics is the sum over the tile's 512 rows and 1024 lanes of lane `k`'s pixel function, and a pixel
  `(r, w)` of row tile `j` of sample `b` is pixel `(512 · j + r, w)` of the sample in the argument arrays. So lane `k` of
  row `b` is `(0 + tile 0's sum) + tile 1's sum` of that pixel function over the argument arrays.
-/
import proofs.«109099_j47090021433737_2_alg».proof.Proof.KI.Blocks
import proofs.«109099_j47090021433737_2_alg».proof.Proof.Lanes
import proofs.«109099_j47090021433737_2_alg».proof.Proof.SmallPays
import proofs.«109099_j47090021433737_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.SegLoss

variable (m : (ℓ : Loc nD τ sig) → Buf (Elt Ideal) ℓ)

/-! ## A point's statistics are `vals16` of its six channel slabs -/

/-- The statistics of six slabs are `vals16` of them: the same composition of the body's payloads. -/
theorem stats6_eq (p0 p1 p2 t0 t1 t2 : Slab) :
    stats6 (F := Ideal) p0 p1 p2 t0 t1 t2 = vals16 p0 p1 p2 t0 t1 t2 := rfl

/-! ## Which point is which row tile of a sample -/

theorem ptE_sample (b : Fin 16) : b.val = (ptE b).val / 2 := by show b.val = 2 * b.val / 2; omega
theorem ptE_tile (b : Fin 16) : (0 : Fin 2).val = (ptE b).val % 2 := by show 0 = 2 * b.val % 2; omega
theorem ptO_sample (b : Fin 16) : b.val = (ptO b).val / 2 := by show b.val = (2 * b.val + 1) / 2; omega
theorem ptO_tile (b : Fin 16) : (1 : Fin 2).val = (ptO b).val % 2 := by show 1 = (2 * b.val + 1) % 2; omega

/-! ## A row of the statistics array at a lane below 10, over the two points' slabs -/

/-- Row `b` at lane `j` (the same number as `k : Fin 16`): zero, plus the first tile's statistic, plus the second's. -/
theorem outArr_lane (c : Dev nD) (b : Fin 16) (j : Fin 128) (k : Fin 16) (hjk : j.val = k.val) :
    outArr m c (ix3 b (0 : Fin 1) j)
      = (0 + vals16 (chan0 (iblk m c 0 (ptE b))) (chan1 (iblk m c 0 (ptE b))) (chan2 (iblk m c 0 (ptE b))) (chan0 (iblk m c 1 (ptE b))) (chan1 (iblk m c 1 (ptE b))) (chan2 (iblk m c 1 (ptE b))) (ix2 (0 : Fin 1) k))
          + vals16 (chan0 (iblk m c 0 (ptO b))) (chan1 (iblk m c 0 (ptO b))) (chan2 (iblk m c 0 (ptO b))) (chan0 (iblk m c 1 (ptO b))) (chan1 (iblk m c 1 (ptO b))) (chan2 (iblk m c 1 (ptO b))) (ix2 (0 : Fin 1) k) := by
  have hj16 : j.val < 16 := by have := k.isLt; omega
  have ek : (⟨j.val, hj16⟩ : Fin 16) = k := Fin.ext hjk
  show Gen.k0_pay2 (F := Ideal) (accOf m c b) (ix3 (0 : Fin 1) (0 : Fin 1) j) = _
  rw [pay2_apply_lt _ j hj16, ek]
  unfold accOf tileStats
  rw [pay1_apply, pay1_apply, pay3_apply, Ideal.ofBits_zero_f32, stats6_eq, stats6_eq]

-- From here on every step is a rewrite by a named equation: the statistics vector and the tile sum stay folded.
attribute [local irreducible] vals16 tileTot outArr accOf

/-! ## A pixel of a point's slab is a pixel of the argument array -/

theorem pred0_apply (c : Dev nD) (t : Fin cfg0.N) (b : Fin 16) (j : Fin 2) (hb : b.val = t.val / 2) (hj : j.val = t.val % 2) (r : Fin 512) (w : Fin 1024) :
    (chan0 (iblk m c 0 t)) (ix4 (0 : Fin 1) (0 : Fin 1) r w) = (ofArr (m ((c : Thread nD τ).loc main_arg0))) b 0 (rowOf j r) w := by
  refine (chan0_apply (F := Ideal) (iblk m c 0 t) r w).trans ?_
  exact iblk0_apply m c t (0 : Fin 3) r w b (rowOf j r) hb
    (by show 512 * j.val + r.val = 512 * (t.val % 2) + r.val; rw [hj])
theorem pred1_apply (c : Dev nD) (t : Fin cfg0.N) (b : Fin 16) (j : Fin 2) (hb : b.val = t.val / 2) (hj : j.val = t.val % 2) (r : Fin 512) (w : Fin 1024) :
    (chan1 (iblk m c 0 t)) (ix4 (0 : Fin 1) (0 : Fin 1) r w) = (ofArr (m ((c : Thread nD τ).loc main_arg0))) b 1 (rowOf j r) w := by
  refine (chan1_apply (F := Ideal) (iblk m c 0 t) r w).trans ?_
  exact iblk0_apply m c t (1 : Fin 3) r w b (rowOf j r) hb
    (by show 512 * j.val + r.val = 512 * (t.val % 2) + r.val; rw [hj])
theorem pred2_apply (c : Dev nD) (t : Fin cfg0.N) (b : Fin 16) (j : Fin 2) (hb : b.val = t.val / 2) (hj : j.val = t.val % 2) (r : Fin 512) (w : Fin 1024) :
    (chan2 (iblk m c 0 t)) (ix4 (0 : Fin 1) (0 : Fin 1) r w) = (ofArr (m ((c : Thread nD τ).loc main_arg0))) b 2 (rowOf j r) w := by
  refine (chan2_apply (F := Ideal) (iblk m c 0 t) r w).trans ?_
  exact iblk0_apply m c t (2 : Fin 3) r w b (rowOf j r) hb
    (by show 512 * j.val + r.val = 512 * (t.val % 2) + r.val; rw [hj])
theorem targ0_apply (c : Dev nD) (t : Fin cfg0.N) (b : Fin 16) (j : Fin 2) (hb : b.val = t.val / 2) (hj : j.val = t.val % 2) (r : Fin 512) (w : Fin 1024) :
    (chan0 (iblk m c 1 t)) (ix4 (0 : Fin 1) (0 : Fin 1) r w) = (ofArr (m ((c : Thread nD τ).loc main_arg1))) b 0 (rowOf j r) w := by
  refine (chan0_apply (F := Ideal) (iblk m c 1 t) r w).trans ?_
  exact iblk1_apply m c t (0 : Fin 3) r w b (rowOf j r) hb
    (by show 512 * j.val + r.val = 512 * (t.val % 2) + r.val; rw [hj])
theorem targ1_apply (c : Dev nD) (t : Fin cfg0.N) (b : Fin 16) (j : Fin 2) (hb : b.val = t.val / 2) (hj : j.val = t.val % 2) (r : Fin 512) (w : Fin 1024) :
    (chan1 (iblk m c 1 t)) (ix4 (0 : Fin 1) (0 : Fin 1) r w) = (ofArr (m ((c : Thread nD τ).loc main_arg1))) b 1 (rowOf j r) w := by
  refine (chan1_apply (F := Ideal) (iblk m c 1 t) r w).trans ?_
  exact iblk1_apply m c t (1 : Fin 3) r w b (rowOf j r) hb
    (by show 512 * j.val + r.val = 512 * (t.val % 2) + r.val; rw [hj])
theorem targ2_apply (c : Dev nD) (t : Fin cfg0.N) (b : Fin 16) (j : Fin 2) (hb : b.val = t.val / 2) (hj : j.val = t.val % 2) (r : Fin 512) (w : Fin 1024) :
    (chan2 (iblk m c 1 t)) (ix4 (0 : Fin 1) (0 : Fin 1) r w) = (ofArr (m ((c : Thread nD τ).loc main_arg1))) b 2 (rowOf j r) w := by
  refine (chan2_apply (F := Ideal) (iblk m c 1 t) r w).trans ?_
  exact iblk1_apply m c t (2 : Fin 3) r w b (rowOf j r) hb
    (by show 512 * j.val + r.val = 512 * (t.val % 2) + r.val; rw [hj])

/-! ## A tile's sum over its point's slabs is the specification's tile sum over the arrays -/

/-- The background Huber terms. -/
theorem tile_hubBg (c : Dev nD) (t : Fin cfg0.N) (b : Fin 16) (j : Fin 2) (hb : b.val = t.val / 2) (hj : j.val = t.val % 2) :
    (∑ r : Fin 512, ∑ w : Fin 1024, hubBgPix ((chan0 (iblk m c 0 t)) (ix4 (0 : Fin 1) (0 : Fin 1) r w)) ((chan1 (iblk m c 0 t)) (ix4 (0 : Fin 1) (0 : Fin 1) r w)) ((chan2 (iblk m c 0 t)) (ix4 (0 : Fin 1) (0 : Fin 1) r w)) (bgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (hubBgAt (ofArr (m ((c : Thread nD τ).loc main_arg0))) (ofArr (m ((c : Thread nD τ).loc main_arg1))) b) j := by
  unfold tileSum
  refine Finset.sum_congr rfl fun r _ => Finset.sum_congr rfl fun w _ => ?_
  rw [pred0_apply m c t b j hb hj r w, pred1_apply m c t b j hb hj r w, pred2_apply m c t b j hb hj r w, targ0_apply m c t b j hb hj r w, targ1_apply m c t b j hb hj r w, targ2_apply m c t b j hb hj r w]
  rfl

/-- The foreground Huber terms. -/
theorem tile_hubFg (c : Dev nD) (t : Fin cfg0.N) (b : Fin 16) (j : Fin 2) (hb : b.val = t.val / 2) (hj : j.val = t.val % 2) :
    (∑ r : Fin 512, ∑ w : Fin 1024, hubFgPix ((chan0 (iblk m c 0 t)) (ix4 (0 : Fin 1) (0 : Fin 1) r w)) ((chan1 (iblk m c 0 t)) (ix4 (0 : Fin 1) (0 : Fin 1) r w)) ((chan2 (iblk m c 0 t)) (ix4 (0 : Fin 1) (0 : Fin 1) r w)) (fgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (hubFgAt (ofArr (m ((c : Thread nD τ).loc main_arg0))) (ofArr (m ((c : Thread nD τ).loc main_arg1))) b) j := by
  unfold tileSum
  refine Finset.sum_congr rfl fun r _ => Finset.sum_congr rfl fun w _ => ?_
  rw [pred0_apply m c t b j hb hj r w, pred1_apply m c t b j hb hj r w, pred2_apply m c t b j hb hj r w, targ0_apply m c t b j hb hj r w, targ1_apply m c t b j hb hj r w, targ2_apply m c t b j hb hj r w]
  rfl

/-- The background count. -/
theorem tile_bg (c : Dev nD) (t : Fin cfg0.N) (b : Fin 16) (j : Fin 2) (hb : b.val = t.val / 2) (hj : j.val = t.val % 2) :
    (∑ r : Fin 512, ∑ w : Fin 1024, bgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w)))
      = tileSum (bgAt (ofArr (m ((c : Thread nD τ).loc main_arg1))) b) j := by
  unfold tileSum
  refine Finset.sum_congr rfl fun r _ => Finset.sum_congr rfl fun w _ => ?_
  rw [targ0_apply m c t b j hb hj r w, targ1_apply m c t b j hb hj r w, targ2_apply m c t b j hb hj r w]
  rfl

/-- The foreground count. -/
theorem tile_fg (c : Dev nD) (t : Fin cfg0.N) (b : Fin 16) (j : Fin 2) (hb : b.val = t.val / 2) (hj : j.val = t.val % 2) :
    (∑ r : Fin 512, ∑ w : Fin 1024, fgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w)))
      = tileSum (fgAt (ofArr (m ((c : Thread nD τ).loc main_arg1))) b) j := by
  unfold tileSum
  refine Finset.sum_congr rfl fun r _ => Finset.sum_congr rfl fun w _ => ?_
  rw [targ0_apply m c t b j hb hj r w, targ1_apply m c t b j hb hj r w, targ2_apply m c t b j hb hj r w]
  rfl

/-- Prediction channel 0 over the background. -/
theorem tile_predBg0 (c : Dev nD) (t : Fin cfg0.N) (b : Fin 16) (j : Fin 2) (hb : b.val = t.val / 2) (hj : j.val = t.val % 2) :
    (∑ r : Fin 512, ∑ w : Fin 1024, (chan0 (iblk m c 0 t)) (ix4 (0 : Fin 1) (0 : Fin 1) r w) * (bgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (predBgAt (ofArr (m ((c : Thread nD τ).loc main_arg0))) (ofArr (m ((c : Thread nD τ).loc main_arg1))) b 0) j := by
  unfold tileSum
  refine Finset.sum_congr rfl fun r _ => Finset.sum_congr rfl fun w _ => ?_
  rw [pred0_apply m c t b j hb hj r w, targ0_apply m c t b j hb hj r w, targ1_apply m c t b j hb hj r w, targ2_apply m c t b j hb hj r w]
  rfl

/-- Prediction channel 1 over the background. -/
theorem tile_predBg1 (c : Dev nD) (t : Fin cfg0.N) (b : Fin 16) (j : Fin 2) (hb : b.val = t.val / 2) (hj : j.val = t.val % 2) :
    (∑ r : Fin 512, ∑ w : Fin 1024, (chan1 (iblk m c 0 t)) (ix4 (0 : Fin 1) (0 : Fin 1) r w) * (bgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (predBgAt (ofArr (m ((c : Thread nD τ).loc main_arg0))) (ofArr (m ((c : Thread nD τ).loc main_arg1))) b 1) j := by
  unfold tileSum
  refine Finset.sum_congr rfl fun r _ => Finset.sum_congr rfl fun w _ => ?_
  rw [pred1_apply m c t b j hb hj r w, targ0_apply m c t b j hb hj r w, targ1_apply m c t b j hb hj r w, targ2_apply m c t b j hb hj r w]
  rfl

/-- Prediction channel 2 over the background. -/
theorem tile_predBg2 (c : Dev nD) (t : Fin cfg0.N) (b : Fin 16) (j : Fin 2) (hb : b.val = t.val / 2) (hj : j.val = t.val % 2) :
    (∑ r : Fin 512, ∑ w : Fin 1024, (chan2 (iblk m c 0 t)) (ix4 (0 : Fin 1) (0 : Fin 1) r w) * (bgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (predBgAt (ofArr (m ((c : Thread nD τ).loc main_arg0))) (ofArr (m ((c : Thread nD τ).loc main_arg1))) b 2) j := by
  unfold tileSum
  refine Finset.sum_congr rfl fun r _ => Finset.sum_congr rfl fun w _ => ?_
  rw [pred2_apply m c t b j hb hj r w, targ0_apply m c t b j hb hj r w, targ1_apply m c t b j hb hj r w, targ2_apply m c t b j hb hj r w]
  rfl

/-- Prediction channel 0 over the foreground. -/
theorem tile_predFg0 (c : Dev nD) (t : Fin cfg0.N) (b : Fin 16) (j : Fin 2) (hb : b.val = t.val / 2) (hj : j.val = t.val % 2) :
    (∑ r : Fin 512, ∑ w : Fin 1024, (chan0 (iblk m c 0 t)) (ix4 (0 : Fin 1) (0 : Fin 1) r w) * (fgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (predFgAt (ofArr (m ((c : Thread nD τ).loc main_arg0))) (ofArr (m ((c : Thread nD τ).loc main_arg1))) b 0) j := by
  unfold tileSum
  refine Finset.sum_congr rfl fun r _ => Finset.sum_congr rfl fun w _ => ?_
  rw [pred0_apply m c t b j hb hj r w, targ0_apply m c t b j hb hj r w, targ1_apply m c t b j hb hj r w, targ2_apply m c t b j hb hj r w]
  rfl

/-- Prediction channel 1 over the foreground. -/
theorem tile_predFg1 (c : Dev nD) (t : Fin cfg0.N) (b : Fin 16) (j : Fin 2) (hb : b.val = t.val / 2) (hj : j.val = t.val % 2) :
    (∑ r : Fin 512, ∑ w : Fin 1024, (chan1 (iblk m c 0 t)) (ix4 (0 : Fin 1) (0 : Fin 1) r w) * (fgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (predFgAt (ofArr (m ((c : Thread nD τ).loc main_arg0))) (ofArr (m ((c : Thread nD τ).loc main_arg1))) b 1) j := by
  unfold tileSum
  refine Finset.sum_congr rfl fun r _ => Finset.sum_congr rfl fun w _ => ?_
  rw [pred1_apply m c t b j hb hj r w, targ0_apply m c t b j hb hj r w, targ1_apply m c t b j hb hj r w, targ2_apply m c t b j hb hj r w]
  rfl

/-- Prediction channel 2 over the foreground. -/
theorem tile_predFg2 (c : Dev nD) (t : Fin cfg0.N) (b : Fin 16) (j : Fin 2) (hb : b.val = t.val / 2) (hj : j.val = t.val % 2) :
    (∑ r : Fin 512, ∑ w : Fin 1024, (chan2 (iblk m c 0 t)) (ix4 (0 : Fin 1) (0 : Fin 1) r w) * (fgMask ((chan0 (iblk m c 1 t)) (ix4 (0 : Fin 1) (0 : Fin 1) r w)) ((chan1 (iblk m c 1 t)) (ix4 (0 : Fin 1) (0 : Fin 1) r w)) ((chan2 (iblk m c 1 t)) (ix4 (0 : Fin 1) (0 : Fin 1) r w))))
      = tileSum (predFgAt (ofArr (m ((c : Thread nD τ).loc main_arg0))) (ofArr (m ((c : Thread nD τ).loc main_arg1))) b 2) j := by
  unfold tileSum
  refine Finset.sum_congr rfl fun r _ => Finset.sum_congr rfl fun w _ => ?_
  rw [pred2_apply m c t b j hb hj r w, targ0_apply m c t b j hb hj r w, targ1_apply m c t b j hb hj r w, targ2_apply m c t b j hb hj r w]
  rfl

/-! ## The ten lanes of row `b` -/

/-- Lane 0: the background Huber sum. -/
theorem out_hubBg (c : Dev nD) (b : Fin 16) :
    outArr m c (ix3 b (0 : Fin 1) (0 : Fin 128)) = twoTiles (hubBgAt (ofArr (m ((c : Thread nD τ).loc main_arg0))) (ofArr (m ((c : Thread nD τ).loc main_arg1))) b) := by
  rw [outArr_lane m c b (0 : Fin 128) (0 : Fin 16) rfl, vals16_lane0, vals16_lane0,
    tile_hubBg m c (ptE b) b (0 : Fin 2) (ptE_sample b) (ptE_tile b),
    tile_hubBg m c (ptO b) b (1 : Fin 2) (ptO_sample b) (ptO_tile b)]
  rfl

/-- Lane 1: the foreground Huber sum. -/
theorem out_hubFg (c : Dev nD) (b : Fin 16) :
    outArr m c (ix3 b (0 : Fin 1) (1 : Fin 128)) = twoTiles (hubFgAt (ofArr (m ((c : Thread nD τ).loc main_arg0))) (ofArr (m ((c : Thread nD τ).loc main_arg1))) b) := by
  rw [outArr_lane m c b (1 : Fin 128) (1 : Fin 16) rfl, vals16_lane1, vals16_lane1,
    tile_hubFg m c (ptE b) b (0 : Fin 2) (ptE_sample b) (ptE_tile b),
    tile_hubFg m c (ptO b) b (1 : Fin 2) (ptO_sample b) (ptO_tile b)]
  rfl

/-- Lane 2: the background count. -/
theorem out_bg (c : Dev nD) (b : Fin 16) :
    outArr m c (ix3 b (0 : Fin 1) (2 : Fin 128)) = twoTiles (bgAt (ofArr (m ((c : Thread nD τ).loc main_arg1))) b) := by
  rw [outArr_lane m c b (2 : Fin 128) (2 : Fin 16) rfl, vals16_lane2, vals16_lane2,
    tile_bg m c (ptE b) b (0 : Fin 2) (ptE_sample b) (ptE_tile b),
    tile_bg m c (ptO b) b (1 : Fin 2) (ptO_sample b) (ptO_tile b)]
  rfl

/-- Lane 3: the foreground count. -/
theorem out_fg (c : Dev nD) (b : Fin 16) :
    outArr m c (ix3 b (0 : Fin 1) (3 : Fin 128)) = twoTiles (fgAt (ofArr (m ((c : Thread nD τ).loc main_arg1))) b) := by
  rw [outArr_lane m c b (3 : Fin 128) (3 : Fin 16) rfl, vals16_lane3, vals16_lane3,
    tile_fg m c (ptE b) b (0 : Fin 2) (ptE_sample b) (ptE_tile b),
    tile_fg m c (ptO b) b (1 : Fin 2) (ptO_sample b) (ptO_tile b)]
  rfl

/-- Lane 4: prediction channel 0 summed over the background. -/
theorem out_predBg0 (c : Dev nD) (b : Fin 16) :
    outArr m c (ix3 b (0 : Fin 1) (4 : Fin 128)) = twoTiles (predBgAt (ofArr (m ((c : Thread nD τ).loc main_arg0))) (ofArr (m ((c : Thread nD τ).loc main_arg1))) b 0) := by
  rw [outArr_lane m c b (4 : Fin 128) (4 : Fin 16) rfl, vals16_lane4, vals16_lane4,
    tile_predBg0 m c (ptE b) b (0 : Fin 2) (ptE_sample b) (ptE_tile b),
    tile_predBg0 m c (ptO b) b (1 : Fin 2) (ptO_sample b) (ptO_tile b)]
  rfl

/-- Lane 5: prediction channel 1 summed over the background. -/
theorem out_predBg1 (c : Dev nD) (b : Fin 16) :
    outArr m c (ix3 b (0 : Fin 1) (5 : Fin 128)) = twoTiles (predBgAt (ofArr (m ((c : Thread nD τ).loc main_arg0))) (ofArr (m ((c : Thread nD τ).loc main_arg1))) b 1) := by
  rw [outArr_lane m c b (5 : Fin 128) (5 : Fin 16) rfl, vals16_lane5, vals16_lane5,
    tile_predBg1 m c (ptE b) b (0 : Fin 2) (ptE_sample b) (ptE_tile b),
    tile_predBg1 m c (ptO b) b (1 : Fin 2) (ptO_sample b) (ptO_tile b)]
  rfl

/-- Lane 6: prediction channel 2 summed over the background. -/
theorem out_predBg2 (c : Dev nD) (b : Fin 16) :
    outArr m c (ix3 b (0 : Fin 1) (6 : Fin 128)) = twoTiles (predBgAt (ofArr (m ((c : Thread nD τ).loc main_arg0))) (ofArr (m ((c : Thread nD τ).loc main_arg1))) b 2) := by
  rw [outArr_lane m c b (6 : Fin 128) (6 : Fin 16) rfl, vals16_lane6, vals16_lane6,
    tile_predBg2 m c (ptE b) b (0 : Fin 2) (ptE_sample b) (ptE_tile b),
    tile_predBg2 m c (ptO b) b (1 : Fin 2) (ptO_sample b) (ptO_tile b)]
  rfl

/-- Lane 7: prediction channel 0 summed over the foreground. -/
theorem out_predFg0 (c : Dev nD) (b : Fin 16) :
    outArr m c (ix3 b (0 : Fin 1) (7 : Fin 128)) = twoTiles (predFgAt (ofArr (m ((c : Thread nD τ).loc main_arg0))) (ofArr (m ((c : Thread nD τ).loc main_arg1))) b 0) := by
  rw [outArr_lane m c b (7 : Fin 128) (7 : Fin 16) rfl, vals16_lane7, vals16_lane7,
    tile_predFg0 m c (ptE b) b (0 : Fin 2) (ptE_sample b) (ptE_tile b),
    tile_predFg0 m c (ptO b) b (1 : Fin 2) (ptO_sample b) (ptO_tile b)]
  rfl

/-- Lane 8: prediction channel 1 summed over the foreground. -/
theorem out_predFg1 (c : Dev nD) (b : Fin 16) :
    outArr m c (ix3 b (0 : Fin 1) (8 : Fin 128)) = twoTiles (predFgAt (ofArr (m ((c : Thread nD τ).loc main_arg0))) (ofArr (m ((c : Thread nD τ).loc main_arg1))) b 1) := by
  rw [outArr_lane m c b (8 : Fin 128) (8 : Fin 16) rfl, vals16_lane8, vals16_lane8,
    tile_predFg1 m c (ptE b) b (0 : Fin 2) (ptE_sample b) (ptE_tile b),
    tile_predFg1 m c (ptO b) b (1 : Fin 2) (ptO_sample b) (ptO_tile b)]
  rfl

/-- Lane 9: prediction channel 2 summed over the foreground. -/
theorem out_predFg2 (c : Dev nD) (b : Fin 16) :
    outArr m c (ix3 b (0 : Fin 1) (9 : Fin 128)) = twoTiles (predFgAt (ofArr (m ((c : Thread nD τ).loc main_arg0))) (ofArr (m ((c : Thread nD τ).loc main_arg1))) b 2) := by
  rw [outArr_lane m c b (9 : Fin 128) (9 : Fin 16) rfl, vals16_lane9, vals16_lane9,
    tile_predFg2 m c (ptE b) b (0 : Fin 2) (ptE_sample b) (ptE_tile b),
    tile_predFg2 m c (ptO b) b (1 : Fin 2) (ptO_sample b) (ptO_tile b)]
  rfl

/-- Lanes 4, 5, 6 as one statement over the channel. -/
theorem out_predBg (c : Dev nD) (b : Fin 16) (ch : Fin 3) :
    outArr m c (ix3 b (0 : Fin 1) (⟨4 + ch.val, by omega⟩ : Fin 128)) = twoTiles (predBgAt (ofArr (m ((c : Thread nD τ).loc main_arg0))) (ofArr (m ((c : Thread nD τ).loc main_arg1))) b ch) := by
  match ch with
  | ⟨0, _⟩ => exact out_predBg0 m c b
  | ⟨1, _⟩ => exact out_predBg1 m c b
  | ⟨2, _⟩ => exact out_predBg2 m c b

/-- Lanes 7, 8, 9 as one statement over the channel. -/
theorem out_predFg (c : Dev nD) (b : Fin 16) (ch : Fin 3) :
    outArr m c (ix3 b (0 : Fin 1) (⟨7 + ch.val, by omega⟩ : Fin 128)) = twoTiles (predFgAt (ofArr (m ((c : Thread nD τ).loc main_arg0))) (ofArr (m ((c : Thread nD τ).loc main_arg1))) b ch) := by
  match ch with
  | ⟨0, _⟩ => exact out_predFg0 m c b
  | ⟨1, _⟩ => exact out_predFg1 m c b
  | ⟨2, _⟩ => exact out_predFg2 m c b

end Cert.KernelIdeal.Hand

end
-- ==== Proof.KI.Stats.lean ====
/-
  The six statistics the host operations cut out of the statistics array are the specification's: column `k` of
  sample `b`'s row is lane `k` of the sample's accumulator, which is the statistic summed over the sample's two row
  tiles.  So the program's result is the loss of the two argument arrays.
-/
import proofs.«109099_j47090021433737_2_alg».proof.Proof.KI.Result
import proofs.«109099_j47090021433737_2_alg».proof.Proof.KI.SliceReads
import proofs.«109099_j47090021433737_2_alg».proof.Proof.KI.LaneStats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

variable (m : (ℓ : Loc nD τ sig) → Buf (Elt Ideal) ℓ) (ρ : Dev nD → PrngReg)

open Cert.SegLoss

/-- Column 0: the Huber sum against 0 over the background pixels. -/
theorem stat0_eq (c : Dev nD) :
    stat0 (outArr m c) = sumHubBgT (ofArr (m ((c : Thread nD τ).loc main_arg0))) (ofArr (m ((c : Thread nD τ).loc main_arg1))) := by
  funext i
  obtain ⟨b, rfl⟩ : ∃ b : Fin 16, i = ix1 b := ⟨i 0, eq_ix1 i⟩
  exact (col0_apply (F := Ideal) (outArr m c) b).trans (out_hubBg m c b)

/-- Column 1: the Huber sum against 255 over the foreground pixels. -/
theorem stat1_eq (c : Dev nD) :
    stat1 (outArr m c) = sumHubFgT (ofArr (m ((c : Thread nD τ).loc main_arg0))) (ofArr (m ((c : Thread nD τ).loc main_arg1))) := by
  funext i
  obtain ⟨b, rfl⟩ : ∃ b : Fin 16, i = ix1 b := ⟨i 0, eq_ix1 i⟩
  exact (col1_apply (F := Ideal) (outArr m c) b).trans (out_hubFg m c b)

/-- Column 2: the number of background pixels. -/
theorem stat2_eq (c : Dev nD) :
    stat2 (outArr m c) = countBgT (ofArr (m ((c : Thread nD τ).loc main_arg1))) := by
  funext i
  obtain ⟨b, rfl⟩ : ∃ b : Fin 16, i = ix1 b := ⟨i 0, eq_ix1 i⟩
  exact (col2_apply (F := Ideal) (outArr m c) b).trans (out_bg m c b)

/-- Column 3: the number of foreground pixels. -/
theorem stat3_eq (c : Dev nD) :
    stat3 (outArr m c) = countFgT (ofArr (m ((c : Thread nD τ).loc main_arg1))) := by
  funext i
  obtain ⟨b, rfl⟩ : ∃ b : Fin 16, i = ix1 b := ⟨i 0, eq_ix1 i⟩
  exact (col3_apply (F := Ideal) (outArr m c) b).trans (out_fg m c b)

/-- Columns 4–6: the prediction summed over the background pixels, channel by channel. -/
theorem stat4_eq (c : Dev nD) :
    stat4 (outArr m c) = sumPredBgT (ofArr (m ((c : Thread nD τ).loc main_arg0))) (ofArr (m ((c : Thread nD τ).loc main_arg1))) := by
  funext i
  obtain ⟨b, ch, rfl⟩ : ∃ (b : Fin 16) (ch : Fin 3), i = ix2 b ch := ⟨i 0, i 1, eq_ix2 i⟩
  exact (cols4_apply (F := Ideal) (outArr m c) b ch).trans (out_predBg m c b ch)

/-- Columns 7–9: the prediction summed over the foreground pixels, channel by channel. -/
theorem stat7_eq (c : Dev nD) :
    stat7 (outArr m c) = sumPredFgT (ofArr (m ((c : Thread nD τ).loc main_arg0))) (ofArr (m ((c : Thread nD τ).loc main_arg1))) := by
  funext i
  obtain ⟨b, ch, rfl⟩ : ∃ (b : Fin 16) (ch : Fin 3), i = ix2 b ch := ⟨i 0, i 1, eq_ix2 i⟩
  exact (cols7_apply (F := Ideal) (outArr m c) b ch).trans (out_predFg m c b ch)

/-- The program's result is the loss of the two argument arrays. -/
theorem result_loss (c : Dev nD) :
    Cert.SegLoss.tail (stat0 (outArr m c)) (stat1 (outArr m c)) (stat2 (outArr m c)) (stat3 (outArr m c))
        (stat4 (outArr m c)) (stat7 (outArr m c))
      = loss (ofArr (m ((c : Thread nD τ).loc main_arg0))) (ofArr (m ((c : Thread nD τ).loc main_arg1))) := by
  rw [stat0_eq m c, stat1_eq m c, stat2_eq m c, stat3_eq m c, stat4_eq m c, stat7_eq m c]
  rfl

end Cert.KernelIdeal.Hand

end
-- ==== Proof.RefSums.lean ====
/-
  Sums over the index sets of the reference's whole-array reductions, and the pixel count as an integer sum.

  * A reduction over several axes of a literal shape sums, at a result index, over the operand indices with that
    index's coordinates on the kept axes: here these sets are written out as sums over the coordinates of the reduced
    axes (channel, row, lane; or row, lane).
  * A conjunction over the three channels, folded from the true bit, is the conjunction of the three bits.
  * A one-bit word read as a float is the same number whether it is converted directly or first widened to 32 bits.
  * A 32-bit sum of fewer than 2³¹ words that are each 0 or 1 does not wrap around, so, converted to a float, it is the
    extended-real sum of the words' values.
-/
import proofs.«109099_j47090021433737_2_alg».proof.Proof.Spec
import Idealize.ShloMosaic.PureOps.Ideal.Laws
import Idealize.ShloMosaic.PureOps.Reduce

noncomputable section

open scoped BigOperators

namespace Cert.SegLoss

open Idealize.ShloMosaic Idealize.ShloMosaic.ValueIdx

/-- The shape of the two argument arrays, and of a per-pixel array. -/
abbrev SImg : Shape := ⟨4, ![16, 3, 1024, 1024]⟩
abbrev SPix : Shape := ⟨3, ![16, 1024, 1024]⟩

/-! ## The index sets of the reductions, as sums over coordinates -/

/-- Reducing channel, row and lane: the indices over sample `b` are `(b, c, h, w)` for all `c, h, w`. -/
theorem sum_drop_chw {M : Type*} [AddCommMonoid M] (h : SImg.ReducesTo [1, 2, 3] S16) (x : SImg.Idx → M) (b : Fin 16) :
    ∑ i ∈ Finset.univ.filter (fun i => h.drop i = ix1 b), x i
      = ∑ c : Fin 3, ∑ hh : Fin 1024, ∑ w : Fin 1024, x (ix4 b c hh w) := by
  have e : ∑ c : Fin 3, ∑ hh : Fin 1024, ∑ w : Fin 1024, x (ix4 b c hh w)
      = ∑ q : Fin 3 × Fin 1024 × Fin 1024, x (ix4 b q.1 q.2.1 q.2.2) := by
    simp only [Fintype.sum_prod_type]
  rw [e]
  have hb : ∀ i : SImg.Idx, h.drop i = ix1 b → i 0 = b := fun i hj =>
    Fin.ext ((h.drop_apply_val_of_eq i 0 0).symm.trans (congrArg (fun j : S16.Idx => (j 0).val) hj))
  refine Finset.sum_nbij' (fun i => (i 1, i 2, i 3)) (fun q => ix4 b q.1 q.2.1 q.2.2) ?_ ?_ ?_ ?_ ?_
  · intro i _; exact Finset.mem_univ _
  · intro q _
    refine Finset.mem_filter.2 ⟨Finset.mem_univ _, ?_⟩
    funext a
    match a with
    | ⟨0, _⟩ => exact Fin.ext (h.drop_apply_val_of_eq _ 0 0)
  · intro i hi
    have hb' := hb i (Finset.mem_filter.1 hi).2
    show ix4 b (i 1) (i 2) (i 3) = i
    rw [← hb']
    exact (eq_ix4 i).symm
  · intro q _; rfl
  · intro i hi
    have hb' := hb i (Finset.mem_filter.1 hi).2
    show x i = x (ix4 b (i 1) (i 2) (i 3))
    rw [← hb']
    exact congrArg x (eq_ix4 i)

/-- Reducing row and lane of the four-axis array: the indices over `(b, c)` are `(b, c, h, w)` for all `h, w`. -/
theorem sum_drop_hw {M : Type*} [AddCommMonoid M] (h : SImg.ReducesTo [2, 3] S16x3) (x : SImg.Idx → M)
    (b : Fin 16) (c : Fin 3) :
    ∑ i ∈ Finset.univ.filter (fun i => h.drop i = ix2 b c), x i
      = ∑ hh : Fin 1024, ∑ w : Fin 1024, x (ix4 b c hh w) := by
  have e : ∑ hh : Fin 1024, ∑ w : Fin 1024, x (ix4 b c hh w)
      = ∑ q : Fin 1024 × Fin 1024, x (ix4 b c q.1 q.2) := by
    simp only [Fintype.sum_prod_type]
  rw [e]
  have hb : ∀ i : SImg.Idx, h.drop i = ix2 b c → i 0 = b := fun i hj =>
    Fin.ext ((h.drop_apply_val_of_eq i 0 0).symm.trans (congrArg (fun j : S16x3.Idx => (j 0).val) hj))
  have hc : ∀ i : SImg.Idx, h.drop i = ix2 b c → i 1 = c := fun i hj =>
    Fin.ext ((h.drop_apply_val_of_eq i 1 1).symm.trans (congrArg (fun j : S16x3.Idx => (j 1).val) hj))
  refine Finset.sum_nbij' (fun i => (i 2, i 3)) (fun q => ix4 b c q.1 q.2) ?_ ?_ ?_ ?_ ?_
  · intro i _; exact Finset.mem_univ _
  · intro q _
    refine Finset.mem_filter.2 ⟨Finset.mem_univ _, ?_⟩
    funext a
    match a with
    | ⟨0, _⟩ => exact Fin.ext (h.drop_apply_val_of_eq _ 0 0)
    | ⟨1, _⟩ => exact Fin.ext (h.drop_apply_val_of_eq _ 1 1)
  · intro i hi
    have hb' := hb i (Finset.mem_filter.1 hi).2
    have hc' := hc i (Finset.mem_filter.1 hi).2
    show ix4 b c (i 2) (i 3) = i
    rw [← hb', ← hc']
    exact (eq_ix4 i).symm
  · intro q _; rfl
  · intro i hi
    have hb' := hb i (Finset.mem_filter.1 hi).2
    have hc' := hc i (Finset.mem_filter.1 hi).2
    show x i = x (ix4 b c (i 2) (i 3))
    rw [← hb', ← hc']
    exact congrArg x (eq_ix4 i)

/-- Reducing row and lane of the per-pixel array: the indices over sample `b` are `(b, h, w)` for all `h, w`. -/
theorem sum_drop_pix {M : Type*} [AddCommMonoid M] (h : SPix.ReducesTo [1, 2] S16) (x : SPix.Idx → M) (b : Fin 16) :
    ∑ i ∈ Finset.univ.filter (fun i => h.drop i = ix1 b), x i
      = ∑ hh : Fin 1024, ∑ w : Fin 1024, x (ix3 b hh w) := by
  have e : ∑ hh : Fin 1024, ∑ w : Fin 1024, x (ix3 b hh w)
      = ∑ q : Fin 1024 × Fin 1024, x (ix3 b q.1 q.2) := by
    simp only [Fintype.sum_prod_type]
  rw [e]
  have hb : ∀ i : SPix.Idx, h.drop i = ix1 b → i 0 = b := fun i hj =>
    Fin.ext ((h.drop_apply_val_of_eq i 0 0).symm.trans (congrArg (fun j : S16.Idx => (j 0).val) hj))
  refine Finset.sum_nbij' (fun i => (i 1, i 2)) (fun q => ix3 b q.1 q.2) ?_ ?_ ?_ ?_ ?_
  · intro i _; exact Finset.mem_univ _
  · intro q _
    refine Finset.mem_filter.2 ⟨Finset.mem_univ _, ?_⟩
    funext a
    match a with
    | ⟨0, _⟩ => exact Fin.ext (h.drop_apply_val_of_eq _ 0 0)
  · intro i hi
    have hb' := hb i (Finset.mem_filter.1 hi).2
    show ix3 b (i 1) (i 2) = i
    rw [← hb']
    exact (eq_ix3 i).symm
  · intro q _; rfl
  · intro i hi
    have hb' := hb i (Finset.mem_filter.1 hi).2
    show x i = x (ix3 b (i 1) (i 2))
    rw [← hb']
    exact congrArg x (eq_ix3 i)

/-! ## Bits -/

/-- The conjunction of three bits folded from the true bit, in any order, is `(f 0 ∧ f 1) ∧ f 2`. -/
theorem fold_andi_three (f : Fin 3 → BitVec 1) :
    (Finset.univ : Finset (Fin 3)).fold IntOp.andi 1#1 f = IntOp.andi (IntOp.andi (f 0) (f 1)) (f 2) := by
  rw [show (Finset.univ : Finset (Fin 3)) = {0, 1, 2} from rfl,
    Finset.fold_insert (by decide), Finset.fold_insert (by decide), Finset.fold_singleton]
  generalize f 0 = a
  generalize f 1 = b
  generalize f 2 = c
  rcases BitVec.eq_zero_or_eq_one a with rfl | rfl <;> rcases BitVec.eq_zero_or_eq_one b with rfl | rfl <;>
    rcases BitVec.eq_zero_or_eq_one c with rfl | rfl <;> rfl

/-- A one-bit word widened to 32 bits is 0 or 1. -/
theorem toNat_setWidth_bit_le (b : BitVec 1) : (b.setWidth 32).toNat ≤ 1 := by
  rw [BitVec.toNat_setWidth]; have := b.isLt; omega

/-- A one-bit word widened to 32 bits, read as a natural number and then as a float, is `bitF` of it. -/
theorem coe_toNat_setWidth_bit (b : BitVec 1) : (((b.setWidth 32).toNat : ℝ) : EReal) = bitF b := by
  show _ = (((b.setWidth 32).toInt : ℝ) : EReal)
  have h := toNat_setWidth_bit_le b
  rw [BitVec.toInt_eq_toNat_cond, if_pos (by omega), Int.cast_natCast]

/-- A one-bit word converted to a float directly is `bitF` of it. -/
theorem uitofp_bit (b : BitVec 1) : FloatOps.uitofp (F := Ideal) .f32 b = bitF b := by
  rw [← coe_toNat_setWidth_bit]
  show ((b.toNat : ℝ) : EReal) = _
  rw [BitVec.toNat_setWidth, Nat.mod_eq_of_lt (by have := b.isLt; omega)]

/-! ## A 32-bit sum of zeros and ones -/

/-- The coercion of a finite real sum is the extended-real sum of the coercions. -/
theorem coe_finset_sum {ι : Type*} (S : Finset ι) (a : ι → ℝ) :
    ((∑ i ∈ S, a i : ℝ) : EReal) = ∑ i ∈ S, ((a i : ℝ) : EReal) := by
  classical
  induction S using Finset.induction_on with
  | empty => simp
  | insert i S hi ih => rw [Finset.sum_insert hi, Finset.sum_insert hi, EReal.coe_add, ih]

/-- Fewer than 2³¹ words, each 0 or 1, added in 32 bits: the sum's value is the sum of the values (it is at most the
    number of words, so nothing wraps). -/
theorem toNat_fold_addi {ι : Type*} [DecidableEq ι] (x : ι → BitVec 32) (S : Finset ι) (hS : S.card < 2 ^ 31)
    (hx : ∀ i ∈ S, (x i).toNat ≤ 1) :
    (S.fold IntOp.addi 0#32 x).toNat = ∑ i ∈ S, (x i).toNat ∧ ∑ i ∈ S, (x i).toNat ≤ S.card := by
  induction S using Finset.induction_on with
  | empty => simp
  | insert a S ha ih =>
    rw [Finset.card_insert_of_notMem ha] at hS
    obtain ⟨e, le⟩ := ih (by omega) fun i hi => hx i (Finset.mem_insert_of_mem hi)
    have h1 := hx a (Finset.mem_insert_self a S)
    rw [Finset.fold_insert ha, Finset.sum_insert ha, Finset.card_insert_of_notMem ha]
    refine ⟨?_, by omega⟩
    show (x a + S.fold IntOp.addi 0#32 x).toNat = _
    rw [BitVec.toNat_add, e, Nat.mod_eq_of_lt (by omega)]

/-- The same sum read as a signed integer and converted to a float is the extended-real sum of the words' values. -/
theorem sitofp_fold_addi {ι : Type*} [DecidableEq ι] (x : ι → BitVec 32) (S : Finset ι) (hS : S.card < 2 ^ 31)
    (hx : ∀ i ∈ S, (x i).toNat ≤ 1) :
    FloatOps.sitofp (F := Ideal) .f32 (S.fold IntOp.addi 0#32 x) = ∑ i ∈ S, (((x i).toNat : ℝ) : EReal) := by
  obtain ⟨e, le⟩ := toNat_fold_addi x S hS hx
  show (((S.fold IntOp.addi 0#32 x).toInt : ℝ) : EReal) = _
  rw [BitVec.toInt_eq_toNat_cond, if_pos (by omega), Int.cast_natCast, e, Nat.cast_sum, coe_finset_sum]

/-- THE PIXEL COUNT: the one-bit mask of a sample's pixels, widened to 32 bits, added up in 32 bits from 0 and
    converted to a float, is the extended-real sum over rows and lanes of the mask's bits as floats. -/
theorem count_eq_sum (h : SPix.ReducesTo [1, 2] S16) {u : Shape} (hu : 0 < u.numel) (m : SPix.Idx → BitVec 1)
    (init : u.Idx → BitVec 32) (hinit : init (Shape.Idx.first hu) = 0#32) (b : Fin 16) :
    FloatOps.sitofp (F := Ideal) .f32
        (Host.reduce IntOp.addi (fun i => (m i).setWidth 32) init h hu (ix1 b))
      = ∑ hh : Fin 1024, ∑ w : Fin 1024, bitF (m (ix3 b hh w)) := by
  classical
  rw [Host.reduce_eq_fold, hinit, sitofp_fold_addi _ _ ?_ fun i _ => toNat_setWidth_bit_le (m i)]
  · rw [sum_drop_pix h (fun i => ((((m i).setWidth 32).toNat : ℝ) : EReal)) b]
    exact Finset.sum_congr rfl fun hh _ => Finset.sum_congr rfl fun w _ => coe_toNat_setWidth_bit _
  · refine lt_of_le_of_lt (Finset.card_le_univ _) ?_
    rw [Shape.card_idx, show SPix.numel = 16777216 from rfl]
    norm_num

end Cert.SegLoss

end
-- ==== Proof.RefPixel.lean ====
/-
  The reference's whole-array values read at one pixel.

  With `P = ofArr x0` the prediction and `T = ofArr x1` the target as functions of sample, channel, row and lane:
  * the conjunction over the three channels of "target equals 0" (or "equals 255") at a pixel is the bit `allEq` of the
    three target values there, so the float mask broadcast back over the channels is the pixel's indicator;
  * the Huber array at an index is the Huber function of the prediction (or of the prediction less 255) there;
  * hence each array the reference sums is, at `(b, c, h, w)`, the specification's pixel term.
-/
import proofs.«109099_j47090021433737_2_alg».proof.Proof.RefRead
import proofs.«109099_j47090021433737_2_alg».proof.Proof.RefSums

noncomputable section

open scoped BigOperators

namespace Cert.SegLoss

open Idealize.ShloMosaic Idealize.ShloMosaic.ValueIdx Cert.ReferenceIdeal Cert.ReferenceIdeal.Read

/-- The reduction over the channel axis, as the kernel-side shape relation that names the reduced coordinate. -/
theorem reduces_channel : SImg.Reduces [1] SPix := by decide

/-- The index over pixel `(b, h, w)` with channel `k` inserted is `(b, k, h, w)`. -/
theorem lift_channel (b : Fin 16) (hh w : Fin 1024) (k : Fin 3) :
    reduces_channel.lift (ix3 b hh w) k = ix4 b k hh w := by
  funext a
  match a with
  | ⟨0, _⟩ => rfl
  | ⟨1, _⟩ => rfl
  | ⟨2, _⟩ => rfl
  | ⟨3, _⟩ => rfl

/-! ## The one-bit masks -/

/-- "All three target channels are 0" at pixel `(b, h, w)`. -/
theorem ref_bgBit (x1 : FVec Ideal SImg .f32) (b : Fin 16) (hh w : Fin 1024) :
    val_main_v2 (F := Ideal) x1 (ix3 b hh w)
      = allEq (Ideal.ofBits .f32 0x00000000#32) (ofArr x1 b 0 hh w) (ofArr x1 b 1 hh w) (ofArr x1 b 2 hh w) := by
  have e : ∀ k : Fin 3, val_main_v1 (F := Ideal) x1 (reduces_channel.lift (ix3 b hh w) k)
      = FloatOps.cmpf (F := Ideal) (φ := .f32) .oeq (ofArr x1 b k hh w) (Ideal.ofBits .f32 0x00000000#32) := fun k => by
    rw [lift_channel, val_main_v1_apply, val_main_v0_apply, val_main_cst_apply]
    rfl
  unfold val_main_v2
  refine (Host.reduce_eq_fold_single IntOp.andi _ _ _ reduces_channel _ (ix3 b hh w)).trans ?_
  refine (fold_andi_three fun k => val_main_v1 (F := Ideal) x1 (reduces_channel.lift (ix3 b hh w) k)).trans ?_
  rw [e 0, e 1, e 2]
  rfl

/-- "All three target channels are 255" at pixel `(b, h, w)`. -/
theorem ref_fgBit (x1 : FVec Ideal SImg .f32) (b : Fin 16) (hh w : Fin 1024) :
    val_main_v5 (F := Ideal) x1 (ix3 b hh w)
      = allEq c255 (ofArr x1 b 0 hh w) (ofArr x1 b 1 hh w) (ofArr x1 b 2 hh w) := by
  have e : ∀ k : Fin 3, val_main_v4 (F := Ideal) x1 (reduces_channel.lift (ix3 b hh w) k)
      = FloatOps.cmpf (F := Ideal) (φ := .f32) .oeq (ofArr x1 b k hh w) c255 := fun k => by
    rw [lift_channel, val_main_v4_apply, val_main_v3_apply, val_main_cst_0_apply]
    rfl
  unfold val_main_v5
  refine (Host.reduce_eq_fold_single IntOp.andi _ _ _ reduces_channel _ (ix3 b hh w)).trans ?_
  refine (fold_andi_three fun k => val_main_v4 (F := Ideal) x1 (reduces_channel.lift (ix3 b hh w) k)).trans ?_
  rw [e 0, e 1, e 2]
  rfl

/-! ## The float masks, broadcast over the channels -/

/-- The pixel a four-axis index lies over, through the unit channel axis. -/
theorem idx_pixel (b : Fin 16) (c : Fin 3) (hh w : Fin 1024) :
    idx_main_v6 (idx_main_v34 (ix4 b c hh w)) = ix3 b hh w := by
  funext a
  match a with
  | ⟨0, _⟩ => rfl
  | ⟨1, _⟩ => rfl
  | ⟨2, _⟩ => rfl

/-- The background mask as a float, at `(b, c, h, w)`: the pixel's background indicator. -/
theorem ref_bgMask (x1 : FVec Ideal SImg .f32) (b : Fin 16) (c : Fin 3) (hh w : Fin 1024) :
    val_main_v7 (F := Ideal) x1 (idx_main_v34 (ix4 b c hh w)) = bgAt (ofArr x1) b hh w := by
  rw [val_main_v7_apply, val_main_v6_apply, idx_pixel, ref_bgBit, uitofp_bit]
  rfl

/-- The foreground mask as a float, at `(b, c, h, w)`: the pixel's foreground indicator. -/
theorem ref_fgMask (x1 : FVec Ideal SImg .f32) (b : Fin 16) (c : Fin 3) (hh w : Fin 1024) :
    val_main_v9 (F := Ideal) x1 (idx_main_v34 (ix4 b c hh w)) = fgAt (ofArr x1) b hh w := by
  rw [val_main_v9_apply, val_main_v8_apply]
  refine (congrArg (fun j => FloatOps.uitofp (F := Ideal) .f32 (val_main_v5 (F := Ideal) x1 j))
    (show idx_main_v8 (idx_main_v34 (ix4 b c hh w)) = ix3 b hh w from idx_pixel b c hh w)).trans ?_
  rw [ref_fgBit, uitofp_bit]
  rfl

/-! ## The Huber arrays -/

/-- The Huber array of the prediction, at an index. -/
theorem ref_hub (x0 : FVec Ideal SImg .f32) (i : SImg.Idx) : val_main_v33 (F := Ideal) x0 i = hub (x0 i) := by
  rw [val_main_v33_apply, val_main_v27_apply, val_main_v25_apply, val_main_v26_apply, val_main_cst_8_apply,
    val_main_v30_apply, val_main_v29_apply, val_main_v28_apply, val_main_cst_9_apply, val_main_v32_apply,
    val_main_v25_apply, val_main_v31_apply, val_main_cst_10_apply]
  rfl

/-- The Huber array of the prediction less 255, at an index. -/
theorem ref_hub255 (x0 : FVec Ideal SImg .f32) (i : SImg.Idx) :
    val_main_v50 (F := Ideal) x0 i = hub (x0 i - c255) := by
  rw [val_main_v50_apply, val_main_v44_apply, val_main_v42_apply, val_main_v41_apply, val_main_v40_apply,
    val_main_cst_13_apply, val_main_v43_apply, val_main_cst_14_apply, val_main_v47_apply, val_main_v46_apply,
    val_main_v45_apply, val_main_cst_15_apply, val_main_v41_apply, val_main_v40_apply, val_main_cst_13_apply,
    val_main_v49_apply, val_main_v42_apply, val_main_v41_apply, val_main_v40_apply, val_main_cst_13_apply,
    val_main_v48_apply, val_main_cst_16_apply]
  rfl

/-! ## The four arrays the reference sums, at `(b, c, h, w)` -/

theorem ref_hubBg_apply (x0 x1 : FVec Ideal SImg .f32) (b : Fin 16) (c : Fin 3) (hh w : Fin 1024) :
    val_main_v35 (F := Ideal) x0 x1 (ix4 b c hh w) = hub (ofArr x0 b c hh w) * bgAt (ofArr x1) b hh w := by
  rw [val_main_v35_apply, ref_hub, val_main_v34_apply, ref_bgMask]
  rfl

theorem ref_hubFg_apply (x0 x1 : FVec Ideal SImg .f32) (b : Fin 16) (c : Fin 3) (hh w : Fin 1024) :
    val_main_v52 (F := Ideal) x0 x1 (ix4 b c hh w) = hub (ofArr x0 b c hh w - c255) * fgAt (ofArr x1) b hh w := by
  rw [val_main_v52_apply, ref_hub255, val_main_v51_apply]
  refine (congrArg (fun y => FloatOps.mulf (F := Ideal) (φ := .f32) (hub (x0 (ix4 b c hh w) - c255)) y)
    (ref_fgMask x1 b c hh w)).trans ?_
  rfl

theorem ref_predBg_apply (x0 x1 : FVec Ideal SImg .f32) (b : Fin 16) (c : Fin 3) (hh w : Fin 1024) :
    val_main_v58 (F := Ideal) x0 x1 (ix4 b c hh w) = predBgAt (ofArr x0) (ofArr x1) b c hh w := by
  rw [val_main_v58_apply, val_main_v57_apply]
  refine (congrArg (fun y => FloatOps.mulf (F := Ideal) (φ := .f32) (x0 (ix4 b c hh w)) y)
    (ref_bgMask x1 b c hh w)).trans ?_
  rfl

theorem ref_predFg_apply (x0 x1 : FVec Ideal SImg .f32) (b : Fin 16) (c : Fin 3) (hh w : Fin 1024) :
    val_main_v64 (F := Ideal) x0 x1 (ix4 b c hh w) = predFgAt (ofArr x0) (ofArr x1) b c hh w := by
  rw [val_main_v64_apply, val_main_v63_apply]
  refine (congrArg (fun y => FloatOps.mulf (F := Ideal) (φ := .f32) (x0 (ix4 b c hh w)) y)
    (ref_fgMask x1 b c hh w)).trans ?_
  rfl

end Cert.SegLoss

end
-- ==== Proof.Regroup.lean ====
/-
  The whole-image form of the statistics, and its equality with the tile form.

  A statistic summed over the whole image — over the three channels, the 1024 rows and the 1024 lanes, or over the
  rows and lanes of one channel — equals the same terms summed tile by tile: extended-real addition is a commutative
  monoid, so the sum over the rows splits into rows 0 … 511 and rows 512 … 1023, the sum over the channels moves
  inside the sums over rows and lanes, and a leading 0 changes nothing. No finiteness is used.
-/
import proofs.«109099_j47090021433737_2_alg».proof.Proof.Spec

noncomputable section

open scoped BigOperators

namespace Cert.SegLoss

open Idealize.ShloMosaic Idealize.ShloMosaic.ValueIdx

/-! ## Rows in two halves, channels inside -/

/-- A sum over the 1024 rows is the sum over the first tile's rows plus the sum over the second tile's. -/
theorem sum_rows_split {M : Type*} [AddCommMonoid M] (g : Fin 1024 → M) :
    ∑ h : Fin 1024, g h = ∑ r : Fin 512, g (rowOf 0 r) + ∑ r : Fin 512, g (rowOf 1 r) := by
  refine (Fin.sum_univ_add (a := 512) (b := 512) (fun i : Fin (512 + 512) => g i)).trans ?_
  refine congrArg₂ (· + ·) (Finset.sum_congr rfl fun r _ => congrArg g (Fin.ext ?_))
    (Finset.sum_congr rfl fun r _ => congrArg g (Fin.ext ?_))
  · show r.val = 512 * 0 + r.val
    omega
  · show 512 + r.val = 512 * 1 + r.val
    omega

/-- The two tiles' contributions, added one after the other to 0, are the sum over all rows and lanes. -/
theorem twoTiles_eq_sum (f : Fin 1024 → Fin 1024 → EReal) :
    twoTiles f = ∑ h : Fin 1024, ∑ w : Fin 1024, f h w := by
  unfold twoTiles tileSum
  rw [zero_add, sum_rows_split fun h => ∑ w : Fin 1024, f h w]

/-- Three channels summed over the image: the channel sum moves to the pixel, where it is the three terms added one
    after the other to 0. -/
theorem sum_channels_eq (a : Fin 3 → Fin 1024 → Fin 1024 → EReal) :
    ∑ c : Fin 3, ∑ h : Fin 1024, ∑ w : Fin 1024, a c h w
      = ∑ h : Fin 1024, ∑ w : Fin 1024, (((0 + a 0 h w) + a 1 h w) + a 2 h w) := by
  rw [Fin.sum_univ_three]
  simp only [zero_add, Finset.sum_add_distrib]

/-! ## The statistics summed over the whole image -/

/-- Per sample, the background Huber terms summed from 0 over channels, rows and lanes. -/
def sumHubBgW (P T : Img) : FVec Ideal S16 .f32 := fun i =>
  0 + ∑ c : Fin 3, ∑ h : Fin 1024, ∑ w : Fin 1024, hub (P (i 0) c h w) * bgAt T (i 0) h w
/-- Per sample, the foreground Huber terms summed from 0 over channels, rows and lanes. -/
def sumHubFgW (P T : Img) : FVec Ideal S16 .f32 := fun i =>
  0 + ∑ c : Fin 3, ∑ h : Fin 1024, ∑ w : Fin 1024, hub (P (i 0) c h w - c255) * fgAt T (i 0) h w
/-- Per sample, the background indicators summed over rows and lanes. -/
def countBgW (T : Img) : FVec Ideal S16 .f32 := fun i => ∑ h : Fin 1024, ∑ w : Fin 1024, bgAt T (i 0) h w
/-- Per sample, the foreground indicators summed over rows and lanes. -/
def countFgW (T : Img) : FVec Ideal S16 .f32 := fun i => ∑ h : Fin 1024, ∑ w : Fin 1024, fgAt T (i 0) h w
/-- Per sample and channel, the background-weighted predictions summed from 0 over rows and lanes. -/
def sumPredBgW (P T : Img) : FVec Ideal S16x3 .f32 := fun i =>
  0 + ∑ h : Fin 1024, ∑ w : Fin 1024, predBgAt P T (i 0) (i 1) h w
/-- Per sample and channel, the foreground-weighted predictions summed from 0 over rows and lanes. -/
def sumPredFgW (P T : Img) : FVec Ideal S16x3 .f32 := fun i =>
  0 + ∑ h : Fin 1024, ∑ w : Fin 1024, predFgAt P T (i 0) (i 1) h w

/-! ## Whole image = two tiles -/

theorem sumHubBgW_eq (P T : Img) : sumHubBgW P T = sumHubBgT P T := by
  funext i
  unfold sumHubBgW sumHubBgT
  rw [twoTiles_eq_sum, zero_add, sum_channels_eq fun c h w => hub (P (i 0) c h w) * bgAt T (i 0) h w]
  rfl

theorem sumHubFgW_eq (P T : Img) : sumHubFgW P T = sumHubFgT P T := by
  funext i
  unfold sumHubFgW sumHubFgT
  rw [twoTiles_eq_sum, zero_add, sum_channels_eq fun c h w => hub (P (i 0) c h w - c255) * fgAt T (i 0) h w]
  rfl

theorem countBgW_eq (T : Img) : countBgW T = countBgT T := by
  funext i
  unfold countBgW countBgT
  rw [twoTiles_eq_sum]

theorem countFgW_eq (T : Img) : countFgW T = countFgT T := by
  funext i
  unfold countFgW countFgT
  rw [twoTiles_eq_sum]

theorem sumPredBgW_eq (P T : Img) : sumPredBgW P T = sumPredBgT P T := by
  funext i
  unfold sumPredBgW sumPredBgT
  rw [twoTiles_eq_sum, zero_add]

theorem sumPredFgW_eq (P T : Img) : sumPredFgW P T = sumPredFgT P T := by
  funext i
  unfold sumPredFgW sumPredFgT
  rw [twoTiles_eq_sum, zero_add]

/-- The loss, from the whole-image statistics. -/
theorem loss_eq_whole (P T : Img) :
    tail (sumHubBgW P T) (sumHubFgW P T) (countBgW T) (countFgW T) (sumPredBgW P T) (sumPredFgW P T) = loss P T := by
  unfold loss
  rw [sumHubBgW_eq, sumHubFgW_eq, countBgW_eq, countFgW_eq, sumPredBgW_eq, sumPredFgW_eq]

end Cert.SegLoss

end
-- ==== Proof.RefIsSpec.lean ====
/-
  The reference computes the specification.

  * Each of the six statistics the reference computes with a whole-array reduction is, as an array, the whole-image
    statistic of the specification: the two Huber sums and the two prediction sums are the initial 0 plus the sum
    over the reduced coordinates of the pixel terms; the two pixel counts, which the reference adds up as 32-bit
    integers and then converts, are the extended-real sums of the indicators.
  * From the six statistics on, the reference applies the operations of `tail`.
  * So the reference's result is the loss of the specification, in its tile form.
-/
import proofs.«109099_j47090021433737_2_alg».proof.Proof.RefPixel
import proofs.«109099_j47090021433737_2_alg».proof.Proof.Regroup

noncomputable section

open scoped BigOperators

namespace Cert.SegLoss

open Idealize.ShloMosaic Idealize.ShloMosaic.ValueIdx Cert.ReferenceIdeal Cert.ReferenceIdeal.Read

/-! ## The six statistics -/

/-- The background Huber sums. -/
theorem ref_sumHubBg (x0 x1 : FVec Ideal SImg .f32) :
    val_main_v36 (F := Ideal) x0 x1 = sumHubBgW (ofArr x0) (ofArr x1) := by
  funext i
  obtain ⟨b, rfl⟩ : ∃ b : Fin 16, i = ix1 b := ⟨i 0, eq_ix1 i⟩
  unfold val_main_v36
  generalize hy : val_main_v35 (F := Ideal) x0 x1 = y
  simp only [Host.reduceAdd, Ideal.hostReduceAdd_def]
  unfold Ideal.hostReduceAdd
  rw [sum_drop_chw]
  subst hy
  show Ideal.ofBits .f32 0x00000000#32 + _
    = 0 + ∑ c : Fin 3, ∑ hh : Fin 1024, ∑ w : Fin 1024, hub (ofArr x0 b c hh w) * bgAt (ofArr x1) b hh w
  rw [Ideal.ofBits_zero_f32]
  exact congrArg (0 + ·) (Finset.sum_congr rfl fun c _ => Finset.sum_congr rfl fun hh _ =>
    Finset.sum_congr rfl fun w _ => ref_hubBg_apply x0 x1 b c hh w)

/-- The foreground Huber sums. -/
theorem ref_sumHubFg (x0 x1 : FVec Ideal SImg .f32) :
    val_main_v53 (F := Ideal) x0 x1 = sumHubFgW (ofArr x0) (ofArr x1) := by
  funext i
  obtain ⟨b, rfl⟩ : ∃ b : Fin 16, i = ix1 b := ⟨i 0, eq_ix1 i⟩
  unfold val_main_v53
  generalize hy : val_main_v52 (F := Ideal) x0 x1 = y
  simp only [Host.reduceAdd, Ideal.hostReduceAdd_def]
  unfold Ideal.hostReduceAdd
  rw [sum_drop_chw]
  subst hy
  show Ideal.ofBits .f32 0x00000000#32 + _
    = 0 + ∑ c : Fin 3, ∑ hh : Fin 1024, ∑ w : Fin 1024, hub (ofArr x0 b c hh w - c255) * fgAt (ofArr x1) b hh w
  rw [Ideal.ofBits_zero_f32]
  exact congrArg (0 + ·) (Finset.sum_congr rfl fun c _ => Finset.sum_congr rfl fun hh _ =>
    Finset.sum_congr rfl fun w _ => ref_hubFg_apply x0 x1 b c hh w)

/-- The background prediction sums. -/
theorem ref_sumPredBg (x0 x1 : FVec Ideal SImg .f32) :
    val_main_v59 (F := Ideal) x0 x1 = sumPredBgW (ofArr x0) (ofArr x1) := by
  funext i
  obtain ⟨b, c, rfl⟩ : ∃ (b : Fin 16) (c : Fin 3), i = ix2 b c := ⟨i 0, i 1, eq_ix2 i⟩
  unfold val_main_v59
  generalize hy : val_main_v58 (F := Ideal) x0 x1 = y
  simp only [Host.reduceAdd, Ideal.hostReduceAdd_def]
  unfold Ideal.hostReduceAdd
  rw [sum_drop_hw]
  subst hy
  show Ideal.ofBits .f32 0x00000000#32 + _
    = 0 + ∑ hh : Fin 1024, ∑ w : Fin 1024, predBgAt (ofArr x0) (ofArr x1) b c hh w
  rw [Ideal.ofBits_zero_f32]
  exact congrArg (0 + ·) (Finset.sum_congr rfl fun hh _ =>
    Finset.sum_congr rfl fun w _ => ref_predBg_apply x0 x1 b c hh w)

/-- The foreground prediction sums. -/
theorem ref_sumPredFg (x0 x1 : FVec Ideal SImg .f32) :
    val_main_v65 (F := Ideal) x0 x1 = sumPredFgW (ofArr x0) (ofArr x1) := by
  funext i
  obtain ⟨b, c, rfl⟩ : ∃ (b : Fin 16) (c : Fin 3), i = ix2 b c := ⟨i 0, i 1, eq_ix2 i⟩
  unfold val_main_v65
  generalize hy : val_main_v64 (F := Ideal) x0 x1 = y
  simp only [Host.reduceAdd, Ideal.hostReduceAdd_def]
  unfold Ideal.hostReduceAdd
  rw [sum_drop_hw]
  subst hy
  show Ideal.ofBits .f32 0x00000000#32 + _
    = 0 + ∑ hh : Fin 1024, ∑ w : Fin 1024, predFgAt (ofArr x0) (ofArr x1) b c hh w
  rw [Ideal.ofBits_zero_f32]
  exact congrArg (0 + ·) (Finset.sum_congr rfl fun hh _ =>
    Finset.sum_congr rfl fun w _ => ref_predFg_apply x0 x1 b c hh w)

/-- The background pixel counts. -/
theorem ref_countBg (x1 : FVec Ideal SImg .f32) : val_main_v12 (F := Ideal) x1 = countBgW (ofArr x1) := by
  funext i
  obtain ⟨b, rfl⟩ : ∃ b : Fin 16, i = ix1 b := ⟨i 0, eq_ix1 i⟩
  rw [val_main_v12_apply]
  unfold val_main_v11
  refine (count_eq_sum _ _ (val_main_v2 (F := Ideal) x1) _ rfl b).trans ?_
  exact Finset.sum_congr rfl fun hh _ => Finset.sum_congr rfl fun w _ => by rw [ref_bgBit]; rfl

/-- The foreground pixel counts. -/
theorem ref_countFg (x1 : FVec Ideal SImg .f32) : val_main_v15 (F := Ideal) x1 = countFgW (ofArr x1) := by
  funext i
  obtain ⟨b, rfl⟩ : ∃ b : Fin 16, i = ix1 b := ⟨i 0, eq_ix1 i⟩
  rw [val_main_v15_apply]
  unfold val_main_v14
  refine (count_eq_sum _ _ (val_main_v5 (F := Ideal) x1) _ rfl b).trans ?_
  exact Finset.sum_congr rfl fun hh _ => Finset.sum_congr rfl fun w _ => by rw [ref_fgBit]; rfl

/-! ## From the statistics on: the same operations -/

/-- The reference's result is `tail` of its six statistics. -/
theorem ref_tail (x0 x1 : FVec Ideal SImg .f32) :
    val_main_v93 (F := Ideal) x0 x1
      = tail (val_main_v36 (F := Ideal) x0 x1) (val_main_v53 (F := Ideal) x0 x1) (val_main_v12 (F := Ideal) x1)
          (val_main_v15 (F := Ideal) x1) (val_main_v59 (F := Ideal) x0 x1) (val_main_v65 (F := Ideal) x0 x1) := by
  simp only [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v62, val_main_v61, val_main_v60, val_main_v56, val_main_v55, val_main_v54, val_main_v39, val_main_v38, val_main_v37, val_main_v24, val_main_v23, val_main_v22, val_main_v21, val_main_v20, val_main_v19, val_main_v18, val_main_v17, val_main_v16, val_main_cst_31, val_main_cst_30, val_main_cst_29, val_main_cst_28, val_main_cst_27, val_main_cst_26, val_main_cst_25, val_main_cst_24, val_main_cst_23, val_main_cst_22, val_main_cst_21, val_main_cst_18, val_main_cst_12, val_main_cst_7, val_main_cst_6, val_main_cst_5, val_main_cst_4, val_main_call5_v1, val_main_call5_v0, val_main_call4_v1, val_main_call4_v0, val_main_call3_v1, val_main_call3_v0, val_main_call2_v1, val_main_call2_v0]
  generalize val_main_v36 (F := Ideal) x0 x1 = sbg
  generalize val_main_v53 (F := Ideal) x0 x1 = sfg
  generalize val_main_v12 (F := Ideal) x1 = nbg
  generalize val_main_v15 (F := Ideal) x1 = nfg
  generalize val_main_v59 (F := Ideal) x0 x1 = bgp
  generalize val_main_v65 (F := Ideal) x0 x1 = fgp
  rfl

/-! ## The reference is the specification -/

/-- THE REFERENCE'S RESULT, as a function of its two argument arrays, is the loss of the specification. -/
theorem ref_loss_eq (x0 x1 : FVec Ideal SImg .f32) :
    val_main_v93 (F := Ideal) x0 x1 = loss (ofArr x0) (ofArr x1) := by
  rw [ref_tail, ref_sumHubBg, ref_sumHubFg, ref_countBg, ref_countFg, ref_sumPredBg, ref_sumPredFg, loss_eq_whole]

end Cert.SegLoss

end
-- ==== Proof.Assembly.lean ====
/-
  The five claims, assembled.

  Both programs compute, per sample, ten statistics of the two images — the Huber sums of the prediction against 0 over
  the background pixels and against 255 over the foreground pixels, the two pixel counts, and the per-channel sums of
  the prediction under each mask — and from them the same closing formula (`Cert.SegLoss.tail`).  The kernel sums each
  statistic tile by tile (two tiles of 512 rows per sample, each tile lanes first, then rows, the Huber terms channel
  by channel inside a pixel); the reference sums over whole axes (and counts pixels as a 32-bit integer before
  converting).  Over the extended reals addition is commutative and associative, so the two groupings are one sum;
  the integer count of at most 2^20 pixels does not wrap.  Hence both results are `Cert.SegLoss.loss` of the two
  argument arrays, whatever the arrays hold: the precondition is not used.

  The frames: each of the two kernel programs runs its one pipelined region point by point (the body run whole in each
  of its two control cases), then its 82 host operations; the reference is 136 host operations.
-/
import proofs.«109099_j47090021433737_2_alg».proof.Defs
import proofs.«109099_j47090021433737_2_alg».proof.Proof.Gen.Kernel
import proofs.«109099_j47090021433737_2_alg».proof.Proof.Gen.KernelIdeal
import proofs.«109099_j47090021433737_2_alg».proof.Proof.Gen.ReferenceIdeal
import proofs.«109099_j47090021433737_2_alg».proof.Proof.Gen.Pre_finite_inputs
import proofs.«109099_j47090021433737_2_alg».proof.Proof.KB.Frame
import proofs.«109099_j47090021433737_2_alg».proof.Proof.KI.Stats
import proofs.«109099_j47090021433737_2_alg».proof.Proof.RefIsSpec

noncomputable section

open Idealize.ShloMosaic Idealize.ShloMosaic.TcCoe Idealize.SL.Sem

namespace Cert.Proof.SegClaims

/-- The word-level kernel program runs and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is straight-line host code: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at `Cert.SegLoss.loss` of the argument arrays. -/
theorem algebraic : Cert.algebraic_KernelIdeal_ReferenceIdeal := by
  intro m ρ m' ρ' _ hagree
  refine ⟨fun c => Cert.SegLoss.loss
      (Cert.SegLoss.ofArr (m ((c.tc : Thread Cert.KernelIdeal.nD Cert.KernelIdeal.τ).loc Cert.KernelIdeal.main_arg0)))
      (Cert.SegLoss.ofArr (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Hand.result_loss m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq, Cert.SegLoss.ref_loss_eq, (hagree c).1, (hagree c).2]

end Cert.Proof.SegClaims

end
-- ==== Proof.lean ====
/-
  `Cert.Claim` for the per-sample masked Huber loss with a mean-separation term: the Pallas kernel program (a grid of
  16 samples × 2 row tiles accumulating ten statistics per sample, then 82 host operations) against the jnp reference
  (whole-array reductions, then the same closing formula).  The three frames, the (empty) idealization ledger and the
  equality of the two idealized programs over the extended reals are proved in Proof/Assembly.lean; the witnesses of
  the programs' stated facts are the instances of the generated Proof/Gen modules.
-/
import proofs.«109099_j47090021433737_2_alg».proof.Defs
import proofs.«109099_j47090021433737_2_alg».proof.Proof.Gen.Kernel
import proofs.«109099_j47090021433737_2_alg».proof.Proof.Gen.KernelIdeal
import proofs.«109099_j47090021433737_2_alg».proof.Proof.Gen.ReferenceIdeal
import proofs.«109099_j47090021433737_2_alg».proof.Proof.Gen.Pre_finite_inputs
import proofs.«109099_j47090021433737_2_alg».proof.Proof.Assembly

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SegClaims.frame_k, SegClaims.frame_ki, SegClaims.frame_ri, SegClaims.preserves, SegClaims.algebraic⟩

end Cert.Proof

end
